-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v154)) (v2 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v154) = v1 c
          ∧ r.2.mem ((c.tc : Thread Cert.KernelIdeal.nD Cert.KernelIdeal.τ).loc Cert.KernelIdeal.main_v155) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S64x2 : Shape := ⟨2, ![64, 2]⟩
abbrev S64 : Shape := ⟨1, ![64]⟩
abbrev S64x64 : Shape := ⟨2, ![64, 64]⟩
abbrev S3x64 : Shape := ⟨2, ![3, 64]⟩
abbrev S3 : Shape := ⟨1, ![3]⟩
abbrev S8x2 : Shape := ⟨2, ![8, 2]⟩
abbrev S64x8 : Shape := ⟨2, ![64, 8]⟩
abbrev S8x64 : Shape := ⟨2, ![8, 64]⟩
abbrev S3x8 : Shape := ⟨2, ![3, 8]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S8x2 : S_.BroadcastsInDim S8x2 (![] : Fin 0 → Fin S8x2.rank)
  reducesTo_S8x2_S_d0_1 : S8x2.ReducesTo [0, 1] S_
  bcast_S_S64x8 : S_.BroadcastsInDim S64x8 (![] : Fin 0 → Fin S64x8.rank)
  reducesTo_S64x8_S_d0_1 : S64x8.ReducesTo [0, 1] S_
  bcast_S_S8x64 : S_.BroadcastsInDim S8x64 (![] : Fin 0 → Fin S8x64.rank)
  reducesTo_S8x64_S_d0_1 : S8x64.ReducesTo [0, 1] S_
  bcast_S_S3x8 : S_.BroadcastsInDim S3x8 (![] : Fin 0 → Fin S3x8.rank)
  reducesTo_S3x8_S_d0_1 : S3x8.ReducesTo [0, 1] S_

variable [Facts]

def fn_part7 {F : FTy → Type} [FloatOps F] (main_v118 : IVec S_ 1) (main_v119 : FVec F S3x8 .f32) : IVec S_ 1 :=
  let main_cst_46 : FVec F S_ .f32 := constant S_ .f32 0x7F800000#32
  let main_v120 : FVec F S3x8 .f32 := broadcastInDim S3x8 ![] bcast_S_S3x8 main_cst_46
  let main_v121 : IVec S3x8 1 := cmpf .olt main_v119 main_v120
  let main_c_47 : IVec S_ 1 := constantI S_ 1 1#1
  let main_v122 : IVec S_ 1 := (fun x v => Host.reduce IntOp.andi x v reducesTo_S3x8_S_d0_1 h_S_) main_v121 main_c_47
  let main_v123 : IVec S_ 1 := andi main_v118 main_v122
  main_v123

def fn_part6 {F : FTy → Type} [FloatOps F] (main_arg21 : FVec F S8x64 .f32) (main_arg22 : FVec F S64x8 .f32) (main_arg23 : FVec F S8x64 .f32) (main_arg24 : FVec F S3x8 .f32) (main_v98 : IVec S_ 1) (main_v101 : IVec S64x8 1) (main_c_39 : IVec S_ 1) : IVec S_ 1 :=
  let main_v102 : IVec S_ 1 := (fun x v => Host.reduce IntOp.andi x v reducesTo_S64x8_S_d0_1 h_S_) main_v101 main_c_39
  let main_v103 : IVec S_ 1 := andi main_v98 main_v102
  let main_v104 : FVec F S8x64 .f32 := Host.absf main_arg21
  let main_cst_40 : FVec F S_ .f32 := constant S_ .f32 0x7F800000#32
  let main_v105 : FVec F S8x64 .f32 := broadcastInDim S8x64 ![] bcast_S_S8x64 main_cst_40
  let main_v106 : IVec S8x64 1 := cmpf .olt main_v104 main_v105
  let main_c_41 : IVec S_ 1 := constantI S_ 1 1#1
  let main_v107 : IVec S_ 1 := (fun x v => Host.reduce IntOp.andi x v reducesTo_S8x64_S_d0_1 h_S_) main_v106 main_c_41
  let main_v108 : IVec S_ 1 := andi main_v103 main_v107
  let main_v109 : FVec F S64x8 .f32 := Host.absf main_arg22
  let main_cst_42 : FVec F S_ .f32 := constant S_ .f32 0x7F800000#32
  let main_v110 : FVec F S64x8 .f32 := broadcastInDim S64x8 ![] bcast_S_S64x8 main_cst_42
  let main_v111 : IVec S64x8 1 := cmpf .olt main_v109 main_v110
  let main_c_43 : IVec S_ 1 := constantI S_ 1 1#1
  let main_v112 : IVec S_ 1 := (fun x v => Host.reduce IntOp.andi x v reducesTo_S64x8_S_d0_1 h_S_) main_v111 main_c_43
  let main_v113 : IVec S_ 1 := andi main_v108 main_v112
  let main_v114 : FVec F S8x64 .f32 := Host.absf main_arg23
  let main_cst_44 : FVec F S_ .f32 := constant S_ .f32 0x7F800000#32
  let main_v115 : FVec F S8x64 .f32 := broadcastInDim S8x64 ![] bcast_S_S8x64 main_cst_44
  let main_v116 : IVec S8x64 1 := cmpf .olt main_v114 main_v115
  let main_c_45 : IVec S_ 1 := constantI S_ 1 1#1
  let main_v117 : IVec S_ 1 := (fun x v => Host.reduce IntOp.andi x v reducesTo_S8x64_S_d0_1 h_S_) main_v116 main_c_45
  let main_v118 : IVec S_ 1 := andi main_v113 main_v117
  let main_v119 : FVec F S3x8 .f32 := Host.absf main_arg24
  fn_part7 (F := F) main_v118 main_v119

def fn_part5 {F : FTy → Type} [FloatOps F] (main_arg18 : FVec F S64x8 .f32) (main_arg19 : FVec F S8x64 .f32) (main_arg20 : FVec F S64x8 .f32) (main_arg21 : FVec F S8x64 .f32) (main_arg22 : FVec F S64x8 .f32) (main_arg23 : FVec F S8x64 .f32) (main_arg24 : FVec F S3x8 .f32) (main_v83 : IVec S_ 1) (main_v84 : FVec F S8x64 .f32) (main_cst_32 : FVec F S_ .f32) : IVec S_ 1 :=
  let main_v85 : FVec F S8x64 .f32 := broadcastInDim S8x64 ![] bcast_S_S8x64 main_cst_32
  let main_v86 : IVec S8x64 1 := cmpf .olt main_v84 main_v85
  let main_c_33 : IVec S_ 1 := constantI S_ 1 1#1
  let main_v87 : IVec S_ 1 := (fun x v => Host.reduce IntOp.andi x v reducesTo_S8x64_S_d0_1 h_S_) main_v86 main_c_33
  let main_v88 : IVec S_ 1 := andi main_v83 main_v87
  let main_v89 : FVec F S64x8 .f32 := Host.absf main_arg18
  let main_cst_34 : FVec F S_ .f32 := constant S_ .f32 0x7F800000#32
  let main_v90 : FVec F S64x8 .f32 := broadcastInDim S64x8 ![] bcast_S_S64x8 main_cst_34
  let main_v91 : IVec S64x8 1 := cmpf .olt main_v89 main_v90
  let main_c_35 : IVec S_ 1 := constantI S_ 1 1#1
  let main_v92 : IVec S_ 1 := (fun x v => Host.reduce IntOp.andi x v reducesTo_S64x8_S_d0_1 h_S_) main_v91 main_c_35
  let main_v93 : IVec S_ 1 := andi main_v88 main_v92
  let main_v94 : FVec F S8x64 .f32 := Host.absf main_arg19
  let main_cst_36 : FVec F S_ .f32 := constant S_ .f32 0x7F800000#32
  let main_v95 : FVec F S8x64 .f32 := broadcastInDim S8x64 ![] bcast_S_S8x64 main_cst_36
  let main_v96 : IVec S8x64 1 := cmpf .olt main_v94 main_v95
  let main_c_37 : IVec S_ 1 := constantI S_ 1 1#1
  let main_v97 : IVec S_ 1 := (fun x v => Host.reduce IntOp.andi x v reducesTo_S8x64_S_d0_1 h_S_) main_v96 main_c_37
  let main_v98 : IVec S_ 1 := andi main_v93 main_v97
  let main_v99 : FVec F S64x8 .f32 := Host.absf main_arg20
  let main_cst_38 : FVec F S_ .f32 := constant S_ .f32 0x7F800000#32
  let main_v100 : FVec F S64x8 .f32 := broadcastInDim S64x8 ![] bcast_S_S64x8 main_cst_38
  let main_v101 : IVec S64x8 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S64x8 .f32) (main_arg15 : FVec F S8x64 .f32) (main_arg16 : FVec F S64x8 .f32) (main_arg17 : FVec F S8x64 .f32) (main_arg18 : FVec F S64x8 .f32) (main_arg19 : FVec F S8x64 .f32) (main_arg20 : FVec F S64x8 .f32) (main_arg21 : FVec F S8x64 .f32) (main_arg22 : FVec F S64x8 .f32) (main_arg23 : FVec F S8x64 .f32) (main_arg24 : FVec F S3x8 .f32) (main_v63 : IVec S_ 1) (main_v67 : IVec S_ 1) : IVec S_ 1 :=
  let main_v68 : IVec S_ 1 := andi main_v63 main_v67
  let main_v69 : FVec F S64x8 .f32 := Host.absf main_arg14
  let main_cst_26 : FVec F S_ .f32 := constant S_ .f32 0x7F800000#32
  let main_v70 : FVec F S64x8 .f32 := broadcastInDim S64x8 ![] bcast_S_S64x8 main_cst_26
  let main_v71 : IVec S64x8 1 := cmpf .olt main_v69 main_v70
  let main_c_27 : IVec S_ 1 := constantI S_ 1 1#1
  let main_v72 : IVec S_ 1 := (fun x v => Host.reduce IntOp.andi x v reducesTo_S64x8_S_d0_1 h_S_) main_v71 main_c_27
  let main_v73 : IVec S_ 1 := andi main_v68 main_v72
  let main_v74 : FVec F S8x64 .f32 := Host.absf main_arg15
  let main_cst_28 : FVec F S_ .f32 := constant S_ .f32 0x7F800000#32
  let main_v75 : FVec F S8x64 .f32 := broadcastInDim S8x64 ![] bcast_S_S8x64 main_cst_28
  let main_v76 : IVec S8x64 1 := cmpf .olt main_v74 main_v75
  let main_c_29 : IVec S_ 1 := constantI S_ 1 1#1
  let main_v77 : IVec S_ 1 := (fun x v => Host.reduce IntOp.andi x v reducesTo_S8x64_S_d0_1 h_S_) main_v76 main_c_29
  let main_v78 : IVec S_ 1 := andi main_v73 main_v77
  let main_v79 : FVec F S64x8 .f32 := Host.absf main_arg16
  let main_cst_30 : FVec F S_ .f32 := constant S_ .f32 0x7F800000#32
  let main_v80 : FVec F S64x8 .f32 := broadcastInDim S64x8 ![] bcast_S_S64x8 main_cst_30
  let main_v81 : IVec S64x8 1 := cmpf .olt main_v79 main_v80
  let main_c_31 : IVec S_ 1 := constantI S_ 1 1#1
  let main_v82 : IVec S_ 1 := (fun x v => Host.reduce IntOp.andi x v reducesTo_S64x8_S_d0_1 h_S_) main_v81 main_c_31
  let main_v83 : IVec S_ 1 := andi main_v78 main_v82
  let main_v84 : FVec F S8x64 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S3x64 .f32) (main_arg12 : FVec F S3 .f32) (main_arg13 : FVec F S8x2 .f32) (main_arg14 : FVec F S64x8 .f32) (main_arg15 : FVec F S8x64 .f32) (main_arg16 : FVec F S64x8 .f32) (main_arg17 : FVec F S8x64 .f32) (main_arg18 : FVec F S64x8 .f32) (main_arg19 : FVec F S8x64 .f32) (main_arg20 : FVec F S64x8 .f32) (main_arg21 : FVec F S8x64 .f32) (main_arg22 : FVec F S64x8 .f32) (main_arg23 : FVec F S8x64 .f32) (main_arg24 : FVec F S3x8 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S3x64 .f32 := Host.absf main_arg11
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S8x2 .f32 := Host.absf main_arg13
  let main_cst_24 : FVec F S_ .f32 := constant S_ .f32 0x7F800000#32
  let main_v65 : FVec F S8x2 .f32 := broadcastInDim S8x2 ![] bcast_S_S8x2 main_cst_24
  let main_v66 : IVec S8x2 1 := cmpf .olt main_v64 main_v65
  let main_c_25 : IVec S_ 1 := constantI S_ 1 1#1
  let main_v67 : IVec S_ 1 := (fun x v => Host.reduce IntOp.andi x v reducesTo_S8x2_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S3x64 .f32) (main_arg12 : FVec F S3 .f32) (main_arg13 : FVec F S8x2 .f32) (main_arg14 : FVec F S64x8 .f32) (main_arg15 : FVec F S8x64 .f32) (main_arg16 : FVec F S64x8 .f32) (main_arg17 : FVec F S8x64 .f32) (main_arg18 : FVec F S64x8 .f32) (main_arg19 : FVec F S8x64 .f32) (main_arg20 : FVec F S64x8 .f32) (main_arg21 : FVec F S8x64 .f32) (main_arg22 : FVec F S64x8 .f32) (main_arg23 : FVec F S8x64 .f32) (main_arg24 : FVec F S3x8 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S3x64 .f32) (main_arg12 : FVec F S3 .f32) (main_arg13 : FVec F S8x2 .f32) (main_arg14 : FVec F S64x8 .f32) (main_arg15 : FVec F S8x64 .f32) (main_arg16 : FVec F S64x8 .f32) (main_arg17 : FVec F S8x64 .f32) (main_arg18 : FVec F S64x8 .f32) (main_arg19 : FVec F S8x64 .f32) (main_arg20 : FVec F S64x8 .f32) (main_arg21 : FVec F S8x64 .f32) (main_arg22 : FVec F S64x8 .f32) (main_arg23 : FVec F S8x64 .f32) (main_arg24 : FVec F S3x8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S1048576x2 .f32) (main_arg1 : FVec F S64x2 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S3x64 .f32) (main_arg12 : FVec F S3 .f32) (main_arg13 : FVec F S8x2 .f32) (main_arg14 : FVec F S64x8 .f32) (main_arg15 : FVec F S8x64 .f32) (main_arg16 : FVec F S64x8 .f32) (main_arg17 : FVec F S8x64 .f32) (main_arg18 : FVec F S64x8 .f32) (main_arg19 : FVec F S8x64 .f32) (main_arg20 : FVec F S64x8 .f32) (main_arg21 : FVec F S8x64 .f32) (main_arg22 : FVec F S64x8 .f32) (main_arg23 : FVec F S8x64 .f32) (main_arg24 : FVec F S3x8 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S1048576x2 : Shape := ⟨2, ![1048576, 2]⟩
abbrev S64x2 : Shape := ⟨2, ![64, 2]⟩
abbrev S64 : Shape := ⟨1, ![64]⟩
abbrev S64x64 : Shape := ⟨2, ![64, 64]⟩
abbrev S3x64 : Shape := ⟨2, ![3, 64]⟩
abbrev S3 : Shape := ⟨1, ![3]⟩
abbrev S8x2 : Shape := ⟨2, ![8, 2]⟩
abbrev S64x8 : Shape := ⟨2, ![64, 8]⟩
abbrev S8x64 : Shape := ⟨2, ![8, 64]⟩
abbrev S3x8 : Shape := ⟨2, ![3, 8]⟩
abbrev S2x64 : Shape := ⟨2, ![2, 64]⟩
abbrev S_ : Shape := ⟨0, ![]⟩
abbrev S8x256 : Shape := ⟨2, ![8, 256]⟩
abbrev S1 : Shape := ⟨1, ![1]⟩
abbrev S2 : Shape := ⟨1, ![2]⟩
abbrev S256x256 : Shape := ⟨2, ![256, 256]⟩
abbrev S64x3 : Shape := ⟨2, ![64, 3]⟩
abbrev S256x12 : Shape := ⟨2, ![256, 12]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S1x3 : Shape := ⟨2, ![1, 3]⟩
abbrev S1x1x1x3 : Shape := ⟨4, ![1, 1, 1, 3]⟩
abbrev S1x1x4x3 : Shape := ⟨4, ![1, 1, 4, 3]⟩
abbrev S1x12 : Shape := ⟨2, ![1, 12]⟩
abbrev S262144x8 : Shape := ⟨2, ![262144, 8]⟩
abbrev S262144x12 : Shape := ⟨2, ![262144, 12]⟩
abbrev S4096x8 : Shape := ⟨2, ![4096, 8]⟩
abbrev S4096x12 : Shape := ⟨2, ![4096, 12]⟩
abbrev S4096x256 : Shape := ⟨2, ![4096, 256]⟩
abbrev S1048576x3 : Shape := ⟨2, ![1048576, 3]⟩
abbrev S1048576x1 : Shape := ⟨2, ![1048576, 1]⟩

abbrev nBuf : Space → Nat
  | .hbm => 235
  | .vmem => 16
  | .smem => 0
  | _ => 0

abbrev hbmTy0_0 (i : Nat) : BufTy := match i % 128 with
  | 0 => ⟨S1048576x2, .f32⟩
  | 1 => ⟨S64x2, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S3x64, .f32⟩
  | 12 => ⟨S3, .f32⟩
  | 13 => ⟨S8x2, .f32⟩
  | 14 => ⟨S64x8, .f32⟩
  | 15 => ⟨S8x64, .f32⟩
  | 16 => ⟨S64x8, .f32⟩
  | 17 => ⟨S8x64, .f32⟩
  | 18 => ⟨S64x8, .f32⟩
  | 19 => ⟨S8x64, .f32⟩
  | 20 => ⟨S64x8, .f32⟩
  | 21 => ⟨S8x64, .f32⟩
  | 22 => ⟨S64x8, .f32⟩
  | 23 => ⟨S8x64, .f32⟩
  | 24 => ⟨S3x8, .f32⟩
  | 25 => ⟨S64x2, .f32⟩
  | 26 => ⟨S64x2, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S3x64, .f32⟩
  | 36 => ⟨S3x64, .f32⟩
  | 37 => ⟨S2x64, .f32⟩
  | 38 => ⟨S_, .f32⟩
  | 39 => ⟨S8x256, .f32⟩
  | 40 => ⟨S_, .i32⟩
  | 41 => ⟨S1, .i32⟩
  | 42 => ⟨S_, .i32⟩
  | 43 => ⟨S1, .i32⟩
  | 44 => ⟨S2, .i32⟩
  | 45 => ⟨S8x256, .f32⟩
  | 46 => ⟨S_, .i32⟩
  | 47 => ⟨S1, .i32⟩
  | 48 => ⟨S_, .i32⟩
  | 49 => ⟨S1, .i32⟩
  | 50 => ⟨S2, .i32⟩
  | 51 => ⟨S8x256, .f32⟩
  | 52 => ⟨S_, .i32⟩
  | 53 => ⟨S1, .i32⟩
  | 54 => ⟨S_, .i32⟩
  | 55 => ⟨S1, .i32⟩
  | 56 => ⟨S2, .i32⟩
  | 57 => ⟨S8x256, .f32⟩
  | 58 => ⟨S_, .i32⟩
  | 59 => ⟨S1, .i32⟩
  | 60 => ⟨S_, .i32⟩
  | 61 => ⟨S1, .i32⟩
  | 62 => ⟨S2, .i32⟩
  | 63 => ⟨S8x256, .f32⟩
  | 64 => ⟨S8x256, .bf16⟩
  | 65 => ⟨S64x64, .f32⟩
  | 66 => ⟨S_, .f32⟩
  | 67 => ⟨S256x256, .f32⟩
  | 68 => ⟨S_, .i32⟩
  | 69 => ⟨S1, .i32⟩
  | 70 => ⟨S_, .i32⟩
  | 71 => ⟨S1, .i32⟩
  | 72 => ⟨S2, .i32⟩
  | 73 => ⟨S256x256, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S_, .i32⟩
  | 81 => ⟨S1, .i32⟩
  | 82 => ⟨S_, .i32⟩
  | 83 => ⟨S1, .i32⟩
  | 84 => ⟨S2, .i32⟩
  | 85 => ⟨S256x256, .f32⟩
  | 86 => ⟨S_, .i32⟩
  | 87 => ⟨S1, .i32⟩
  | 88 => ⟨S_, .i32⟩
  | 89 => ⟨S1, .i32⟩
  | 90 => ⟨S2, .i32⟩
  | 91 => ⟨S256x256, .f32⟩
  | 92 => ⟨S256x256, .bf16⟩
  | 93 => ⟨S64x64, .f32⟩
  | 94 => ⟨S_, .f32⟩
  | 95 => ⟨S256x256, .f32⟩
  | 96 => ⟨S_, .i32⟩
  | 97 => ⟨S1, .i32⟩
  | 98 => ⟨S_, .i32⟩
  | 99 => ⟨S1, .i32⟩
  | 100 => ⟨S2, .i32⟩
  | 101 => ⟨S256x256, .f32⟩
  | 102 => ⟨S_, .i32⟩
  | 103 => ⟨S1, .i32⟩
  | 104 => ⟨S_, .i32⟩
  | 105 => ⟨S1, .i32⟩
  | 106 => ⟨S2, .i32⟩
  | 107 => ⟨S256x256, .f32⟩
  | 108 => ⟨S_, .i32⟩
  | 109 => ⟨S1, .i32⟩
  | 110 => ⟨S_, .i32⟩
  | 111 => ⟨S1, .i32⟩
  | 112 => ⟨S2, .i32⟩
  | 113 => ⟨S256x256, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S256x256, .bf16⟩
  | 121 => ⟨S64x64, .f32⟩
  | 122 => ⟨S_, .f32⟩
  | 123 => ⟨S256x256, .f32⟩
  | 124 => ⟨S_, .i32⟩
  | 125 => ⟨S1, .i32⟩
  | 126 => ⟨S_, .i32⟩
  | 127 => ⟨S1, .i32⟩
  | _ => ⟨S1048576x2, .f32⟩

abbrev hbmTy0_1 (i : Nat) : BufTy := match i % 128 with
  | 0 => ⟨S2, .i32⟩
  | 1 => ⟨S256x256, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S_, .i32⟩
  | 9 => ⟨S1, .i32⟩
  | 10 => ⟨S_, .i32⟩
  | 11 => ⟨S1, .i32⟩
  | 12 => ⟨S2, .i32⟩
  | 13 => ⟨S256x256, .f32⟩
  | 14 => ⟨S_, .i32⟩
  | 15 => ⟨S1, .i32⟩
  | 16 => ⟨S_, .i32⟩
  | 17 => ⟨S1, .i32⟩
  | 18 => ⟨S2, .i32⟩
  | 19 => ⟨S256x256, .f32⟩
  | 20 => ⟨S256x256, .bf16⟩
  | 21 => ⟨S64x64, .f32⟩
  | 22 => ⟨S_, .f32⟩
  | 23 => ⟨S256x256, .f32⟩
  | 24 => ⟨S_, .i32⟩
  | 25 => ⟨S1, .i32⟩
  | 26 => ⟨S_, .i32⟩
  | 27 => ⟨S1, .i32⟩
  | 28 => ⟨S2, .i32⟩
  | 29 => ⟨S256x256, .f32⟩
  | 30 => ⟨S_, .i32⟩
  | 31 => ⟨S1, .i32⟩
  | 32 => ⟨S_, .i32⟩
  | 33 => ⟨S1, .i32⟩
  | 34 => ⟨S2, .i32⟩
  | 35 => ⟨S256x256, .f32⟩
  | 36 => ⟨S_, .i32⟩
  | 37 => ⟨S1, .i32⟩
  | 38 => ⟨S_, .i32⟩
  | 39 => ⟨S1, .i32⟩
  | 40 => ⟨S2, .i32⟩
  | 41 => ⟨S256x256, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S256x256, .bf16⟩
  | 49 => ⟨S64x3, .f32⟩
  | 50 => ⟨S_, .f32⟩
  | 51 => ⟨S256x12, .f32⟩
  | 52 => ⟨S_, .i32⟩
  | 53 => ⟨S1, .i32⟩
  | 54 => ⟨S_, .i32⟩
  | 55 => ⟨S1, .i32⟩
  | 56 => ⟨S2, .i32⟩
  | 57 => ⟨S256x12, .f32⟩
  | 58 => ⟨S_, .i32⟩
  | 59 => ⟨S1, .i32⟩
  | 60 => ⟨S_, .i32⟩
  | 61 => ⟨S1, .i32⟩
  | 62 => ⟨S2, .i32⟩
  | 63 => ⟨S256x12, .f32⟩
  | 64 => ⟨S_, .i32⟩
  | 65 => ⟨S1, .i32⟩
  | 66 => ⟨S_, .i32⟩
  | 67 => ⟨S1, .i32⟩
  | 68 => ⟨S2, .i32⟩
  | 69 => ⟨S256x12, .f32⟩
  | 70 => ⟨S_, .i32⟩
  | 71 => ⟨S1, .i32⟩
  | 72 => ⟨S_, .i32⟩
  | 73 => ⟨S1, .i32⟩
  | 74 => ⟨S2, .i32⟩
  | 75 => ⟨S256x12, .f32⟩
  | 76 => ⟨S256x12, .bf16⟩
  | 77 => ⟨S1x64, .f32⟩
  | 78 => ⟨S1x1x1x64, .f32⟩
  | 79 => ⟨S1x1x4x64, .f32⟩
  | 80 => ⟨S1x256, .f32⟩
  | 81 => ⟨S1x64, .f32⟩
  | 82 => ⟨S1x1x1x64, .f32⟩
  | 83 => ⟨S1x1x4x64, .f32⟩
  | 84 => ⟨S1x256, .f32⟩
  | 85 => ⟨S1x64, .f32⟩
  | 86 => ⟨S1x1x1x64, .f32⟩
  | 87 => ⟨S1x1x4x64, .f32⟩
  | 88 => ⟨S1x256, .f32⟩
  | 89 => ⟨S1x64, .f32⟩
  | 90 => ⟨S1x1x1x64, .f32⟩
  | 91 => ⟨S1x1x4x64, .f32⟩
  | 92 => ⟨S1x256, .f32⟩
  | 93 => ⟨S1x64, .f32⟩
  | 94 => ⟨S1x1x1x64, .f32⟩
  | 95 => ⟨S1x1x4x64, .f32⟩
  | 96 => ⟨S1x256, .f32⟩
  | 97 => ⟨S1x3, .f32⟩
  | 98 => ⟨S1x1x1x3, .f32⟩
  | 99 => ⟨S1x1x4x3, .f32⟩
  | 100 => ⟨S1x12, .f32⟩
  | 101 => ⟨S262144x8, .f32⟩
  | 102 => ⟨S262144x12, .f32⟩
  | 103 => ⟨S1048576x3, .f32⟩
  | 104 => ⟨S1048576x1, .f32⟩
  | 105 => ⟨S1048576x1, .f32⟩
  | 106 => ⟨S1048576x1, .f32⟩
  | _ => ⟨S1048576x2, .f32⟩

abbrev hbmTy (i : Nat) : BufTy := match i / 128 with
  | 0 => hbmTy0_0 i
  | 1 => hbmTy0_1 i
  | _ => ⟨S1048576x2, .f32⟩

abbrev bufTy : (tb : Table) → Fin (tcTables nBuf tb) → BufTy
  | .hbm, ⟨i, _⟩ => hbmTy i
  | .local _ .vmem, ⟨0, _⟩ => ⟨S4096x8, .f32⟩
  | .local _ .vmem, ⟨1, _⟩ => ⟨S4096x8, .f32⟩
  | .local _ .vmem, ⟨2, _⟩ => ⟨S8x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x12, .bf16⟩
  | .local _ .vmem, ⟨13, _⟩ => ⟨S1x12, .f32⟩
  | .local _ .vmem, ⟨14, _⟩ => ⟨S4096x12, .f32⟩
  | .local _ .vmem, ⟨15, _⟩ => ⟨S4096x12, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_c_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_c_8 : Ref sig .tc := ⟨.hbm, 68, rfl⟩
abbrev main_v33 : Ref sig .tc := ⟨.hbm, 69, rfl⟩
abbrev main_c_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_10 : Ref sig .tc := ⟨.hbm, 74, rfl⟩
abbrev main_v37 : Ref sig .tc := ⟨.hbm, 75, rfl⟩
abbrev main_c_11 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_12 : Ref sig .tc := ⟨.hbm, 80, rfl⟩
abbrev main_v41 : Ref sig .tc := ⟨.hbm, 81, rfl⟩
abbrev main_c_13 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_14 : Ref sig .tc := ⟨.hbm, 86, rfl⟩
abbrev main_v45 : Ref sig .tc := ⟨.hbm, 87, rfl⟩
abbrev main_c_15 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_16 : Ref sig .tc := ⟨.hbm, 94, rfl⟩
abbrev main_v51 : Ref sig .tc := ⟨.hbm, 95, rfl⟩
abbrev main_c_17 : Ref sig .tc := ⟨.hbm, 96, rfl⟩
abbrev main_v52 : Ref sig .tc := ⟨.hbm, 97, rfl⟩
abbrev main_c_18 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_19 : Ref sig .tc := ⟨.hbm, 102, rfl⟩
abbrev main_v56 : Ref sig .tc := ⟨.hbm, 103, rfl⟩
abbrev main_c_20 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_c_21 : Ref sig .tc := ⟨.hbm, 108, rfl⟩
abbrev main_v60 : Ref sig .tc := ⟨.hbm, 109, rfl⟩
abbrev main_c_22 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_23 : Ref sig .tc := ⟨.hbm, 114, rfl⟩
abbrev main_v64 : Ref sig .tc := ⟨.hbm, 115, rfl⟩
abbrev main_c_24 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_25 : Ref sig .tc := ⟨.hbm, 122, rfl⟩
abbrev main_v70 : Ref sig .tc := ⟨.hbm, 123, rfl⟩
abbrev main_c_26 : Ref sig .tc := ⟨.hbm, 124, rfl⟩
abbrev main_v71 : Ref sig .tc := ⟨.hbm, 125, rfl⟩
abbrev main_c_27 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_c_28 : Ref sig .tc := ⟨.hbm, 130, rfl⟩
abbrev main_v75 : Ref sig .tc := ⟨.hbm, 131, rfl⟩
abbrev main_c_29 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_c_30 : Ref sig .tc := ⟨.hbm, 136, rfl⟩
abbrev main_v79 : Ref sig .tc := ⟨.hbm, 137, rfl⟩
abbrev main_c_31 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_c_32 : Ref sig .tc := ⟨.hbm, 142, rfl⟩
abbrev main_v83 : Ref sig .tc := ⟨.hbm, 143, rfl⟩
abbrev main_c_33 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_34 : Ref sig .tc := ⟨.hbm, 150, rfl⟩
abbrev main_v89 : Ref sig .tc := ⟨.hbm, 151, rfl⟩
abbrev main_c_35 : Ref sig .tc := ⟨.hbm, 152, rfl⟩
abbrev main_v90 : Ref sig .tc := ⟨.hbm, 153, rfl⟩
abbrev main_c_36 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_c_37 : Ref sig .tc := ⟨.hbm, 158, rfl⟩
abbrev main_v94 : Ref sig .tc := ⟨.hbm, 159, rfl⟩
abbrev main_c_38 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_c_39 : Ref sig .tc := ⟨.hbm, 164, rfl⟩
abbrev main_v98 : Ref sig .tc := ⟨.hbm, 165, rfl⟩
abbrev main_c_40 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_c_41 : Ref sig .tc := ⟨.hbm, 170, rfl⟩
abbrev main_v102 : Ref sig .tc := ⟨.hbm, 171, rfl⟩
abbrev main_c_42 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_43 : Ref sig .tc := ⟨.hbm, 178, rfl⟩
abbrev main_v108 : Ref sig .tc := ⟨.hbm, 179, rfl⟩
abbrev main_c_44 : Ref sig .tc := ⟨.hbm, 180, rfl⟩
abbrev main_v109 : Ref sig .tc := ⟨.hbm, 181, rfl⟩
abbrev main_c_45 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_c_46 : Ref sig .tc := ⟨.hbm, 186, rfl⟩
abbrev main_v113 : Ref sig .tc := ⟨.hbm, 187, rfl⟩
abbrev main_c_47 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_c_48 : Ref sig .tc := ⟨.hbm, 192, rfl⟩
abbrev main_v117 : Ref sig .tc := ⟨.hbm, 193, rfl⟩
abbrev main_c_49 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_c_50 : Ref sig .tc := ⟨.hbm, 198, rfl⟩
abbrev main_v121 : Ref sig .tc := ⟨.hbm, 199, rfl⟩
abbrev main_c_51 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x12 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x12 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S64x2_S2x64_1_0 : S64x2.Transposes [1, 0] S2x64
  bcast_S_S8x256 : S_.BroadcastsInDim S8x256 (![] : Fin 0 → Fin S8x256.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  transposes_S64x64_S64x64_1_0 : S64x64.Transposes [1, 0] S64x64
  bcast_S_S256x256 : S_.BroadcastsInDim S256x256 (![] : Fin 0 → Fin S256x256.rank)
  transposes_S3x64_S64x3_1_0 : S3x64.Transposes [1, 0] S64x3
  bcast_S_S256x12 : S_.BroadcastsInDim S256x12 (![] : Fin 0 → Fin S256x12.rank)
  shapeCasts_S64_S1x64 : S64.ShapeCasts S1x64
  shapeCasts_S1x64_S1x1x1x64 : S1x64.ShapeCasts S1x1x1x64
  bcast_S1x1x1x64_S1x1x4x64_0_1_2_3 : S1x1x1x64.BroadcastsInDim S1x1x4x64 (![0, 1, 2, 3] : Fin 4 → Fin S1x1x4x64.rank)
  shapeCasts_S1x1x4x64_S1x256 : S1x1x4x64.ShapeCasts S1x256
  shapeCasts_S3_S1x3 : S3.ShapeCasts S1x3
  shapeCasts_S1x3_S1x1x1x3 : S1x3.ShapeCasts S1x1x1x3
  bcast_S1x1x1x3_S1x1x4x3_0_1_2_3 : S1x1x1x3.BroadcastsInDim S1x1x4x3 (![0, 1, 2, 3] : Fin 4 → Fin S1x1x4x3.rank)
  shapeCasts_S1x1x4x3_S1x12 : S1x1x4x3.ShapeCasts S1x12
  shapeCasts_S1048576x2_S262144x8 : S1048576x2.ShapeCasts S262144x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x12_S256x12_0_0 : ∀ a, (![0, 0] : Fin 2 → Nat) a + S256x12.size a ≤ S256x12.size a
  h_S256x12 : 0 < S256x12.numel
  shapeCasts_S256x12_S256x12 : S256x12.ShapeCasts S256x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S4096x12 : S1x12.Broadcasts S4096x12
  inb_S4096x12_S4096x12_0_0 : ∀ a, (![0, 0] : Fin 2 → Nat) a + S4096x12.size a ≤ S4096x12.size a
  h_S4096x12 : 0 < S4096x12.numel
  shapeCasts_S262144x12_S1048576x3 : S262144x12.ShapeCasts S1048576x3
  slices_S1048576x3_S1048576x1_0_0 : S1048576x3.Slices ![0, 0] S1048576x1
  slices_S1048576x3_S1048576x1_0_1 : S1048576x3.Slices ![0, 1] S1048576x1
  slices_S1048576x3_S1048576x1_0_2 : S1048576x3.Slices ![0, 2] S1048576x1
  dot_S64x8_S8x2_S64x2_1_0_0_1_n_n_wf : DotDims.WF S64x8 S8x2 S64x2 [1] [0] [0] [1] [] []
  dot_S64x8_S8x64_S64x64_1_0_0_1_n_n_wf : DotDims.WF S64x8 S8x64 S64x64 [1] [0] [0] [1] [] []
  dot_S3x8_S8x64_S3x64_1_0_0_1_n_n_wf : DotDims.WF S3x8 S8x64 S3x64 [1] [0] [0] [1] [] []
  scatter_S8x256_S2_S2x64_01_n_01_0_wf : ScatterDims.WF S8x256 S2 S2x64 [0, 1] [] [0, 1] 0
  scatter_S256x256_S2_S64x64_01_n_01_0_wf : ScatterDims.WF S256x256 S2 S64x64 [0, 1] [] [0, 1] 0
  scatter_S256x12_S2_S64x3_01_n_01_0_wf : ScatterDims.WF S256x12 S2 S64x3 [0, 1] [] [0, 1] 0
  dot_S4096x8_S8x256_S4096x256_1_0_0_1_n_n_wf : DotDims.WF S4096x8 S8x256 S4096x256 [1] [0] [0] [1] [] []
  dot_S4096x256_S256x256_S4096x256_1_0_0_1_n_n_wf : DotDims.WF S4096x256 S256x256 S4096x256 [1] [0] [0] [1] [] []
  dot_S4096x256_S256x12_S4096x12_1_0_0_1_n_n_wf : DotDims.WF S4096x256 S256x12 S4096x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S262144x8.size a
  hwx0_0 : ∀ i : grid0.Coords, EltTy.bits .f32 = 32 ∨ (Rect.block (s := S262144x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .bf16 = 32 ∨ (Rect.block (s := S8x256) S8x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x12.size a ≤ S256x12.size a
  hwx0_11 : ∀ i : grid0.Coords, EltTy.bits .bf16 = 32 ∨ (Rect.block (s := S256x12) S256x12.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x12.size a ≤ S1x12.size a
  hwx0_12 : ∀ i : grid0.Coords, EltTy.bits .f32 = 32 ∨ (Rect.block (s := S1x12) S1x12.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x12.size a ≤ S262144x12.size a
  hwx0_13 : ∀ i : grid0.Coords, EltTy.bits .f32 = 32 ∨ (Rect.block (s := S262144x12) S4096x12.size (cc0_transform_13 i) (hinb0_13 i)).WholeWords (EltTy.packing .f32)

variable [Facts₀]

def dot_S64x8_S8x2_S64x2_1_0_0_1_n_n : DotDims S64x8 S8x2 S64x2 where
  lhsContracting := [1]
  rhsContracting := [0]
  lhsNonContracting := [0]
  rhsNonContracting := [1]
  lhsBatch := []
  rhsBatch := []
  wf := dot_S64x8_S8x2_S64x2_1_0_0_1_n_n_wf
def dot_S64x8_S8x64_S64x64_1_0_0_1_n_n : DotDims S64x8 S8x64 S64x64 where
  lhsContracting := [1]
  rhsContracting := [0]
  lhsNonContracting := [0]
  rhsNonContracting := [1]
  lhsBatch := []
  rhsBatch := []
  wf := dot_S64x8_S8x64_S64x64_1_0_0_1_n_n_wf
def dot_S3x8_S8x64_S3x64_1_0_0_1_n_n : DotDims S3x8 S8x64 S3x64 where
  lhsContracting := [1]
  rhsContracting := [0]
  lhsNonContracting := [0]
  rhsNonContracting := [1]
  lhsBatch := []
  rhsBatch := []
  wf := dot_S3x8_S8x64_S3x64_1_0_0_1_n_n_wf
def scatter_S8x256_S2_S2x64_01_n_01_0 : ScatterDims S8x256 S2 S2x64 where
  updateWindowDims := [0, 1]
  insertedWindowDims := []
  scatterDimsToOperandDims := [0, 1]
  indexVectorDim := 0
  wf := scatter_S8x256_S2_S2x64_01_n_01_0_wf
def scatter_S256x256_S2_S64x64_01_n_01_0 : ScatterDims S256x256 S2 S64x64 where
  updateWindowDims := [0, 1]
  insertedWindowDims := []
  scatterDimsToOperandDims := [0, 1]
  indexVectorDim := 0
  wf := scatter_S256x256_S2_S64x64_01_n_01_0_wf
def scatter_S256x12_S2_S64x3_01_n_01_0 : ScatterDims S256x12 S2 S64x3 where
  updateWindowDims := [0, 1]
  insertedWindowDims := []
  scatterDimsToOperandDims := [0, 1]
  indexVectorDim := 0
  wf := scatter_S256x12_S2_S64x3_01_n_01_0_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x12_S4096x12_1_0_0_1_n_n : DotDims S4096x256 S256x12 S4096x12 where
  lhsContracting := [1]
  rhsContracting := [0]
  lhsNonContracting := [0]
  rhsNonContracting := [1]
  lhsBatch := []
  rhsBatch := []
  wf := dot_S4096x256_S256x12_S4096x12_1_0_0_1_n_n_wf

abbrev win0_0 : Pipeline.Window sig grid0 :=
  Pipeline.Window.ofSpec (Memref.whole main_v150) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v129) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v133) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v137) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v87) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v141) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v106) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v145) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v125) S256x12.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v149) S1x12.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v151) S4096x12.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S64x2 : Shape := ⟨2, ![64, 2]⟩
abbrev S64 : Shape := ⟨1, ![64]⟩
abbrev S64x64 : Shape := ⟨2, ![64, 64]⟩
abbrev S3x64 : Shape := ⟨2, ![3, 64]⟩
abbrev S3 : Shape := ⟨1, ![3]⟩
abbrev S8x2 : Shape := ⟨2, ![8, 2]⟩
abbrev S64x8 : Shape := ⟨2, ![64, 8]⟩
abbrev S8x64 : Shape := ⟨2, ![8, 64]⟩
abbrev S3x8 : Shape := ⟨2, ![3, 8]⟩
abbrev S2x64 : Shape := ⟨2, ![2, 64]⟩
abbrev S1048576x64 : Shape := ⟨2, ![1048576, 64]⟩
abbrev S1x64 : Shape := ⟨2, ![1, 64]⟩
abbrev S2x8 : Shape := ⟨2, ![2, 8]⟩
abbrev S1048576x8 : Shape := ⟨2, ![1048576, 8]⟩
abbrev S64x3 : Shape := ⟨2, ![64, 3]⟩
abbrev S1048576x3 : Shape := ⟨2, ![1048576, 3]⟩
abbrev S1x3 : Shape := ⟨2, ![1, 3]⟩
abbrev S8x3 : Shape := ⟨2, ![8, 3]⟩
abbrev S1048576x1 : Shape := ⟨2, ![1048576, 1]⟩

abbrev nBuf : Space → Nat
  | .hbm => 93
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S64x2, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S3x64, .f32⟩
  | .hbm, ⟨12, _⟩ => ⟨S3, .f32⟩
  | .hbm, ⟨13, _⟩ => ⟨S8x2, .f32⟩
  | .hbm, ⟨14, _⟩ => ⟨S64x8, .f32⟩
  | .hbm, ⟨15, _⟩ => ⟨S8x64, .f32⟩
  | .hbm, ⟨16, _⟩ => ⟨S64x8, .f32⟩
  | .hbm, ⟨17, _⟩ => ⟨S8x64, .f32⟩
  | .hbm, ⟨18, _⟩ => ⟨S64x8, .f32⟩
  | .hbm, ⟨19, _⟩ => ⟨S8x64, .f32⟩
  | .hbm, ⟨20, _⟩ => ⟨S64x8, .f32⟩
  | .hbm, ⟨21, _⟩ => ⟨S8x64, .f32⟩
  | .hbm, ⟨22, _⟩ => ⟨S64x8, .f32⟩
  | .hbm, ⟨23, _⟩ => ⟨S8x64, .f32⟩
  | .hbm, ⟨24, _⟩ => ⟨S3x8, .f32⟩
  | .hbm, ⟨25, _⟩ => ⟨S2x64, .f32⟩
  | .hbm, ⟨26, _⟩ => ⟨S1048576x64, .f32⟩
  | .hbm, ⟨27, _⟩ => ⟨S1x64, .f32⟩
  | .hbm, ⟨28, _⟩ => ⟨S1048576x64, .f32⟩
  | .hbm, ⟨29, _⟩ => ⟨S1048576x64, .f32⟩
  | .hbm, ⟨30, _⟩ => ⟨S2x8, .f32⟩
  | .hbm, ⟨31, _⟩ => ⟨S1048576x8, .f32⟩
  | .hbm, ⟨32, _⟩ => ⟨S8x64, .f32⟩
  | .hbm, ⟨33, _⟩ => ⟨S1048576x64, .f32⟩
  | .hbm, ⟨34, _⟩ => ⟨S1048576x64, .f32⟩
  | .hbm, ⟨35, _⟩ => ⟨S1048576x64, .f32⟩
  | .hbm, ⟨36, _⟩ => ⟨S64x64, .f32⟩
  | .hbm, ⟨37, _⟩ => ⟨S1048576x64, .f32⟩
  | .hbm, ⟨38, _⟩ => ⟨S1x64, .f32⟩
  | .hbm, ⟨39, _⟩ => ⟨S1048576x64, .f32⟩
  | .hbm, ⟨40, _⟩ => ⟨S1048576x64, .f32⟩
  | .hbm, ⟨41, _⟩ => ⟨S64x8, .f32⟩
  | .hbm, ⟨42, _⟩ => ⟨S1048576x8, .f32⟩
  | .hbm, ⟨43, _⟩ => ⟨S8x64, .f32⟩
  | .hbm, ⟨44, _⟩ => ⟨S1048576x64, .f32⟩
  | .hbm, ⟨45, _⟩ => ⟨S1048576x64, .f32⟩
  | .hbm, ⟨46, _⟩ => ⟨S1048576x64, .f32⟩
  | .hbm, ⟨47, _⟩ => ⟨S64x64, .f32⟩
  | .hbm, ⟨48, _⟩ => ⟨S1048576x64, .f32⟩
  | .hbm, ⟨49, _⟩ => ⟨S1x64, .f32⟩
  | .hbm, ⟨50, _⟩ => ⟨S1048576x64, .f32⟩
  | .hbm, ⟨51, _⟩ => ⟨S1048576x64, .f32⟩
  | .hbm, ⟨52, _⟩ => ⟨S64x8, .f32⟩
  | .hbm, ⟨53, _⟩ => ⟨S1048576x8, .f32⟩
  | .hbm, ⟨54, _⟩ => ⟨S8x64, .f32⟩
  | .hbm, ⟨55, _⟩ => ⟨S1048576x64, .f32⟩
  | .hbm, ⟨56, _⟩ => ⟨S1048576x64, .f32⟩
  | .hbm, ⟨57, _⟩ => ⟨S1048576x64, .f32⟩
  | .hbm, ⟨58, _⟩ => ⟨S64x64, .f32⟩
  | .hbm, ⟨59, _⟩ => ⟨S1048576x64, .f32⟩
  | .hbm, ⟨60, _⟩ => ⟨S1x64, .f32⟩
  | .hbm, ⟨61, _⟩ => ⟨S1048576x64, .f32⟩
  | .hbm, ⟨62, _⟩ => ⟨S1048576x64, .f32⟩
  | .hbm, ⟨63, _⟩ => ⟨S64x8, .f32⟩
  | .hbm, ⟨64, _⟩ => ⟨S1048576x8, .f32⟩
  | .hbm, ⟨65, _⟩ => ⟨S8x64, .f32⟩
  | .hbm, ⟨66, _⟩ => ⟨S1048576x64, .f32⟩
  | .hbm, ⟨67, _⟩ => ⟨S1048576x64, .f32⟩
  | .hbm, ⟨68, _⟩ => ⟨S1048576x64, .f32⟩
  | .hbm, ⟨69, _⟩ => ⟨S64x64, .f32⟩
  | .hbm, ⟨70, _⟩ => ⟨S1048576x64, .f32⟩
  | .hbm, ⟨71, _⟩ => ⟨S1x64, .f32⟩
  | .hbm, ⟨72, _⟩ => ⟨S1048576x64, .f32⟩
  | .hbm, ⟨73, _⟩ => ⟨S1048576x64, .f32⟩
  | .hbm, ⟨74, _⟩ => ⟨S64x8, .f32⟩
  | .hbm, ⟨75, _⟩ => ⟨S1048576x8, .f32⟩
  | .hbm, ⟨76, _⟩ => ⟨S8x64, .f32⟩
  | .hbm, ⟨77, _⟩ => ⟨S1048576x64, .f32⟩
  | .hbm, ⟨78, _⟩ => ⟨S1048576x64, .f32⟩
  | .hbm, ⟨79, _⟩ => ⟨S1048576x64, .f32⟩
  | .hbm, ⟨80, _⟩ => ⟨S64x3, .f32⟩
  | .hbm, ⟨81, _⟩ => ⟨S1048576x3, .f32⟩
  | .hbm, ⟨82, _⟩ => ⟨S1x3, .f32⟩
  | .hbm, ⟨83, _⟩ => ⟨S1048576x3, .f32⟩
  | .hbm, ⟨84, _⟩ => ⟨S1048576x3, .f32⟩
  | .hbm, ⟨85, _⟩ => ⟨S64x8, .f32⟩
  | .hbm, ⟨86, _⟩ => ⟨S1048576x8, .f32⟩
  | .hbm, ⟨87, _⟩ => ⟨S8x3, .f32⟩
  | .hbm, ⟨88, _⟩ => ⟨S1048576x3, .f32⟩
  | .hbm, ⟨89, _⟩ => ⟨S1048576x3, .f32⟩
  | .hbm, ⟨90, _⟩ => ⟨S1048576x1, .f32⟩
  | .hbm, ⟨91, _⟩ => ⟨S1048576x1, .f32⟩
  | .hbm, ⟨92, _⟩ => ⟨S1048576x1, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S64x2_S2x64_1_0 : S64x2.Transposes [1, 0] S2x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  transposes_S8x2_S2x8_1_0 : S8x2.Transposes [1, 0] S2x8
  transposes_S64x8_S8x64_1_0 : S64x8.Transposes [1, 0] S8x64
  transposes_S64x64_S64x64_1_0 : S64x64.Transposes [1, 0] S64x64
  transposes_S8x64_S64x8_1_0 : S8x64.Transposes [1, 0] S64x8
  transposes_S3x64_S64x3_1_0 : S3x64.Transposes [1, 0] S64x3
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  transposes_S3x8_S8x3_1_0 : S3x8.Transposes [1, 0] S8x3
  slices_S1048576x3_S1048576x1_0_0 : S1048576x3.Slices ![0, 0] S1048576x1
  slices_S1048576x3_S1048576x1_0_1 : S1048576x3.Slices ![0, 1] S1048576x1
  slices_S1048576x3_S1048576x1_0_2 : S1048576x3.Slices ![0, 2] S1048576x1
  dot_S1048576x2_S2x64_S1048576x64_1_0_0_1_n_n_wf : DotDims.WF S1048576x2 S2x64 S1048576x64 [1] [0] [0] [1] [] []
  dot_S1048576x2_S2x8_S1048576x8_1_0_0_1_n_n_wf : DotDims.WF S1048576x2 S2x8 S1048576x8 [1] [0] [0] [1] [] []
  dot_S1048576x8_S8x64_S1048576x64_1_0_0_1_n_n_wf : DotDims.WF S1048576x8 S8x64 S1048576x64 [1] [0] [0] [1] [] []
  dot_S1048576x64_S64x64_S1048576x64_1_0_0_1_n_n_wf : DotDims.WF S1048576x64 S64x64 S1048576x64 [1] [0] [0] [1] [] []
  dot_S1048576x64_S64x8_S1048576x8_1_0_0_1_n_n_wf : DotDims.WF S1048576x64 S64x8 S1048576x8 [1] [0] [0] [1] [] []
  dot_S1048576x64_S64x3_S1048576x3_1_0_0_1_n_n_wf : DotDims.WF S1048576x64 S64x3 S1048576x3 [1] [0] [0] [1] [] []
  dot_S1048576x8_S8x3_S1048576x3_1_0_0_1_n_n_wf : DotDims.WF S1048576x8 S8x3 S1048576x3 [1] [0] [0] [1] [] []

variable [Facts₀]

def dot_S1048576x2_S2x64_S1048576x64_1_0_0_1_n_n : DotDims S1048576x2 S2x64 S1048576x64 where
  lhsContracting := [1]
  rhsContracting := [0]
  lhsNonContracting := [0]
  rhsNonContracting := [1]
  lhsBatch := []
  rhsBatch := []
  wf := dot_S1048576x2_S2x64_S1048576x64_1_0_0_1_n_n_wf
def dot_S1048576x2_S2x8_S1048576x8_1_0_0_1_n_n : DotDims S1048576x2 S2x8 S1048576x8 where
  lhsContracting := [1]
  rhsContracting := [0]
  lhsNonContracting := [0]
  rhsNonContracting := [1]
  lhsBatch := []
  rhsBatch := []
  wf := dot_S1048576x2_S2x8_S1048576x8_1_0_0_1_n_n_wf
def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x8_S1048576x8_1_0_0_1_n_n : DotDims S1048576x64 S64x8 S1048576x8 where
  lhsContracting := [1]
  rhsContracting := [0]
  lhsNonContracting := [0]
  rhsNonContracting := [1]
  lhsBatch := []
  rhsBatch := []
  wf := dot_S1048576x64_S64x8_S1048576x8_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf
def dot_S1048576x8_S8x3_S1048576x3_1_0_0_1_n_n : DotDims S1048576x8 S8x3 S1048576x3 where
  lhsContracting := [1]
  rhsContracting := [0]
  lhsNonContracting := [0]
  rhsNonContracting := [1]
  lhsBatch := []
  rhsBatch := []
  wf := dot_S1048576x8_S8x3_S1048576x3_1_0_0_1_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibLoraLaw.lean ====
/-
  The algebra of a linear layer with a low-rank update, on the extended reals.

  A layer maps a row v to  v·Wᵀ + b + (v·Aᵀ)·Bᵀ.  Folding the update into the weight, W' = W + B·A, the same row is
  v·W'ᵀ + b.  The two agree wherever every entry is a real number: the identity is distributivity and a change of
  the order of summation, which the extended reals only grant away from the infinities.  Real entries stay real
  through sums, products and tanh, so a stack of such layers can be compared layer by layer.
  Also here: a sum over G·K positions of a summand that vanishes outside the g-th group of K is the sum over that group.
-/
import Idealize.ShloMosaic.PureOps.Ideal.Laws

noncomputable section

open scoped BigOperators

namespace Cert.LibLoraLaw

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- tanh of anything is a real number (it is ±1 at the infinities). -/
theorem isReal_tanh (x : EReal) : IsReal (Idealize.ShloMosaic.Ideal.tanh x) := by
  induction x using EReal.rec with
  | bot => exact ⟨-1, by simp⟩
  | coe r => exact ⟨Real.tanh r, rfl⟩
  | top => exact ⟨1, by simp⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the image of a family of reals. -/
theorem exists_real_family {ι : Type*} (f : ι → EReal) (h : ∀ i, IsReal (f i)) : ∃ g : ι → ℝ, f = fun i => (g i : EReal) :=
  ⟨fun i => (h i).choose, funext fun i => (h i).choose_spec⟩

/-- One output of the layer with the update folded into the weight: Σ_k v_k (W_k + Σ_r B_r A_{r k}) + b. -/
def foldedOut {κ ρ : Type*} [Fintype κ] [Fintype ρ] (v W : κ → EReal) (b : EReal) (A : ρ → κ → EReal) (B : ρ → EReal) : EReal :=
  (∑ k, v k * (W k + ∑ r, B r * A r k)) + b

/-- One output of the layer as the reference spells it: Σ_k v_k W_k + b + Σ_r (Σ_k v_k A_{r k}) B_r. -/
def splitOut {κ ρ : Type*} [Fintype κ] [Fintype ρ] (v W : κ → EReal) (b : EReal) (A : ρ → κ → EReal) (B : ρ → EReal) : EReal :=
  (∑ k, v k * W k) + b + ∑ r, (∑ k, v k * A r k) * B r

/-- Folding the low-rank update into the weight does not change the layer's output, when the row, the weight and the
    two factors are real: v·(W + B A)ᵀ = v·Wᵀ + (v·Aᵀ)·Bᵀ by distributivity and exchanging the two sums. -/
theorem folded_eq_split {κ ρ : Type*} [Fintype κ] [Fintype ρ] (v W : κ → EReal) (b : EReal) (A : ρ → κ → EReal) (B : ρ → EReal)
    (hv : ∀ k, IsReal (v k)) (hW : ∀ k, IsReal (W k)) (hA : ∀ r k, IsReal (A r k)) (hB : ∀ r, IsReal (B r)) :
    foldedOut v W b A B = splitOut v W b A B := by
  obtain ⟨v', rfl⟩ := exists_real_family v hv
  obtain ⟨W', rfl⟩ := exists_real_family W hW
  obtain ⟨B', rfl⟩ := exists_real_family B hB
  obtain ⟨A', hA'⟩ : ∃ g : ρ → κ → ℝ, A = fun r k => (g r k : EReal) :=
    ⟨fun r k => (hA r k).choose, funext fun r => funext fun k => (hA r k).choose_spec⟩
  subst hA'
  unfold foldedOut splitOut
  have key : (∑ k, v' k * (W' k + ∑ r, B' r * A' r k)) = (∑ k, v' k * W' k) + ∑ r, (∑ k, v' k * A' r k) * B' r := by
    simp only [mul_add, Finset.sum_add_distrib, Finset.mul_sum, Finset.sum_mul]
    congr 1
    rw [Finset.sum_comm]
    exact Finset.sum_congr rfl fun r _ => Finset.sum_congr rfl fun k _ => by ring
  have e1 : (∑ k, (v' k : EReal) * ((W' k : EReal) + ∑ r, (B' r : EReal) * (A' r k : EReal)))
      = ((∑ k, v' k * (W' k + ∑ r, B' r * A' r k) : ℝ) : EReal) := by
    rw [coe_sum]
    refine Finset.sum_congr rfl fun k _ => ?_
    rw [EReal.coe_mul, EReal.coe_add, coe_sum]
    simp only [EReal.coe_mul]
  have e2 : (∑ k, (v' k : EReal) * (W' k : EReal)) + ∑ r, (∑ k, (v' k : EReal) * (A' r k : EReal)) * (B' r : EReal)
      = (((∑ k, v' k * W' k) + ∑ r, (∑ k, v' k * A' r k) * B' r : ℝ) : EReal) := by
    rw [EReal.coe_add, coe_sum, coe_sum]
    have a1 : ∀ k, ((v' k * W' k : ℝ) : EReal) = (v' k : EReal) * (W' k : EReal) := fun k => EReal.coe_mul _ _
    have a2 : ∀ r, (((∑ k, v' k * A' r k) * B' r : ℝ) : EReal) = (∑ k, (v' k : EReal) * (A' r k : EReal)) * (B' r : EReal) :=
      fun r => by
        rw [EReal.coe_mul, coe_sum]
        simp only [EReal.coe_mul]
    simp only [a1, a2]
  rw [e1, key, ← e2, add_right_comm]

/-- The folded layer's output is real when everything that enters it is. -/
theorem isReal_foldedOut {κ ρ : Type*} [Fintype κ] [Fintype ρ] (v W : κ → EReal) (b : EReal) (A : ρ → κ → EReal) (B : ρ → EReal)
    (hv : ∀ k, IsReal (v k)) (hW : ∀ k, IsReal (W k)) (hb : IsReal b) (hA : ∀ r k, IsReal (A r k)) (hB : ∀ r, IsReal (B r)) :
    IsReal (foldedOut v W b A B) :=
  (isReal_sum _ _ fun k _ => (hv k).mul ((hW k).add (isReal_sum _ _ fun r _ => (hB r).mul (hA r k)))).add hb

/-- A sum over N positions of a summand that vanishes outside the g-th group of K consecutive positions is the sum
    over that group. -/
theorem sum_group {N K : ℕ} (hK : 0 < K) (g : ℕ) (hg : K * g + K ≤ N) (φ : Fin N → EReal) :
    (∑ l : Fin N, if l.val / K = g then φ l else 0)
      = ∑ k : Fin K, φ ⟨K * g + k.val, by have := k.isLt; omega⟩ := by
  rw [← Finset.sum_filter]
  symm
  refine Finset.sum_bij (fun (k : Fin K) _ => (⟨K * g + k.val, by have := k.isLt; omega⟩ : Fin N)) ?_ ?_ ?_ ?_
  · intro k _
    simp only [Finset.mem_filter, Finset.mem_univ, true_and]
    rw [Nat.mul_add_div hK, Nat.div_eq_of_lt k.isLt, Nat.add_zero]
  · intro k₁ _ k₂ _ h
    have := congrArg Fin.val h
    simp only at this
    exact Fin.ext (by omega)
  · intro l hl
    simp only [Finset.mem_filter, Finset.mem_univ, true_and] at hl
    refine ⟨⟨l.val % K, Nat.mod_lt _ hK⟩, Finset.mem_univ _, Fin.ext ?_⟩
    simp only
    rw [← hl]
    exact Nat.div_add_mod l.val K
  · intro k _
    rfl

end Cert.LibLoraLaw

end
-- ==== Proof.Net.lean ====
/-
  A six-layer perceptron whose layers carry low-rank updates, row by row.

  A layer's parameters are a weight W (J×K), a bias b (J) and two factors A (R×K), B (J×R).  The reference form of the
  layer sends a row v to v·Wᵀ + b + (v·Aᵀ)·Bᵀ; the folded form sends it to v·(W + B·A)ᵀ + b.  Five layers are followed
  by tanh, the sixth is not.  With real parameters and a real input row the two networks compute the same row: each
  layer's two forms agree on real rows (distributivity), and tanh and the folded layer keep rows real.
-/
import proofs.«119764_j79731772883173_2_alg».proof.Proof.LibLoraLaw

noncomputable section

open scoped BigOperators

namespace Cert.Net

open Cert.LibLoraLaw Idealize.ShloMosaic

/-- One layer's parameters, as functions of their coordinates. -/
structure Layer (K J R : ℕ) where
  W : Fin J → Fin K → EReal
  b : Fin J → EReal
  A : Fin R → Fin K → EReal
  B : Fin J → Fin R → EReal

/-- Every parameter of the layer is a real number. -/
def Layer.Real {K J R : ℕ} (L : Layer K J R) : Prop :=
  (∀ j k, IsReal (L.W j k)) ∧ (∀ j, IsReal (L.b j)) ∧ (∀ r k, IsReal (L.A r k)) ∧ (∀ j r, IsReal (L.B j r))

/-- The folded weight W + B·A. -/
def Layer.eff {K J R : ℕ} (L : Layer K J R) : Fin J → Fin K → EReal := fun j k => L.W j k + ∑ r, L.B j r * L.A r k

/-- The layer as the reference computes it. -/
def Layer.split {K J R : ℕ} (L : Layer K J R) (v : Fin K → EReal) : Fin J → EReal :=
  fun j => splitOut v (L.W j) (L.b j) L.A (L.B j)

/-- The layer with the update folded into the weight. -/
def Layer.folded {K J R : ℕ} (L : Layer K J R) (v : Fin K → EReal) : Fin J → EReal :=
  fun j => (∑ k, v k * L.eff j k) + L.b j

/-- tanh on every entry of a row. -/
def act {J : ℕ} (v : Fin J → EReal) : Fin J → EReal := fun j => Ideal.tanh (v j)

theorem isReal_act {J : ℕ} (v : Fin J → EReal) (j : Fin J) : IsReal (act v j) := isReal_tanh _

theorem Layer.folded_eq_split {K J R : ℕ} (L : Layer K J R) (hL : L.Real) (v : Fin K → EReal) (hv : ∀ k, IsReal (v k)) :
    L.folded v = L.split v :=
  funext fun j => LibLoraLaw.folded_eq_split v (L.W j) (L.b j) L.A (L.B j) hv (hL.1 j) hL.2.2.1 (hL.2.2.2 j)

theorem Layer.isReal_folded {K J R : ℕ} (L : Layer K J R) (hL : L.Real) (v : Fin K → EReal) (hv : ∀ k, IsReal (v k))
    (j : Fin J) : IsReal (L.folded v j) :=
  LibLoraLaw.isReal_foldedOut v (L.W j) (L.b j) L.A (L.B j) hv (hL.1 j) (hL.2.1 j) hL.2.2.1 (hL.2.2.2 j)

/-- The reference network on one row. -/
def netSplit (L1 : Layer 2 64 8) (L2 L3 L4 L5 : Layer 64 64 8) (L6 : Layer 64 3 8) (v : Fin 2 → EReal) : Fin 3 → EReal :=
  L6.split (act (L5.split (act (L4.split (act (L3.split (act (L2.split (act (L1.split v))))))))))

/-- The network with every update folded, on one row. -/
def netFolded (L1 : Layer 2 64 8) (L2 L3 L4 L5 : Layer 64 64 8) (L6 : Layer 64 3 8) (v : Fin 2 → EReal) : Fin 3 → EReal :=
  L6.folded (act (L5.folded (act (L4.folded (act (L3.folded (act (L2.folded (act (L1.folded v))))))))))

/-- With real parameters and a real input row the folded network is the reference network. -/
theorem netFolded_eq_netSplit (L1 : Layer 2 64 8) (L2 L3 L4 L5 : Layer 64 64 8) (L6 : Layer 64 3 8)
    (h1 : L1.Real) (h2 : L2.Real) (h3 : L3.Real) (h4 : L4.Real) (h5 : L5.Real) (h6 : L6.Real)
    (v : Fin 2 → EReal) (hv : ∀ k, IsReal (v k)) :
    netFolded L1 L2 L3 L4 L5 L6 v = netSplit L1 L2 L3 L4 L5 L6 v := by
  unfold netFolded netSplit
  rw [L1.folded_eq_split h1 v hv, L2.folded_eq_split h2 _ (isReal_act _), L3.folded_eq_split h3 _ (isReal_act _),
    L4.folded_eq_split h4 _ (isReal_act _), L5.folded_eq_split h5 _ (isReal_act _), L6.folded_eq_split h6 _ (isReal_act _)]

end Cert.Net

end
-- ==== Proof.PackedLayer.lean ====
/-
  One layer on four rows packed side by side.

  Four logical rows of width K sit next to each other in one physical row of width 4·K.  Multiplying by a (4·K)×(4·J)
  matrix that carries the same K×J block four times on its diagonal and zeros elsewhere, and adding a bias repeated
  four times, acts on each logical row separately: group g of the result is the layer (in its folded form, the block
  being the transposed folded weight) applied to group g of the input.  The off-diagonal terms contribute x·0 = 0.
-/
import proofs.«119764_j79731772883173_2_alg».proof.Proof.LibPlainDot
import proofs.«119764_j79731772883173_2_alg».proof.Proof.Net
import Idealize.ShloMosaic.Lib.Pipeline.Value

noncomputable section

open scoped BigOperators

namespace Cert.PackedLayer

open Idealize.ShloMosaic Idealize.ShloMosaic.ValueIdx Cert.Net Cert.LibLoraLaw

theorem group_div {J : ℕ} (g : Fin 4) (j : Fin J) : (J * g.val + j.val) / J = g.val := by
  have hJ : 0 < J := Nat.lt_of_le_of_lt (Nat.zero_le _) j.isLt
  rw [Nat.mul_add_div hJ, Nat.div_eq_of_lt j.isLt, Nat.add_zero]

theorem group_mod {J : ℕ} (g : Fin 4) (j : Fin J) : (J * g.val + j.val) % J = j.val := by
  rw [Nat.mul_add_mod, Nat.mod_eq_of_lt j.isLt]

theorem group_lt {J D : ℕ} (hD : D = 4 * J) (g : Fin 4) (j : Fin J) : J * g.val + j.val < D := by
  have := g.isLt; have := j.isLt; subst hD
  calc J * g.val + j.val < J * g.val + J := by omega
    _ = J * (g.val + 1) := by ring
    _ ≤ J * 4 := Nat.mul_le_mul_left _ (by omega)
    _ = 4 * J := Nat.mul_comm _ _

/-- The g-th group's j-th position in a packed row of width D = 4·J. -/
def pos {J D : ℕ} (hD : D = 4 * J) (g : Fin 4) (j : Fin J) : Fin D := ⟨J * g.val + j.val, group_lt hD g j⟩

/-- A (4·K)×(4·J) matrix carrying the transposed folded weight of the layer four times on its diagonal, zero elsewhere. -/
def BlockDiag {K J R C D : ℕ} (hK : 0 < K) (hJ : 0 < J) (Wt : (⟨2, ![C, D]⟩ : Shape).Idx → EReal) (L : Layer K J R) : Prop :=
  ∀ (a : Fin C) (d : Fin D), Wt (ix2 a d)
    = if a.val / K = d.val / J then L.eff ⟨d.val % J, Nat.mod_lt _ hJ⟩ ⟨a.val % K, Nat.mod_lt _ hK⟩ else 0

/-- A one-row array carrying the layer's bias four times side by side. -/
def Tiled {K J R D : ℕ} (hJ : 0 < J) (bp : (⟨2, ![1, D]⟩ : Shape).Idx → EReal) (L : Layer K J R) : Prop :=
  ∀ d : Fin D, bp (ix2 (0 : Fin 1) d) = L.b ⟨d.val % J, Nat.mod_lt _ hJ⟩

/-- The packed layer read at row p, group g, position j. -/
theorem packed_apply {M K J R C D : ℕ} (hK : 0 < K) (hJ : 0 < J) (hC : C = 4 * K) (hD : D = 4 * J) {φ₁ φ₂ : FTy}
    (H : FVec Ideal ⟨2, ![M, C]⟩ φ₁) (Wt : FVec Ideal ⟨2, ![C, D]⟩ φ₂) (bp : FVec Ideal ⟨2, ![1, D]⟩ .f32)
    (hbc : (⟨2, ![1, D]⟩ : Shape).Broadcasts ⟨2, ![M, D]⟩) (L : Layer K J R)
    (hW : ∀ (a : Fin C) (d : Fin D), Wt (ix2 a d)
      = if a.val / K = d.val / J then L.eff ⟨d.val % J, Nat.mod_lt _ hJ⟩ ⟨a.val % K, Nat.mod_lt _ hK⟩ else 0)
    (hb : ∀ d : Fin D, bp (ix2 (0 : Fin 1) d) = L.b ⟨d.val % J, Nat.mod_lt _ hJ⟩)
    (p : Fin M) (g : Fin 4) (j : Fin J) :
    addf (FloatOps.matmul (DotDims.plain M C D) none H Wt (constant (F := Ideal) ⟨2, ![M, D]⟩ .f32 0x00000000#32))
        (broadcastTo ⟨2, ![M, D]⟩ bp hbc) (ix2 p (pos hD g j))
      = L.folded (fun k => H (ix2 p (pos hC g k))) j := by
  rw [addf_apply, LibPlainDot.matmul_zero_apply]
  have hbias : broadcastTo ⟨2, ![M, D]⟩ bp hbc (ix2 p (pos hD g j)) = L.b j := by
    rw [broadcastTo_apply bp hbc (ix2 p (pos hD g j)) (ix2 (0 : Fin 1) (pos hD g j)) (fun a => match a with
      | ⟨0, _⟩ => by show 0 = if (1 : Nat) = 1 then 0 else _; rw [if_pos rfl]
      | ⟨1, _⟩ => by
          show (pos hD g j).val = if D = 1 then 0 else (pos hD g j).val
          split_ifs with h1
          · have := (pos hD g j).isLt; omega
          · rfl)]
    rw [hb]
    exact congrArg L.b (Fin.ext (group_mod g j))
  rw [hbias]
  unfold Layer.folded
  congr 1
  have hsum : (∑ l : Fin C, H (ix2 p l) * Wt (ix2 l (pos hD g j)))
      = ∑ l : Fin C, if l.val / K = g.val then H (ix2 p l) * L.eff j ⟨l.val % K, Nat.mod_lt _ hK⟩ else 0 := by
    refine Finset.sum_congr rfl fun l _ => ?_
    rw [hW l (pos hD g j)]
    have e1 : (pos hD g j).val / J = g.val := group_div g j
    have e2 : (⟨(pos hD g j).val % J, Nat.mod_lt _ hJ⟩ : Fin J) = j := Fin.ext (group_mod g j)
    rw [e1, e2]
    split_ifs with h
    · rfl
    · exact mul_zero _
  rw [hsum, sum_group hK g.val (by have := g.isLt; subst hC; nlinarith) (fun l => H (ix2 p l) * L.eff j ⟨l.val % K, Nat.mod_lt _ hK⟩)]
  refine Finset.sum_congr rfl fun k _ => ?_
  have e3 : (⟨(K * g.val + k.val) % K, Nat.mod_lt _ hK⟩ : Fin K) = k := Fin.ext (group_mod g k)
  show H (ix2 p ⟨K * g.val + k.val, _⟩) * L.eff j ⟨(K * g.val + k.val) % K, _⟩ = H (ix2 p (pos hC g k)) * L.eff j k
  rw [e3]
  rfl

end Cert.PackedLayer

end
-- ==== Proof.KBody.lean ====
/-
  The kernel body's result, read at an index.

  The body takes a block of 4096 packed rows (four logical rows of width 2 side by side), and six pairs of a
  block-diagonal weight and a tiled bias.  It applies six packed layers, tanh after the first five.  Its result at packed
  row p, group g, coordinate c is the folded network applied to logical row g of packed row p, at c: each packed layer
  acts on the four groups separately, tanh acts entry by entry, and a change of float format is the identity on values.
-/
import proofs.«119764_j79731772883173_2_alg».proof.Proof.Gen.KernelIdeal.Skeleton
import proofs.«119764_j79731772883173_2_alg».proof.Proof.PackedLayer

set_option maxRecDepth 16384

noncomputable section

namespace Cert.KernelIdeal.Body

open Cert.KernelIdeal Cert.KernelIdeal.Gen Idealize.ShloMosaic Idealize.ShloMosaic.ValueIdx Cert.Net Cert.PackedLayer

/-- tanh of a vector, entry by entry. -/
theorem tanh_vec_apply {s : Shape} {φ : FTy} (x : FVec Ideal s φ) (i : s.Idx) : tanh x i = Ideal.tanh (x i) := rfl

theorem e8 : (8 : ℕ) = 4 * 2 := by norm_num
theorem e12 : (12 : ℕ) = 4 * 3 := by norm_num
theorem e256 : (256 : ℕ) = 4 * 64 := by norm_num

/-- The body's stored value at packed row p, group g, coordinate c. -/
theorem pay_apply (x0 : Vec Ideal S4096x8 .f32) (w1 : Vec Ideal S8x256 .bf16) (b1 : Vec Ideal S1x256 .f32)
    (w2 : Vec Ideal S256x256 .bf16) (b2 : Vec Ideal S1x256 .f32) (w3 : Vec Ideal S256x256 .bf16) (b3 : Vec Ideal S1x256 .f32)
    (w4 : Vec Ideal S256x256 .bf16) (b4 : Vec Ideal S1x256 .f32) (w5 : Vec Ideal S256x256 .bf16) (b5 : Vec Ideal S1x256 .f32)
    (w6 : Vec Ideal S256x12 .bf16) (b6 : Vec Ideal S1x12 .f32)
    (L1 : Layer 2 64 8) (L2 L3 L4 L5 : Layer 64 64 8) (L6 : Layer 64 3 8)
    (hW1 : BlockDiag (K := 2) (J := 64) (by norm_num) (by norm_num) w1 L1) (hb1 : Tiled (J := 64) (by norm_num) b1 L1)
    (hW2 : BlockDiag (K := 64) (J := 64) (by norm_num) (by norm_num) w2 L2) (hb2 : Tiled (J := 64) (by norm_num) b2 L2)
    (hW3 : BlockDiag (K := 64) (J := 64) (by norm_num) (by norm_num) w3 L3) (hb3 : Tiled (J := 64) (by norm_num) b3 L3)
    (hW4 : BlockDiag (K := 64) (J := 64) (by norm_num) (by norm_num) w4 L4) (hb4 : Tiled (J := 64) (by norm_num) b4 L4)
    (hW5 : BlockDiag (K := 64) (J := 64) (by norm_num) (by norm_num) w5 L5) (hb5 : Tiled (J := 64) (by norm_num) b5 L5)
    (hW6 : BlockDiag (K := 64) (J := 3) (by norm_num) (by norm_num) w6 L6) (hb6 : Tiled (J := 3) (by norm_num) b6 L6)
    (p : Fin 4096) (g : Fin 4) (c : Fin 3) :
    k0_pay1 (F := Ideal) (k0_pay2 x0 w1 b1 w2 b2 w3 b3 w4 b4) w5 b5 w6 b6 (ix2 p (pos e12 g c))
      = netFolded L1 L2 L3 L4 L5 L6 (fun k => x0 (ix2 p (pos e8 g k))) c := by
  unfold k0_pay1 k0_pay2
  simp only [shapeCast_self]
  refine (packed_apply (K := 64) (J := 3) (C := 256) (D := 12) (φ₁ := .bf16) (φ₂ := .bf16) (by norm_num) (by norm_num) e256 e12 _ w6 b6
    Gen.broadcasts_S1x12_S4096x12 L6 hW6 hb6 p g c).trans ?_
  unfold netFolded
  refine congrArg (fun v => L6.folded v c) (funext fun k5 => ?_)
  rw [truncf_apply, tanh_vec_apply]
  refine (congrArg Ideal.tanh (packed_apply (K := 64) (J := 64) (C := 256) (D := 256) (φ₁ := .bf16) (φ₂ := .bf16) (by norm_num)
    (by norm_num) e256 e256 _ w5 b5 Gen.broadcasts_S1x256_S4096x256 L5 hW5 hb5 p g k5)).trans ?_
  refine congrArg (fun v => Ideal.tanh (L5.folded v k5)) (funext fun k4 => ?_)
  rw [truncf_apply, tanh_vec_apply]
  refine (congrArg Ideal.tanh (packed_apply (K := 64) (J := 64) (C := 256) (D := 256) (φ₁ := .bf16) (φ₂ := .bf16) (by norm_num)
    (by norm_num) e256 e256 _ w4 b4 Gen.broadcasts_S1x256_S4096x256 L4 hW4 hb4 p g k4)).trans ?_
  refine congrArg (fun v => Ideal.tanh (L4.folded v k4)) (funext fun k3 => ?_)
  rw [truncf_apply, tanh_vec_apply]
  refine (congrArg Ideal.tanh (packed_apply (K := 64) (J := 64) (C := 256) (D := 256) (φ₁ := .bf16) (φ₂ := .bf16) (by norm_num)
    (by norm_num) e256 e256 _ w3 b3 Gen.broadcasts_S1x256_S4096x256 L3 hW3 hb3 p g k3)).trans ?_
  refine congrArg (fun v => Ideal.tanh (L3.folded v k3)) (funext fun k2 => ?_)
  rw [truncf_apply, tanh_vec_apply]
  refine (congrArg Ideal.tanh (packed_apply (K := 64) (J := 64) (C := 256) (D := 256) (φ₁ := .bf16) (φ₂ := .bf16) (by norm_num)
    (by norm_num) e256 e256 _ w2 b2 Gen.broadcasts_S1x256_S4096x256 L2 hW2 hb2 p g k2)).trans ?_
  refine congrArg (fun v => Ideal.tanh (L2.folded v k2)) (funext fun k1 => ?_)
  rw [truncf_apply, tanh_vec_apply]
  refine (congrArg Ideal.tanh (packed_apply (K := 2) (J := 64) (C := 8) (D := 256) (φ₁ := .bf16) (φ₂ := .bf16) (by norm_num)
    (by norm_num) e8 e256 _ w1 b1 Gen.broadcasts_S1x256_S4096x256 L1 hW1 hb1 p g k1)).trans ?_
  rfl

end Cert.KernelIdeal.Body

end
-- ==== Proof.SplitLayer.lean ====
/-
  One layer of the reference, read at an index.

  The reference computes a layer on the whole [N, K] activation array h as  h·Wᵀ + b + (h·Aᵀ)·Bᵀ  with W : [J, K],
  b : [J], A : [R, K], B : [J, R]: three matrix products against transposed parameters, the bias broadcast over the rows.
  Entry (n, j) of the result depends on row n of h only, and is that row sent through the layer's reference form.
-/
import proofs.«119764_j79731772883173_2_alg».proof.Proof.LibPlainDot
import proofs.«119764_j79731772883173_2_alg».proof.Proof.Net
import Idealize.ShloMosaic.Lib.Pipeline.Value

noncomputable section

open scoped BigOperators

namespace Cert.SplitLayer

open Idealize.ShloMosaic Idealize.ShloMosaic.ValueIdx Cert.Net

/-- The parameters of a layer, read off their arrays. -/
def layerOf {K J R : ℕ} (W : (⟨2, ![J, K]⟩ : Shape).Idx → EReal) (b : (⟨1, ![J]⟩ : Shape).Idx → EReal)
    (A : (⟨2, ![R, K]⟩ : Shape).Idx → EReal) (B : (⟨2, ![J, R]⟩ : Shape).Idx → EReal) : Layer K J R where
  W := fun j k => W (ix2 j k)
  b := fun j => b (ix1 j)
  A := fun r k => A (ix2 r k)
  B := fun j r => B (ix2 j r)

theorem val_of_one {J : ℕ} (j : Fin J) : j.val = if J = 1 then 0 else j.val := by
  split_ifs with h
  · subst h; omega
  · rfl

/-- A transposed matrix read at (k, j) is the matrix at (j, k). -/
theorem transpose_ix2 {α : Type} {P Q : ℕ} (X : (⟨2, ![P, Q]⟩ : Shape).Idx → α)
    (hT : (⟨2, ![P, Q]⟩ : Shape).Transposes [1, 0] ⟨2, ![Q, P]⟩) (q : Fin Q) (p : Fin P) :
    transpose ⟨2, ![Q, P]⟩ [1, 0] X hT (ix2 q p) = X (ix2 p q) :=
  transpose_apply [1, 0] X hT (ix2 q p) (ix2 p q) (fun b => match b with
    | ⟨0, _⟩ => rfl
    | ⟨1, _⟩ => rfl)

/-- A bias vector laid out as one row and repeated down N rows, read at (n, j), is the bias at j. -/
theorem bias_ix2 {N J : ℕ} (b : (⟨1, ![J]⟩ : Shape).Idx → EReal)
    (hb1 : (⟨1, ![J]⟩ : Shape).BroadcastsInDim ⟨2, ![1, J]⟩ (![1] : Fin 1 → Fin 2))
    (hb2 : (⟨2, ![1, J]⟩ : Shape).BroadcastsInDim ⟨2, ![N, J]⟩ (![0, 1] : Fin 2 → Fin 2)) (n : Fin N) (j : Fin J) :
    broadcastInDim ⟨2, ![N, J]⟩ ![0, 1] hb2 (broadcastInDim ⟨2, ![1, J]⟩ ![1] hb1 b) (ix2 n j) = b (ix1 j) := by
  rw [broadcastInDim_apply ![0, 1] hb2 _ (ix2 n j) (ix2 (0 : Fin 1) j) (fun a => match a with
    | ⟨0, _⟩ => by show 0 = if (1 : Nat) = 1 then 0 else n.val; rw [if_pos rfl]
    | ⟨1, _⟩ => by show j.val = if J = 1 then 0 else j.val; exact val_of_one j)]
  exact broadcastInDim_apply ![1] hb1 b (ix2 (0 : Fin 1) j) (ix1 j) (fun a => match a with
    | ⟨0, _⟩ => by show j.val = if J = 1 then 0 else j.val; exact val_of_one j)

/-- The reference's layer on the whole array, read at (n, j): row n through the layer's reference form. -/
theorem split_apply {N K J R : ℕ}
    (hTW : (⟨2, ![J, K]⟩ : Shape).Transposes [1, 0] ⟨2, ![K, J]⟩)
    (hTA : (⟨2, ![R, K]⟩ : Shape).Transposes [1, 0] ⟨2, ![K, R]⟩)
    (hTB : (⟨2, ![J, R]⟩ : Shape).Transposes [1, 0] ⟨2, ![R, J]⟩)
    (hb1 : (⟨1, ![J]⟩ : Shape).BroadcastsInDim ⟨2, ![1, J]⟩ (![1] : Fin 1 → Fin 2))
    (hb2 : (⟨2, ![1, J]⟩ : Shape).BroadcastsInDim ⟨2, ![N, J]⟩ (![0, 1] : Fin 2 → Fin 2))
    (h : FVec Ideal ⟨2, ![N, K]⟩ .f32) (W : FVec Ideal ⟨2, ![J, K]⟩ .f32) (b : FVec Ideal ⟨1, ![J]⟩ .f32)
    (A : FVec Ideal ⟨2, ![R, K]⟩ .f32) (B : FVec Ideal ⟨2, ![J, R]⟩ .f32) (n : Fin N) (j : Fin J) :
    addf (addf (Host.dotGeneral (DotDims.plain N K J) none h (transpose ⟨2, ![K, J]⟩ [1, 0] W hTW))
          (broadcastInDim ⟨2, ![N, J]⟩ ![0, 1] hb2 (broadcastInDim ⟨2, ![1, J]⟩ ![1] hb1 b)))
        (Host.dotGeneral (DotDims.plain N R J) none
          (Host.dotGeneral (DotDims.plain N K R) none h (transpose ⟨2, ![K, R]⟩ [1, 0] A hTA))
          (transpose ⟨2, ![R, J]⟩ [1, 0] B hTB)) (ix2 n j)
      = (layerOf W b A B).split (fun k => h (ix2 n k)) j := by
  rw [addf_apply, addf_apply, bias_ix2 b hb1 hb2 n j]
  simp only [Host.dotGeneral]
  rw [LibPlainDot.dotGeneral_apply, LibPlainDot.dotGeneral_apply]
  unfold Layer.split LibLoraLaw.splitOut layerOf
  simp only [LibPlainDot.dotGeneral_apply, transpose_ix2 W hTW, transpose_ix2 A hTA, transpose_ix2 B hTB]

/-- tanh on the host, entry by entry. -/
theorem hostTanh_apply {s : Shape} (x : FVec Ideal s .f32) (i : s.Idx) : Host.tanh x i = Ideal.tanh (x i) := rfl

end Cert.SplitLayer

end
-- ==== Proof.KFinal.lean ====
/-
  The packed output array after the region.

  The region runs the body at 64 grid points; point t reads packed rows 4096·t … 4096·t + 4095 of the packed input, the
  whole of every weight and bias array, and writes packed rows 4096·t … of the packed output.  So the output array ends
  holding, at packed row P, group g, coordinate c, the folded network applied to logical row 4·P + g of the input — provided
  the arrays the region finds are the packed input, the block-diagonal weights and the tiled biases of the six layers.
-/
import proofs.«119764_j79731772883173_2_alg».proof.Proof.Gen.KernelIdeal.Frame
import proofs.«119764_j79731772883173_2_alg».proof.Proof.KBody
import proofs.«119764_j79731772883173_2_alg».proof.Proof.SplitLayer
import Idealize.ShloMosaic.Lib.Pipeline.Value

set_option maxRecDepth 16384

noncomputable section

namespace Cert.KernelIdeal.Final

open Cert.KernelIdeal Cert.KernelIdeal.Gen Cert.KernelIdeal.Body Idealize.ShloMosaic Idealize.ShloMosaic.TcCoe Idealize.SL.Sem
open Idealize.ShloMosaic.ValueIdx Cert.Net Cert.PackedLayer Cert.SplitLayer
open Idealize.ShloMosaic.Pipeline (Dat Cfg Window)

/-- Row n of an [N, 2] array, as a function of its two coordinates (zero past the array's end). -/
def rowOf (x : (⟨2, ![1048576, 2]⟩ : Shape).Idx → EReal) (n : ℕ) : Fin 2 → EReal :=
  fun k => if h : n < 1048576 then x (ix2 ⟨n, h⟩ k) else 0

variable (m : (ℓ : Loc nD τ sig) → Buf (Elt Ideal) ℓ)

/-- The six layers' parameters, read off the argument arrays. -/
def L1 (c : Dev nD) : Layer 2 64 8 := layerOf (m ((c : Thread nD τ).loc main_arg1)) (m ((c : Thread nD τ).loc main_arg2))
  (m ((c : Thread nD τ).loc main_arg13)) (m ((c : Thread nD τ).loc main_arg14))
def L2 (c : Dev nD) : Layer 64 64 8 := layerOf (m ((c : Thread nD τ).loc main_arg3)) (m ((c : Thread nD τ).loc main_arg4))
  (m ((c : Thread nD τ).loc main_arg15)) (m ((c : Thread nD τ).loc main_arg16))
def L3 (c : Dev nD) : Layer 64 64 8 := layerOf (m ((c : Thread nD τ).loc main_arg5)) (m ((c : Thread nD τ).loc main_arg6))
  (m ((c : Thread nD τ).loc main_arg17)) (m ((c : Thread nD τ).loc main_arg18))
def L4 (c : Dev nD) : Layer 64 64 8 := layerOf (m ((c : Thread nD τ).loc main_arg7)) (m ((c : Thread nD τ).loc main_arg8))
  (m ((c : Thread nD τ).loc main_arg19)) (m ((c : Thread nD τ).loc main_arg20))
def L5 (c : Dev nD) : Layer 64 64 8 := layerOf (m ((c : Thread nD τ).loc main_arg9)) (m ((c : Thread nD τ).loc main_arg10))
  (m ((c : Thread nD τ).loc main_arg21)) (m ((c : Thread nD τ).loc main_arg22))
def L6 (c : Dev nD) : Layer 64 3 8 := layerOf (m ((c : Thread nD τ).loc main_arg11)) (m ((c : Thread nD τ).loc main_arg12))
  (m ((c : Thread nD τ).loc main_arg23)) (m ((c : Thread nD τ).loc main_arg24))

/-- The folded network on logical row n of the input. -/
def foldedRow (c : Dev nD) (n : ℕ) : Fin 3 → EReal :=
  netFolded (L1 m c) (L2 m c) (L3 m c) (L4 m c) (L5 m c) (L6 m c) (rowOf (m ((c : Thread nD τ).loc main_arg0)) n)

/-- The packed output: packed row P holds logical rows 4·P … 4·P + 3 side by side, three coordinates each. -/
def packedOut (c : Dev nD) : S262144x12.Idx → EReal :=
  fun i => foldedRow m c (4 * (i 0).val + (i 1).val / 3) ⟨(i 1).val % 3, Nat.mod_lt _ (by norm_num)⟩

/-- What the region finds in its thirteen input arrays: the packed input, and per layer the block-diagonal weight and
    the tiled bias. -/
structure Entry (c : Dev nD) : Prop where
  x : ∀ (P : Fin 262144) (g : Fin 4) (k : Fin 2),
    (V m c main_v150 : S262144x8.Idx → EReal) (ix2 P (pos e8 g k)) = rowOf (m ((c : Thread nD τ).loc main_arg0)) (4 * P.val + g.val) k
  w1 : BlockDiag (K := 2) (J := 64) (by norm_num) (by norm_num) (V m c main_v30 : S8x256.Idx → EReal) (L1 m c)
  b1 : Tiled (J := 64) (by norm_num) (V m c main_v129 : S1x256.Idx → EReal) (L1 m c)
  w2 : BlockDiag (K := 64) (J := 64) (by norm_num) (by norm_num) (V m c main_v49 : S256x256.Idx → EReal) (L2 m c)
  b2 : Tiled (J := 64) (by norm_num) (V m c main_v133 : S1x256.Idx → EReal) (L2 m c)
  w3 : BlockDiag (K := 64) (J := 64) (by norm_num) (by norm_num) (V m c main_v68 : S256x256.Idx → EReal) (L3 m c)
  b3 : Tiled (J := 64) (by norm_num) (V m c main_v137 : S1x256.Idx → EReal) (L3 m c)
  w4 : BlockDiag (K := 64) (J := 64) (by norm_num) (by norm_num) (V m c main_v87 : S256x256.Idx → EReal) (L4 m c)
  b4 : Tiled (J := 64) (by norm_num) (V m c main_v141 : S1x256.Idx → EReal) (L4 m c)
  w5 : BlockDiag (K := 64) (J := 64) (by norm_num) (by norm_num) (V m c main_v106 : S256x256.Idx → EReal) (L5 m c)
  b5 : Tiled (J := 64) (by norm_num) (V m c main_v145 : S1x256.Idx → EReal) (L5 m c)
  w6 : BlockDiag (K := 64) (J := 3) (by norm_num) (by norm_num) (V m c main_v125 : S256x12.Idx → EReal) (L6 m c)
  b6 : Tiled (J := 3) (by norm_num) (V m c main_v149 : S1x12.Idx → EReal) (L6 m c)

theorem hz : (![0, 0] : Fin 2 → Nat) = fun _ => 0 := funext fun a => by fin_cases a <;> rfl

/-- The printed index maps over the grid: the packed input and output move one block of rows per point, every weight and
    bias window stays on its whole array. -/
theorem idx_facts : ∀ t : Fin cfg0.N, win0_0.index t (0 : Fin 2) = t.val ∧ win0_0.index t (1 : Fin 2) = 0
    ∧ win0_13.index t (0 : Fin 2) = t.val ∧ win0_13.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- An index of the packed output array is in point t's block iff its packed row is among the point's 4096 rows. -/
theorem mem_blk (t : Fin cfg0.N) (i : S262144x12.Idx) :
    i ∈ ((cfg0.win 13).blk t).view.set ↔ ∀ a : Fin 2, win0_13.index t a * S4096x12.size a ≤ (i a).val
      ∧ (i a).val < win0_13.index t a * S4096x12.size a + S4096x12.size a := by
  show i ∈ ((View.whole main_v151).slice (win0_13.rect t)).set ↔ _
  rw [View.set_slice_whole, Rect.mem_set_unit]
  exact Iff.rfl

/-- Every index of the packed output array is in some point's block. -/
theorem cover (i : S262144x12.Idx) : ∃ t : Fin cfg0.N, (cfg0.win 13).flush t = true ∧ i ∈ ((cfg0.win 13).blk t).view.set := by
  have hi0 : (i 0).val < 262144 := (i 0).isLt
  have hi1 : (i 1).val < 12 := (i 1).isLt
  refine ⟨⟨(i 0).val / 4096, by show (i 0).val / 4096 < 64; omega⟩, flush0_13 _, ?_⟩
  rw [mem_blk]
  obtain ⟨-, -, e2, e3, -⟩ := idx_facts ⟨(i 0).val / 4096, by show (i 0).val / 4096 < 64; omega⟩
  intro a
  match a with
  | ⟨0, _⟩ =>
    show win0_13.index _ (0 : Fin 2) * 4096 ≤ (i 0).val ∧ (i 0).val < win0_13.index _ (0 : Fin 2) * 4096 + 4096
    rw [e2]; show (i 0).val / 4096 * 4096 ≤ (i 0).val ∧ (i 0).val < (i 0).val / 4096 * 4096 + 4096; omega
  | ⟨1, _⟩ =>
    show win0_13.index _ (1 : Fin 2) * 12 ≤ (i 1).val ∧ (i 1).val < win0_13.index _ (1 : Fin 2) * 12 + 12
    rw [e3]; omega

/-! ### The blocks the body reads -/

/-- Window 1's block at any point is its whole array. -/
theorem iblk1_eq (c : Dev nD) (t : Fin cfg0.N) (y : S8x256.Idx) :
    (iblk m c 1 t : S8x256.Idx → EReal) y = (V m c main_v30 : S8x256.Idx → EReal) y := by
  show (V m c main_v30 : S8x256.Idx → EReal) (((cfg0.win 1).blk t).view.emb y) = (V m c main_v30 : S8x256.Idx → EReal) y
  refine congrArg _ (funext fun a => Fin.ext ?_)
  have hf := idx_facts t
  match a with
  | ⟨0, _⟩ => show win0_1.index t (0 : Fin 2) * 8 + 1 * (y 0).val = (y 0).val; omega
  | ⟨1, _⟩ => show win0_1.index t (1 : Fin 2) * 256 + 1 * (y 1).val = (y 1).val; omega

/-- Window 2's block at any point is its whole array. -/
theorem iblk2_eq (c : Dev nD) (t : Fin cfg0.N) (y : S1x256.Idx) :
    (iblk m c 2 t : S1x256.Idx → EReal) y = (V m c main_v129 : S1x256.Idx → EReal) y := by
  show (V m c main_v129 : S1x256.Idx → EReal) (((cfg0.win 2).blk t).view.emb y) = (V m c main_v129 : S1x256.Idx → EReal) y
  refine congrArg _ (funext fun a => Fin.ext ?_)
  have hf := idx_facts t
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 3's block at any point is its whole array. -/
theorem iblk3_eq (c : Dev nD) (t : Fin cfg0.N) (y : S256x256.Idx) :
    (iblk m c 3 t : S256x256.Idx → EReal) y = (V m c main_v49 : S256x256.Idx → EReal) y := by
  show (V m c main_v49 : S256x256.Idx → EReal) (((cfg0.win 3).blk t).view.emb y) = (V m c main_v49 : S256x256.Idx → EReal) y
  refine congrArg _ (funext fun a => Fin.ext ?_)
  have hf := idx_facts t
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4's block at any point is its whole array. -/
theorem iblk4_eq (c : Dev nD) (t : Fin cfg0.N) (y : S1x256.Idx) :
    (iblk m c 4 t : S1x256.Idx → EReal) y = (V m c main_v133 : S1x256.Idx → EReal) y := by
  show (V m c main_v133 : S1x256.Idx → EReal) (((cfg0.win 4).blk t).view.emb y) = (V m c main_v133 : S1x256.Idx → EReal) y
  refine congrArg _ (funext fun a => Fin.ext ?_)
  have hf := idx_facts t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block at any point is its whole array. -/
theorem iblk5_eq (c : Dev nD) (t : Fin cfg0.N) (y : S256x256.Idx) :
    (iblk m c 5 t : S256x256.Idx → EReal) y = (V m c main_v68 : S256x256.Idx → EReal) y := by
  show (V m c main_v68 : S256x256.Idx → EReal) (((cfg0.win 5).blk t).view.emb y) = (V m c main_v68 : S256x256.Idx → EReal) y
  refine congrArg _ (funext fun a => Fin.ext ?_)
  have hf := idx_facts t
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Window 6's block at any point is its whole array. -/
theorem iblk6_eq (c : Dev nD) (t : Fin cfg0.N) (y : S1x256.Idx) :
    (iblk m c 6 t : S1x256.Idx → EReal) y = (V m c main_v137 : S1x256.Idx → EReal) y := by
  show (V m c main_v137 : S1x256.Idx → EReal) (((cfg0.win 6).blk t).view.emb y) = (V m c main_v137 : S1x256.Idx → EReal) y
  refine congrArg _ (funext fun a => Fin.ext ?_)
  have hf := idx_facts t
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Window 7's block at any point is its whole array. -/
theorem iblk7_eq (c : Dev nD) (t : Fin cfg0.N) (y : S256x256.Idx) :
    (iblk m c 7 t : S256x256.Idx → EReal) y = (V m c main_v87 : S256x256.Idx → EReal) y := by
  show (V m c main_v87 : S256x256.Idx → EReal) (((cfg0.win 7).blk t).view.emb y) = (V m c main_v87 : S256x256.Idx → EReal) y
  refine congrArg _ (funext fun a => Fin.ext ?_)
  have hf := idx_facts t
  match a with
  | ⟨0, _⟩ => show win0_7.index t (0 : Fin 2) * 256 + 1 * (y 0).val = (y 0).val; omega
  | ⟨1, _⟩ => show win0_7.index t (1 : Fin 2) * 256 + 1 * (y 1).val = (y 1).val; omega

/-- Window 8's block at any point is its whole array. -/
theorem iblk8_eq (c : Dev nD) (t : Fin cfg0.N) (y : S1x256.Idx) :
    (iblk m c 8 t : S1x256.Idx → EReal) y = (V m c main_v141 : S1x256.Idx → EReal) y := by
  show (V m c main_v141 : S1x256.Idx → EReal) (((cfg0.win 8).blk t).view.emb y) = (V m c main_v141 : S1x256.Idx → EReal) y
  refine congrArg _ (funext fun a => Fin.ext ?_)
  have hf := idx_facts t
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- Window 9's block at any point is its whole array. -/
theorem iblk9_eq (c : Dev nD) (t : Fin cfg0.N) (y : S256x256.Idx) :
    (iblk m c 9 t : S256x256.Idx → EReal) y = (V m c main_v106 : S256x256.Idx → EReal) y := by
  show (V m c main_v106 : S256x256.Idx → EReal) (((cfg0.win 9).blk t).view.emb y) = (V m c main_v106 : S256x256.Idx → EReal) y
  refine congrArg _ (funext fun a => Fin.ext ?_)
  have hf := idx_facts t
  match a with
  | ⟨0, _⟩ => show win0_9.index t (0 : Fin 2) * 256 + 1 * (y 0).val = (y 0).val; omega
  | ⟨1, _⟩ => show win0_9.index t (1 : Fin 2) * 256 + 1 * (y 1).val = (y 1).val; omega

/-- Window 10's block at any point is its whole array. -/
theorem iblk10_eq (c : Dev nD) (t : Fin cfg0.N) (y : S1x256.Idx) :
    (iblk m c 10 t : S1x256.Idx → EReal) y = (V m c main_v145 : S1x256.Idx → EReal) y := by
  show (V m c main_v145 : S1x256.Idx → EReal) (((cfg0.win 10).blk t).view.emb y) = (V m c main_v145 : S1x256.Idx → EReal) y
  refine congrArg _ (funext fun a => Fin.ext ?_)
  have hf := idx_facts t
  match a with
  | ⟨0, _⟩ => show win0_10.index t (0 : Fin 2) * 1 + 1 * (y 0).val = (y 0).val; omega
  | ⟨1, _⟩ => show win0_10.index t (1 : Fin 2) * 256 + 1 * (y 1).val = (y 1).val; omega

/-- Window 11's block at any point is its whole array. -/
theorem iblk11_eq (c : Dev nD) (t : Fin cfg0.N) (y : S256x12.Idx) :
    (iblk m c 11 t : S256x12.Idx → EReal) y = (V m c main_v125 : S256x12.Idx → EReal) y := by
  show (V m c main_v125 : S256x12.Idx → EReal) (((cfg0.win 11).blk t).view.emb y) = (V m c main_v125 : S256x12.Idx → EReal) y
  refine congrArg _ (funext fun a => Fin.ext ?_)
  have hf := idx_facts t
  match a with
  | ⟨0, _⟩ => show win0_11.index t (0 : Fin 2) * 256 + 1 * (y 0).val = (y 0).val; omega
  | ⟨1, _⟩ => show win0_11.index t (1 : Fin 2) * 12 + 1 * (y 1).val = (y 1).val; omega

/-- Window 12's block at any point is its whole array. -/
theorem iblk12_eq (c : Dev nD) (t : Fin cfg0.N) (y : S1x12.Idx) :
    (iblk m c 12 t : S1x12.Idx → EReal) y = (V m c main_v149 : S1x12.Idx → EReal) y := by
  show (V m c main_v149 : S1x12.Idx → EReal) (((cfg0.win 12).blk t).view.emb y) = (V m c main_v149 : S1x12.Idx → EReal) y
  refine congrArg _ (funext fun a => Fin.ext ?_)
  have hf := idx_facts t
  match a with
  | ⟨0, _⟩ => show win0_12.index t (0 : Fin 2) * 1 + 1 * (y 0).val = (y 0).val; omega
  | ⟨1, _⟩ => show win0_12.index t (1 : Fin 2) * 12 + 1 * (y 1).val = (y 1).val; omega

/-- The packed input's block at point t is packed rows 4096·t … of the packed input. -/
theorem iblk0_eq (c : Dev nD) (t : Fin cfg0.N) (p : Fin 4096) (q : Fin 8) :
    (iblk m c 0 t : S4096x8.Idx → EReal) (ix2 p q)
      = (V m c main_v150 : S262144x8.Idx → EReal) (ix2 ⟨4096 * t.val + p.val, by have ht : t.val < 64 := t.isLt; have hp := p.isLt; show 4096 * t.val + p.val < 262144; omega⟩ q) := by
  show (V m c main_v150 : S262144x8.Idx → EReal) (((cfg0.win 0).blk t).view.emb (ix2 p q)) = _
  refine congrArg _ (funext fun a => Fin.ext ?_)
  have hf := idx_facts t
  match a with
  | ⟨0, _⟩ => show win0_0.index t (0 : Fin 2) * 4096 + 1 * p.val = 4096 * t.val + p.val; omega
  | ⟨1, _⟩ => show win0_0.index t (1 : Fin 2) * 8 + 1 * q.val = q.val; omega

/-- The packed output's block at point t sits at packed rows 4096·t …. -/
theorem emb13 (t : Fin cfg0.N) (p : Fin 4096) (q : Fin 12) :
    (((cfg0.win 13).blk t).view.emb (ix2 p q) : S262144x12.Idx)
      = ix2 ⟨4096 * t.val + p.val, by have ht : t.val < 64 := t.isLt; have hp := p.isLt; show 4096 * t.val + p.val < 262144; omega⟩ q := by
  refine funext fun a => Fin.ext ?_
  have hf := idx_facts t
  match a with
  | ⟨0, _⟩ => show win0_13.index t (0 : Fin 2) * 4096 + 1 * p.val = 4096 * t.val + p.val; omega
  | ⟨1, _⟩ => show win0_13.index t (1 : Fin 2) * 12 + 1 * q.val = q.val; omega

/-- WHAT POINT t WRITES BACK is block t of the packed output. -/
theorem flushed_eq (c : Dev nD) (E : Entry m c) (t : Fin cfg0.N) :
    (dats m 0 c).flushed 13 t = ((cfg0.win 13).blk t).view.read (Elt Ideal) (packedOut m c) := by
  show (cfg0.win 13).cut (grid0.coords t) ((dats m 0 c).after 13 t) = _
  rw [after0_13]
  unfold out0_13
  rw [View.canon_unit_zero hz]
  simp only [View.ld_unit_zero (S := S4096x8) hz, View.ld_unit_zero (S := S8x256) hz, View.ld_unit_zero (S := S1x256) hz,
    View.ld_unit_zero (S := S256x256) hz, View.ld_unit_zero (S := S256x12) hz, View.ld_unit_zero (S := S1x12) hz]
  funext y
  obtain ⟨p, q, rfl⟩ : ∃ (p : Fin 4096) (q : Fin 12), y = ix2 p q := ⟨y 0, y 1, eq_ix2 y⟩
  obtain ⟨g, cc, rfl⟩ : ∃ (g : Fin 4) (cc : Fin 3), q = pos e12 g cc :=
    ⟨⟨q.val / 3, by have := q.isLt; omega⟩, ⟨q.val % 3, Nat.mod_lt _ (by norm_num)⟩,
      Fin.ext (by show q.val = 3 * (q.val / 3) + q.val % 3; omega)⟩
  show k0_pay1 (k0_pay2 (iblk m c 0 t) (iblk m c 1 t) (iblk m c 2 t) (iblk m c 3 t) (iblk m c 4 t) (iblk m c 5 t)
      (iblk m c 6 t) (iblk m c 7 t) (iblk m c 8 t)) (iblk m c 9 t) (iblk m c 10 t) (iblk m c 11 t) (iblk m c 12 t)
      (ix2 p (pos e12 g cc)) = packedOut m c (((cfg0.win 13).blk t).view.emb (ix2 p (pos e12 g cc)))
  rw [emb13]
  refine (pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (L1 m c) (L2 m c) (L3 m c) (L4 m c) (L5 m c) (L6 m c)
    (fun a d => (iblk1_eq m c t (ix2 a d)).trans (E.w1 a d)) (fun d => (iblk2_eq m c t (ix2 0 d)).trans (E.b1 d))
    (fun a d => (iblk3_eq m c t (ix2 a d)).trans (E.w2 a d)) (fun d => (iblk4_eq m c t (ix2 0 d)).trans (E.b2 d))
    (fun a d => (iblk5_eq m c t (ix2 a d)).trans (E.w3 a d)) (fun d => (iblk6_eq m c t (ix2 0 d)).trans (E.b3 d))
    (fun a d => (iblk7_eq m c t (ix2 a d)).trans (E.w4 a d)) (fun d => (iblk8_eq m c t (ix2 0 d)).trans (E.b4 d))
    (fun a d => (iblk9_eq m c t (ix2 a d)).trans (E.w5 a d)) (fun d => (iblk10_eq m c t (ix2 0 d)).trans (E.b5 d))
    (fun a d => (iblk11_eq m c t (ix2 a d)).trans (E.w6 a d)) (fun d => (iblk12_eq m c t (ix2 0 d)).trans (E.b6 d))
    p g cc).trans ?_
  have e1 : (fun k => (iblk m c 0 t : S4096x8.Idx → EReal) (ix2 p (pos e8 g k)))
      = rowOf (m ((c : Thread nD τ).loc main_arg0)) (4 * (4096 * t.val + p.val) + g.val) :=
    funext fun k => (iblk0_eq m c t p (pos e8 g k)).trans (E.x _ g k)
  rw [e1]
  have e2 : (pos e12 g cc).val / 3 = g.val := group_div g cc
  have e3 : (⟨(pos e12 g cc).val % 3, Nat.mod_lt _ (by norm_num)⟩ : Fin 3) = cc := Fin.ext (group_mod g cc)
  show _ = foldedRow m c (4 * (4096 * t.val + p.val) + (pos e12 g cc).val / 3) ⟨(pos e12 g cc).val % 3, _⟩
  rw [e2, e3]
  rfl

/-- THE PACKED OUTPUT ARRAY after the region. -/
theorem final (c : Dev nD) (E : Entry m c) : (dats m 0 c).arrAt 13 cfg0.N = packedOut m c :=
  (dats m 0 c).arrAt_eq_of_cover 13 (packedOut m c) (fun t _ => flushed_eq m c E t) cover

end Cert.KernelIdeal.Final

end
-- ==== Proof.KTail.lean ====
/-
  The three results of the kernel program.

  After the region the host reads the packed [262144, 12] output as an [1048576, 3] array (a row-major reshape) and
  returns its three columns.  The region changes no buffer but its arrays, and leaves the packed output in its output array.
-/
import proofs.«119764_j79731772883173_2_alg».proof.Proof.KFinal
import Idealize.ShloMosaic.Lib.StableHlo.Run
import Idealize.ShloMosaic.Lib.Pipeline.FrameSuffix

set_option maxRecDepth 16384

noncomputable section

namespace Cert.KernelIdeal.Tail

open Cert.KernelIdeal Cert.KernelIdeal.Gen Cert.KernelIdeal.Final Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The region leaves the packed output in its output array. -/
theorem region_out (c : Dev nD) (E : Entry m c) :
    Pipeline.withArrays (cfgs 0).spec c (V0 m c) (fun w => (dats m 0 c).arrAt w (cfgs 0).N) (Proc.devRef .tc main_v151)
      = packedOut m c :=
  (Pipeline.withArrays_arr spec0 launch0.win.arr_inj c _ _ 13).trans (final m c E)

/-- The first result: column 0 of the packed output read as an [N, 3] array. -/
theorem tail153 (c : Dev nD) (E : Entry m c) :
    (Pipeline.afterTail₀ cfgs (dats m) 0 (V0 m) [hostOps1] c main_v153 : S1048576x1.Idx → EReal)
      = extractStridedSlice S1048576x1 ![0, 0] (shapeCast S1048576x3 (packedOut m c) Gen.shapeCasts_S262144x12_S1048576x3)
          Gen.slices_S1048576x3_S1048576x1_0_0 := by
  unfold Pipeline.afterTail₀
  show StableHlo.after hostOps1 _ (Proc.devRef .tc main_v153) = _
  after_results
  rw [region_out m c E]
  rfl

/-- The second result: column 1. -/
theorem tail154 (c : Dev nD) (E : Entry m c) :
    (Pipeline.afterTail₀ cfgs (dats m) 0 (V0 m) [hostOps1] c main_v154 : S1048576x1.Idx → EReal)
      = extractStridedSlice S1048576x1 ![0, 1] (shapeCast S1048576x3 (packedOut m c) Gen.shapeCasts_S262144x12_S1048576x3)
          Gen.slices_S1048576x3_S1048576x1_0_1 := by
  unfold Pipeline.afterTail₀
  show StableHlo.after hostOps1 _ (Proc.devRef .tc main_v154) = _
  after_results
  rw [region_out m c E]
  rfl

/-- The third result: column 2. -/
theorem tail155 (c : Dev nD) (E : Entry m c) :
    (Pipeline.afterTail₀ cfgs (dats m) 0 (V0 m) [hostOps1] c main_v155 : S1048576x1.Idx → EReal)
      = extractStridedSlice S1048576x1 ![0, 2] (shapeCast S1048576x3 (packedOut m c) Gen.shapeCasts_S262144x12_S1048576x3)
          Gen.slices_S1048576x3_S1048576x1_0_2 := by
  unfold Pipeline.afterTail₀
  show StableHlo.after hostOps1 _ (Proc.devRef .tc main_v155) = _
  after_results
  rw [region_out m c E]
  rfl

end Cert.KernelIdeal.Tail

end
-- ==== Proof.LibPackLayout.lean ====
/-
  Row-major reshapes that pack four logical rows into one physical row. A reshape keeps every element's row-major
  position; for an `[N, K]` array with `N = 4·M` reshaped to `[M, 4·K]`, position `(4p + g)·K + k` of the operand is
  position `p·(4K) + (K·g + k)` of the result, so physical row `p` holds logical rows `4p, 4p+1, 4p+2, 4p+3` side by
  side. The inverse reshape reads logical row `n` out of physical row `n / 4` at column block `n % 4`. A bias row tiled
  four times (`jnp.tile`: reshape to `[1, 1, 1, J]`, broadcast to `[1, 1, 4, J]`, reshape to `[1, 4·J]`) holds at
  position `d` the bias at `d mod J`.
-/
import Idealize.ShloMosaic.Lib.ValueIdx
import Idealize.ShloMosaic.Lib.Pipeline.Value
import Idealize.ShloMosaic.Lib.ValueLayout

namespace Cert.LibPackLayout

open Idealize.ShloMosaic Idealize.ShloMosaic.ValueIdx

variable {α : Type}

/-- Column `K·g + k` of block `g < 4` lies inside a row of `C = 4·K` columns: `K·g + k < K·g + K = K·(g+1) ≤ 4·K`. -/
theorem block_col_lt {K C : ℕ} (hC : C = 4 * K) {g k : ℕ} (hg : g < 4) (hk : k < K) : K * g + k < C := by
  have h1 : K * (g + 1) ≤ K * 4 := Nat.mul_le_mul_left K hg
  rw [Nat.mul_add, Nat.mul_one] at h1
  omega

/-- PACKING. An `[N, K]` array with `N = 4·M` reshaped to `[M, C]`, `C = 4·K`, read at physical row `p`, column
    `K·g + k` (block `g < 4`, offset `k < K`) is the operand at logical row `4p + g`, column `k`: both have row-major
    position `p·C + K·g + k = (4p + g)·K + k`. -/
theorem pack_rows_apply {M K C N : ℕ} (hC : C = 4 * K) (hN : N = 4 * M) (x : (⟨2, ![N, K]⟩ : Shape).Idx → α)
    (h : (⟨2, ![N, K]⟩ : Shape).ShapeCasts ⟨2, ![M, C]⟩) (p : Fin M) (g : Fin 4) (k : Fin K) :
    shapeCast ⟨2, ![M, C]⟩ x h (ix2 p ⟨K * g.val + k.val, block_col_lt hC g.isLt k.isLt⟩)
      = x (ix2 ⟨4 * p.val + g.val, by have := p.isLt; have := g.isLt; omega⟩ k) :=
  shapeCast_apply x h _ _ (by
    rw [Shape.rowMajor_val_two, Shape.rowMajor_val_two]
    show (4 * p.val + g.val) * K + k.val = p.val * C + (K * g.val + k.val)
    subst hC
    ring)

/-- UNPACKING. An `[M, D]` array with `D = 4·J` reshaped to `[N, J]`, `N = 4·M`, read at logical row `n`, column `j` is
    the operand at physical row `n / 4`, column `J·(n % 4) + j`: with `n = 4·(n / 4) + n % 4` both have row-major
    position `n·J + j`. -/
theorem unpack_rows_apply {M J D N : ℕ} (hD : D = 4 * J) (hN : N = 4 * M) (o : (⟨2, ![M, D]⟩ : Shape).Idx → α)
    (h : (⟨2, ![M, D]⟩ : Shape).ShapeCasts ⟨2, ![N, J]⟩) (n : Fin N) (j : Fin J) :
    shapeCast ⟨2, ![N, J]⟩ o h (ix2 n j)
      = o (ix2 ⟨n.val / 4, by have := n.isLt; omega⟩
            ⟨J * (n.val % 4) + j.val, block_col_lt hD (Nat.mod_lt _ (by decide)) j.isLt⟩) :=
  shapeCast_apply o h _ _ (by
    rw [Shape.rowMajor_val_two, Shape.rowMajor_val_two]
    show n.val / 4 * D + (J * (n.val % 4) + j.val) = n.val * J + j.val
    have hn : n.val * J = (4 * (n.val / 4) + n.val % 4) * J := by rw [Nat.div_add_mod]
    rw [hn]
    subst hD
    ring)

/-- TILING A BIAS. A length-`J` vector viewed as `[1, J]`, then `[1, 1, 1, J]`, broadcast to `[1, 1, 4, J]` and reshaped
    to one row of `D = 4·J` entries (`jnp.tile` by four) holds at position `d` the vector's entry at `d mod J`:
    position `d = (d / J)·J + d mod J` of the row is copy `d / J`, entry `d mod J`, and every copy is the vector. -/
theorem tile_bias_apply {J D : ℕ} (hD : D = 4 * J) (b : (⟨1, ![J]⟩ : Shape).Idx → α)
    (h1 : (⟨1, ![J]⟩ : Shape).ShapeCasts ⟨2, ![1, J]⟩) (h2 : (⟨2, ![1, J]⟩ : Shape).ShapeCasts ⟨4, ![1, 1, 1, J]⟩)
    (hb : (⟨4, ![1, 1, 1, J]⟩ : Shape).BroadcastsInDim ⟨4, ![1, 1, 4, J]⟩ (![0, 1, 2, 3] : Fin 4 → Fin 4))
    (h3 : (⟨4, ![1, 1, 4, J]⟩ : Shape).ShapeCasts ⟨2, ![1, D]⟩) (hJ : 0 < J) (d : Fin D) :
    shapeCast ⟨2, ![1, D]⟩ (broadcastInDim ⟨4, ![1, 1, 4, J]⟩ ![0, 1, 2, 3] hb
        (shapeCast ⟨4, ![1, 1, 1, J]⟩ (shapeCast ⟨2, ![1, J]⟩ b h1) h2)) h3 (ix2 (0 : Fin 1) d)
      = b (ix1 ⟨d.val % J, Nat.mod_lt _ hJ⟩) := by
  have hq : d.val / J < 4 := Nat.div_lt_of_lt_mul (by have := d.isLt; omega)
  have hr : d.val % J < J := Nat.mod_lt _ hJ
  -- the row's position d is copy d / J, entry d mod J of the [1, 1, 4, J] array
  rw [shapeCast_apply _ h3 (ix2 (0 : Fin 1) d) (ix4 (0 : Fin 1) (0 : Fin 1) ⟨d.val / J, hq⟩ ⟨d.val % J, hr⟩) (by
    rw [Shape.rowMajor_val_four, Shape.rowMajor_val_two]
    show ((0 * 1 + 0) * 4 + d.val / J) * J + d.val % J = 0 * D + d.val
    simp only [Nat.zero_mul, Nat.zero_add]
    exact Nat.div_add_mod' _ _)]
  -- every copy of the broadcast is the [1, 1, 1, J] array
  rw [broadcastInDim_apply _ hb _ _ (ix4 (0 : Fin 1) (0 : Fin 1) (0 : Fin 1) ⟨d.val % J, hr⟩) (fun a => by
    match a with
    | ⟨0, _⟩ => rfl
    | ⟨1, _⟩ => rfl
    | ⟨2, _⟩ => rfl
    | ⟨3, _⟩ =>
      show d.val % J = if J = 1 then 0 else d.val % J
      split
      · next hJ1 => rw [hJ1, Nat.mod_one]
      · rfl)]
  -- the two reshapes of the vector keep its one coordinate
  rw [shapeCast_apply _ h2 _ (ix2 (0 : Fin 1) ⟨d.val % J, hr⟩) (by
    rw [Shape.rowMajor_val_two, Shape.rowMajor_val_four]
    show 0 * J + d.val % J = ((0 * 1 + 0) * 1 + 0) * J + d.val % J
    rfl)]
  exact shapeCast_a_1a_apply b h1 _ _

end Cert.LibPackLayout
-- ==== Proof.FiniteInputs.lean ====
/-
  The precondition of the certificate, read back. The precondition says that on every device the printed function
  `Cert.Pre_finite_inputs.fn`, applied to the device's 25 argument arrays, returns true. That function is the
  conjunction, array by array, of `jnp.all (|x| < +∞)`: the absolute value `max x (-x)` of every entry is compared,
  strictly, against the broadcast of the constant with bit pattern `0x7F800000` (which denotes `+∞ = ⊤`), the
  one-bit results are reduced by `and` over every axis to one word, and the 25 words are joined by `and`.
  Read at the extended reals: `max x (-x) < ⊤` excludes `x = ⊤` and `x = ⊥`, so `x` is a real number. Hence under the
  precondition every entry of every argument array is a real number (`real_of_pre`).
-/
import proofs.«119764_j79731772883173_2_alg».proof.Defs
import Idealize.ShloMosaic.Lib.ReduceAll
import Idealize.ShloMosaic.Lib.ValueIdx

noncomputable section

namespace Cert.FiniteInputs

open Idealize.ShloMosaic Idealize.SL.Sem
open Cert.Pre_finite_inputs

/-- The rank-0 shape has exactly one index. -/
instance subsingleton_scalar_idx : Subsingleton S_.Idx := ⟨fun a b => funext fun d => d.elim0⟩

/-- An extended real whose absolute value `max x (-x)` lies strictly below `+∞` is a real number:
    `x = ⊤` gives `max = ⊤`, and `x = ⊥` gives `-x = ⊤` and again `max = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of a Boolean is 1 exactly when the Boolean is true. -/
theorem ofBool_eq_one (b : Bool) : BitVec.ofBool b = 1#1 ↔ b = true := by cases b <;> decide

/-- The all-finite test on one array, read back: if `jnp.all (|x| < +∞)` — the reduction by `and` over every axis of
    the comparison of `|x|` against the broadcast constant `+∞` (bit pattern `0x7F800000`) — is true, then every
    entry of `x` is a real number. -/
theorem real_of_all_finite {S : Shape} {axes : List (Fin S.rank)}
    (hb : S_.BroadcastsInDim S (![] : Fin 0 → Fin S.rank)) (hr : S.ReducesTo axes S_) (hu : 0 < S_.numel)
    (x : FVec Ideal S .f32) (init : IVec S_ 1) (j : S_.Idx)
    (e : Host.reduce IntOp.andi (cmpf .olt (Host.absf x) (broadcastInDim S ![] hb (constant S_ .f32 0x7F800000#32)))
      init hr hu j = 1#1) :
    ∀ i, ∃ r : ℝ, x i = (r : EReal) := by
  intro i
  have h := Host.reduce_andi_all _ init hr hu j e i
  have h' : Ideal.cmp .olt (max (x i) (-(x i))) (Ideal.ofBits .f32 0x7F800000#32) = 1#1 := h
  have htop : Ideal.ofBits .f32 0x7F800000#32 = ⊤ := by simp [Ideal.ofBits, Ideal.ieee]
  rw [htop] at h'
  have h2 : BitVec.ofBool (decide (max (x i) (-(x i)) < ⊤)) = 1#1 := h'
  exact real_of_abs_lt_top _ (of_decide_eq_true ((ofBool_eq_one _).1 h2))

/-- The printed test, decoded over arbitrary arrays: `fn` is the conjunction, array by array, of the all-finite
    test `jnp.all (|x| < +∞)`; when it returns true, each of the 25 conjuncts is true (an `and` of one-bit words is 1
    exactly when both are), and each conjunct makes every entry of its array a real number. -/
theorem real_of_fn [Cert.Pre_finite_inputs.Facts] (a0 : FVec Ideal S1048576x2 .f32) (a1 : FVec Ideal S64x2 .f32) (a2 : FVec Ideal S64 .f32) (a3 : FVec Ideal S64x64 .f32) (a4 : FVec Ideal S64 .f32) (a5 : FVec Ideal S64x64 .f32) (a6 : FVec Ideal S64 .f32) (a7 : FVec Ideal S64x64 .f32) (a8 : FVec Ideal S64 .f32) (a9 : FVec Ideal S64x64 .f32) (a10 : FVec Ideal S64 .f32) (a11 : FVec Ideal S3x64 .f32) (a12 : FVec Ideal S3 .f32) (a13 : FVec Ideal S8x2 .f32) (a14 : FVec Ideal S64x8 .f32) (a15 : FVec Ideal S8x64 .f32) (a16 : FVec Ideal S64x8 .f32) (a17 : FVec Ideal S8x64 .f32) (a18 : FVec Ideal S64x8 .f32) (a19 : FVec Ideal S8x64 .f32) (a20 : FVec Ideal S64x8 .f32) (a21 : FVec Ideal S8x64 .f32) (a22 : FVec Ideal S64x8 .f32) (a23 : FVec Ideal S8x64 .f32) (a24 : FVec Ideal S3x8 .f32)
    (h : Cert.Pre_finite_inputs.fn (F := Ideal) a0 a1 a2 a3 a4 a5 a6 a7 a8 a9 a10 a11 a12 a13 a14 a15 a16 a17 a18 a19 a20 a21 a22 a23 a24 = (fun _ => 1#1)) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal))
      ∧ (∀ i, ∃ r : ℝ, a20 i = (r : EReal))
      ∧ (∀ i, ∃ r : ℝ, a21 i = (r : EReal))
      ∧ (∀ i, ∃ r : ℝ, a22 i = (r : EReal))
      ∧ (∀ i, ∃ r : ℝ, a23 i = (r : EReal))
      ∧ (∀ i, ∃ r : ℝ, a24 i = (r : EReal)) := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 Cert.Pre_finite_inputs.fn_part7 at e
  simp only [andi, IntOp.andi_eq_one] at e
  obtain ⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := e
  exact ⟨real_of_all_finite _ _ _ a0 _ _ h0,
    real_of_all_finite _ _ _ a1 _ _ h1,
    real_of_all_finite _ _ _ a2 _ _ h2,
    real_of_all_finite _ _ _ a3 _ _ h3,
    real_of_all_finite _ _ _ a4 _ _ h4,
    real_of_all_finite _ _ _ a5 _ _ h5,
    real_of_all_finite _ _ _ a6 _ _ h6,
    real_of_all_finite _ _ _ a7 _ _ h7,
    real_of_all_finite _ _ _ a8 _ _ h8,
    real_of_all_finite _ _ _ a9 _ _ h9,
    real_of_all_finite _ _ _ a10 _ _ h10,
    real_of_all_finite _ _ _ a11 _ _ h11,
    real_of_all_finite _ _ _ a12 _ _ h12,
    real_of_all_finite _ _ _ a13 _ _ h13,
    real_of_all_finite _ _ _ a14 _ _ h14,
    real_of_all_finite _ _ _ a15 _ _ h15,
    real_of_all_finite _ _ _ a16 _ _ h16,
    real_of_all_finite _ _ _ a17 _ _ h17,
    real_of_all_finite _ _ _ a18 _ _ h18,
    real_of_all_finite _ _ _ a19 _ _ h19,
    real_of_all_finite _ _ _ a20 _ _ h20,
    real_of_all_finite _ _ _ a21 _ _ h21,
    real_of_all_finite _ _ _ a22 _ _ h22,
    real_of_all_finite _ _ _ a23 _ _ h23,
    real_of_all_finite _ _ _ a24 _ _ h24⟩

/-- Under the certificate's precondition every entry of every argument array, on every device, is a real number:
    the precondition says the printed all-finite test returns true on the device's 25 argument arrays. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal))
      ∧ (∀ i, ∃ r : ℝ, m ((c.tc : Thread Cert.KernelIdeal.nD Cert.KernelIdeal.τ).loc Cert.KernelIdeal.main_arg17) i = (r : EReal))
      ∧ (∀ i, ∃ r : ℝ, m ((c.tc : Thread Cert.KernelIdeal.nD Cert.KernelIdeal.τ).loc Cert.KernelIdeal.main_arg18) i = (r : EReal))
      ∧ (∀ i, ∃ r : ℝ, m ((c.tc : Thread Cert.KernelIdeal.nD Cert.KernelIdeal.τ).loc Cert.KernelIdeal.main_arg19) i = (r : EReal))
      ∧ (∀ i, ∃ r : ℝ, m ((c.tc : Thread Cert.KernelIdeal.nD Cert.KernelIdeal.τ).loc Cert.KernelIdeal.main_arg20) i = (r : EReal))
      ∧ (∀ i, ∃ r : ℝ, m ((c.tc : Thread Cert.KernelIdeal.nD Cert.KernelIdeal.τ).loc Cert.KernelIdeal.main_arg21) i = (r : EReal))
      ∧ (∀ i, ∃ r : ℝ, m ((c.tc : Thread Cert.KernelIdeal.nD Cert.KernelIdeal.τ).loc Cert.KernelIdeal.main_arg22) i = (r : EReal))
      ∧ (∀ i, ∃ r : ℝ, m ((c.tc : Thread Cert.KernelIdeal.nD Cert.KernelIdeal.τ).loc Cert.KernelIdeal.main_arg23) i = (r : EReal))
      ∧ (∀ i, ∃ r : ℝ, m ((c.tc : Thread Cert.KernelIdeal.nD Cert.KernelIdeal.τ).loc Cert.KernelIdeal.main_arg24) i = (r : EReal)) :=
  real_of_fn _ _ _ _ _ _ _ _ _ _ _ _ _ _ _ _ _ _ _ _ _ _ _ _ _ (h c)

end Cert.FiniteInputs

end
-- ==== Proof.KOut.lean ====
/-
  The kernel's [N, 3] array is the reference network, row by row.

  Read as an [1048576, 3] array, the packed output holds at (n, j) the entry of packed row n / 4, group n mod 4,
  coordinate j: the folded network on logical row n of the input.  Under the precondition every parameter and every
  input entry is a real number, so the folded network is the reference network on that row.
-/
import proofs.«119764_j79731772883173_2_alg».proof.Proof.KFinal
import proofs.«119764_j79731772883173_2_alg».proof.Proof.LibPackLayout
import proofs.«119764_j79731772883173_2_alg».proof.Proof.FiniteInputs

set_option maxRecDepth 16384

noncomputable section

namespace Cert.KernelIdeal.Out

open Cert.KernelIdeal Cert.KernelIdeal.Gen Cert.KernelIdeal.Final Cert.KernelIdeal.Body Idealize.ShloMosaic Idealize.ShloMosaic.TcCoe
open Idealize.SL.Sem Idealize.ShloMosaic.ValueIdx Cert.Net Cert.PackedLayer Cert.SplitLayer Cert.LibLoraLaw

/-- The [N, 3] array both programs end at: row n is the reference network on row n of the input. -/
def outArr (x : (⟨2, ![1048576, 2]⟩ : Shape).Idx → EReal) (L1 : Layer 2 64 8) (L2 L3 L4 L5 : Layer 64 64 8) (L6 : Layer 64 3 8) :
    (⟨2, ![1048576, 3]⟩ : Shape).Idx → EReal :=
  fun i => netSplit L1 L2 L3 L4 L5 L6 (rowOf x (i 0).val) (i 1)

theorem isReal_rowOf (x : (⟨2, ![1048576, 2]⟩ : Shape).Idx → EReal) (hx : ∀ i, ∃ r : ℝ, x i = (r : EReal)) (n : ℕ) (k : Fin 2) :
    IsReal (rowOf x n k) := by
  unfold rowOf
  split_ifs with h
  · exact hx _
  · exact isReal_zero

theorem layer_real {K J R : ℕ} (W : (⟨2, ![J, K]⟩ : Shape).Idx → EReal) (b : (⟨1, ![J]⟩ : Shape).Idx → EReal)
    (A : (⟨2, ![R, K]⟩ : Shape).Idx → EReal) (B : (⟨2, ![J, R]⟩ : Shape).Idx → EReal)
    (hW : ∀ i, ∃ r : ℝ, W i = (r : EReal)) (hb : ∀ i, ∃ r : ℝ, b i = (r : EReal))
    (hA : ∀ i, ∃ r : ℝ, A i = (r : EReal)) (hB : ∀ i, ∃ r : ℝ, B i = (r : EReal)) : (layerOf W b A B).Real :=
  ⟨fun _ _ => hW _, fun _ => hb _, fun _ _ => hA _, fun _ _ => hB _⟩

variable [Cert.Pre_finite_inputs.Facts] (m : (ℓ : Loc nD τ sig) → Buf (Elt Ideal) ℓ)

/-- The packed output read as an [N, 3] array is the common array. -/
theorem unpacked_eq (hpre : Cert.Pre_KernelIdeal m) (c : Dev nD) :
    shapeCast S1048576x3 (packedOut m c) Gen.shapeCasts_S262144x12_S1048576x3
      = outArr (m ((c : Thread nD τ).loc main_arg0)) (L1 m c) (L2 m c) (L3 m c) (L4 m c) (L5 m c) (L6 m c) := by
  obtain ⟨r0, r1, r2, r3, r4, r5, r6, r7, r8, r9, r10, r11, r12, r13, r14, r15, r16, r17, r18, r19, r20, r21, r22, r23, r24⟩ :=
    Cert.FiniteInputs.real_of_pre m hpre c
  funext i
  obtain ⟨n, j, rfl⟩ : ∃ (n : Fin 1048576) (j : Fin 3), i = ix2 n j := ⟨i 0, i 1, eq_ix2 i⟩
  rw [Cert.LibPackLayout.unpack_rows_apply (M := 262144) (J := 3) (D := 12) (N := 1048576) e12 (by norm_num) _ _ n j]
  have hn : n.val < 1048576 := n.isLt
  have hj : j.val < 3 := j.isLt
  have e2 : (3 * (n.val % 4) + j.val) / 3 = n.val % 4 := by omega
  have e3 : (⟨(3 * (n.val % 4) + j.val) % 3, Nat.mod_lt _ (by norm_num)⟩ : Fin 3) = j := Fin.ext (by show (3 * (n.val % 4) + j.val) % 3 = j.val; omega)
  have e4 : 4 * (n.val / 4) + n.val % 4 = n.val := by omega
  show foldedRow m c (4 * (n.val / 4) + (3 * (n.val % 4) + j.val) / 3) ⟨(3 * (n.val % 4) + j.val) % 3, _⟩
    = netSplit _ _ _ _ _ _ (rowOf _ n.val) j
  rw [e2, e3, e4]
  unfold foldedRow
  exact congrFun (netFolded_eq_netSplit _ _ _ _ _ _ (layer_real _ _ _ _ r1 r2 r13 r14) (layer_real _ _ _ _ r3 r4 r15 r16)
    (layer_real _ _ _ _ r5 r6 r17 r18) (layer_real _ _ _ _ r7 r8 r19 r20) (layer_real _ _ _ _ r9 r10 r21 r22)
    (layer_real _ _ _ _ r11 r12 r23 r24) _ (isReal_rowOf _ r0 _)) j

end Cert.KernelIdeal.Out

end
-- ==== Proof.KRun.lean ====
/-
  The kernel program's run, with its three results named.

  Every weakly fair execution terminates; the three result buffers end at the three columns of the common [N, 3] array
  (the reference network row by row), and the arguments end unchanged.
-/
import proofs.«119764_j79731772883173_2_alg».proof.Proof.KTail
import proofs.«119764_j79731772883173_2_alg».proof.Proof.KOut

set_option maxRecDepth 16384

noncomputable section

namespace Cert.KernelIdeal.Run

open Cert.KernelIdeal Cert.KernelIdeal.Gen Cert.KernelIdeal.Final Cert.KernelIdeal.Tail Cert.KernelIdeal.Out
open Idealize.ShloMosaic Idealize.ShloMosaic.TcCoe Idealize.SL.Sem

variable [Cert.Pre_finite_inputs.Facts] (m : (ℓ : Loc nD τ sig) → Buf (Elt Ideal) ℓ) (ρ : Dev nD → PrngReg)

/-- Column j of the common array, for the argument arrays in m. -/
def col (c : Dev nD) (j : ℕ) (h : S1048576x3.Slices ![0, j] S1048576x1) : S1048576x1.Idx → EReal :=
  extractStridedSlice S1048576x1 ![0, j]
    (outArr (m ((c : Thread nD τ).loc main_arg0)) (L1 m c) (L2 m c) (L3 m c) (L4 m c) (L5 m c) (L6 m c)) h

/-- The first result buffer after the run. -/
theorem res153 (hpre : Cert.Pre_KernelIdeal m) (hE : ∀ c, Entry m c) (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v153) = col m c 0 Gen.slices_S1048576x3_S1048576x1_0_0 := by
  have h1 := (h c).2 main_v153 (Pipeline.mem_restRefs_of main_v153 (by decide) (by decide))
  rw [h1, tail153 m c (hE c), unpacked_eq m hpre c]
  rfl

/-- The second result buffer after the run. -/
theorem res154 (hpre : Cert.Pre_KernelIdeal m) (hE : ∀ c, Entry m c) (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v154) = col m c 1 Gen.slices_S1048576x3_S1048576x1_0_1 := by
  have h1 := (h c).2 main_v154 (Pipeline.mem_restRefs_of main_v154 (by decide) (by decide))
  rw [h1, tail154 m c (hE c), unpacked_eq m hpre c]
  rfl

/-- The third result buffer after the run. -/
theorem res155 (hpre : Cert.Pre_KernelIdeal m) (hE : ∀ c, Entry m c) (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v155) = col m c 2 Gen.slices_S1048576x3_S1048576x1_0_2 := by
  have h1 := (h c).2 main_v155 (Pipeline.mem_restRefs_of main_v155 (by decide) (by decide))
  rw [h1, tail155 m c (hE c), unpacked_eq m hpre c]
  rfl

/-- The run: the three results at the columns of the common array, the arguments unchanged. -/
theorem run (hpre : Cert.Pre_KernelIdeal m) (hE : ∀ c, Entry m c) :
    θ_run defs (onTc (τ := τ) (main (F := Ideal))) ⟨m, fun _ => 0, ρ⟩ (fun r => ∀ c : Dev nD,
      r.2.mem ((c.tc : Thread nD τ).loc main_v153) = col m c 0 Gen.slices_S1048576x3_S1048576x1_0_0
      ∧ r.2.mem ((c.tc : Thread nD τ).loc main_v154) = col m c 1 Gen.slices_S1048576x3_S1048576x1_0_1
      ∧ r.2.mem ((c.tc : Thread nD τ).loc main_v155) = col m c 2 Gen.slices_S1048576x3_S1048576x1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) := by
  refine (θ_run defs _ _).mono (fun r h c => ?_) (run_main m ρ)
  refine ⟨res153 m hpre hE r h c, res154 m hpre hE r h c, res155 m hpre hE r h c, ?_, ?_, ?_, ?_, ?_, ?_, ?_, ?_, ?_, ?_, ?_, ?_, ?_, ?_, ?_, ?_, ?_, ?_, ?_, ?_, ?_, ?_, ?_, ?_, ?_⟩
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)
  · exact ((h c).2 main_arg7 (Pipeline.mem_restRefs_of main_arg7 (by decide) (by decide))).trans (W_main_arg7 m (dats m) c)
  · exact ((h c).2 main_arg8 (Pipeline.mem_restRefs_of main_arg8 (by decide) (by decide))).trans (W_main_arg8 m (dats m) c)
  · exact ((h c).2 main_arg9 (Pipeline.mem_restRefs_of main_arg9 (by decide) (by decide))).trans (W_main_arg9 m (dats m) c)
  · exact ((h c).2 main_arg10 (Pipeline.mem_restRefs_of main_arg10 (by decide) (by decide))).trans (W_main_arg10 m (dats m) c)
  · exact ((h c).2 main_arg11 (Pipeline.mem_restRefs_of main_arg11 (by decide) (by decide))).trans (W_main_arg11 m (dats m) c)
  · exact ((h c).2 main_arg12 (Pipeline.mem_restRefs_of main_arg12 (by decide) (by decide))).trans (W_main_arg12 m (dats m) c)
  · exact ((h c).2 main_arg13 (Pipeline.mem_restRefs_of main_arg13 (by decide) (by decide))).trans (W_main_arg13 m (dats m) c)
  · exact ((h c).2 main_arg14 (Pipeline.mem_restRefs_of main_arg14 (by decide) (by decide))).trans (W_main_arg14 m (dats m) c)
  · exact ((h c).2 main_arg15 (Pipeline.mem_restRefs_of main_arg15 (by decide) (by decide))).trans (W_main_arg15 m (dats m) c)
  · exact ((h c).2 main_arg16 (Pipeline.mem_restRefs_of main_arg16 (by decide) (by decide))).trans (W_main_arg16 m (dats m) c)
  · exact ((h c).2 main_arg17 (Pipeline.mem_restRefs_of main_arg17 (by decide) (by decide))).trans (W_main_arg17 m (dats m) c)
  · exact ((h c).2 main_arg18 (Pipeline.mem_restRefs_of main_arg18 (by decide) (by decide))).trans (W_main_arg18 m (dats m) c)
  · exact ((h c).2 main_arg19 (Pipeline.mem_restRefs_of main_arg19 (by decide) (by decide))).trans (W_main_arg19 m (dats m) c)
  · exact ((h c).2 main_arg20 (Pipeline.mem_restRefs_of main_arg20 (by decide) (by decide))).trans (W_main_arg20 m (dats m) c)
  · exact ((h c).2 main_arg21 (Pipeline.mem_restRefs_of main_arg21 (by decide) (by decide))).trans (W_main_arg21 m (dats m) c)
  · exact ((h c).2 main_arg22 (Pipeline.mem_restRefs_of main_arg22 (by decide) (by decide))).trans (W_main_arg22 m (dats m) c)
  · exact ((h c).2 main_arg23 (Pipeline.mem_restRefs_of main_arg23 (by decide) (by decide))).trans (W_main_arg23 m (dats m) c)
  · exact ((h c).2 main_arg24 (Pipeline.mem_restRefs_of main_arg24 (by decide) (by decide))).trans (W_main_arg24 m (dats m) c)

end Cert.KernelIdeal.Run

end
-- ==== Proof.LibScatterBlock.lean ====
/-
  A window write into a matrix, read at an index, and the block-diagonal matrix built by four of them.

  `x.at[r0:r0+p, c0:c0+q].set(U)` is a scatter with ONE start index `(r0, c0)` whose update `U : [p, q]` is one window:
  update index `(j₀, j₁)` lands at operand index `(r0 + j₀, c0 + j₁)`. The scatter is a left fold over all the update
  indices, each step overwriting one operand element. Read at one operand element the fold is decided by which update
  indices land there: none — the operand's element stays —, or some, all carrying one value — that value. For a window
  inside the operand the landing map is injective with image the window, which gives the closed form
  `scatter_set_apply`. Writing the same `[K, J]` block at `(K·g, J·g)`, g = 0, 1, 2, 3, into a `[4K, 4J]` matrix gives the
  block-diagonal matrix: element `(a, b)` is the block's `(a mod K, b mod J)` when `a / K = b / J`, and the original
  element otherwise (`blockdiag4_apply`).
-/
import Idealize.ShloMosaic.Lib.ValueIdx
import Idealize.ShloMosaic.Lib.Pipeline.Value
import Idealize.ShloMosaic.PureOps.Ideal.Laws

noncomputable section

namespace Cert.LibScatterBlock

open Idealize.ShloMosaic Idealize.ShloMosaic.ValueIdx

/-! ## A left fold of pointwise overwrites, read at one point -/

section Fold
variable {α β ι : Type} (step : (ι → α) → β → (ι → α)) (g : β → Option ι) (v : β → α)

/-- A fold of steps that each change a function only at the point `g n` leaves the value at `i` alone when no step's
    point is `i`. -/
theorem foldl_miss (hmiss : ∀ r n i, g n ≠ some i → step r n i = r i) (L : List β) (x : ι → α) (i : ι)
    (h : ∀ n ∈ L, g n ≠ some i) : L.foldl step x i = x i := by
  induction L generalizing x with
  | nil => rfl
  | cons n L ih =>
    rw [List.foldl_cons, ih _ (fun m hm => h m (List.mem_cons_of_mem _ hm)), hmiss _ _ _ (h n List.mem_cons_self)]

/-- A fold of steps that each overwrite the point `g n` by `v n` ends, at a point `i` that some step writes and where
    every step writing it writes the same value `y`, at `y`. -/
theorem foldl_hit (hhit : ∀ r n i, g n = some i → step r n i = v n) (hmiss : ∀ r n i, g n ≠ some i → step r n i = r i)
    (L : List β) (x : ι → α) (i : ι) (y : α) (hex : ∃ n ∈ L, g n = some i) (hy : ∀ n ∈ L, g n = some i → v n = y) :
    L.foldl step x i = y := by
  induction L generalizing x with
  | nil => obtain ⟨n, hn, _⟩ := hex; cases hn
  | cons n L ih =>
    rw [List.foldl_cons]
    by_cases hL : ∃ m ∈ L, g m = some i
    · exact ih _ hL (fun m hm => hy m (List.mem_cons_of_mem _ hm))
    · have hno : ∀ m ∈ L, g m ≠ some i := fun m hm hg => hL ⟨m, hm, hg⟩
      rw [foldl_miss step g hmiss L _ i hno]
      obtain ⟨m, hm, hg⟩ := hex
      rcases List.mem_cons.1 hm with rfl | hm'
      · rw [hhit _ _ _ hg]; exact hy _ List.mem_cons_self hg
      · exact absurd hg (hno m hm')

end Fold

/-! ## An overwriting scatter read at an index, for any dimension numbers -/

section Overwrite
variable {α : Type} {s si u : Shape} {w : ℕ} (d : ScatterDims s si u)

/-- An overwriting scatter (`.at[…].set`) leaves an operand element that no update index lands at. -/
theorem scatter_set_of_miss (x : s.Idx → α) (idx : IVec si w) (upd : u.Idx → α) (i : s.Idx)
    (h : ∀ j : u.Idx, d.resultIdx? j idx ≠ some i) : Host.scatter d (fun _ b => b) x idx upd i = x i := by
  unfold Host.scatter
  refine foldl_miss _ (fun n => d.resultIdx? (u.rowMajor.symm n) idx) ?_ _ _ _ (fun n _ => h _)
  intro r n i' hg
  dsimp only at hg ⊢
  cases hres : d.resultIdx? (u.rowMajor.symm n) idx with
  | none => rfl
  | some i0 =>
    have hne : i' ≠ i0 := fun e => hg (by rw [hres, e])
    simp [hne]

/-- An overwriting scatter reads, at an operand element that some update index lands at and where all the update indices
    landing there carry the same value `y`, that value. -/
theorem scatter_set_of_hit (x : s.Idx → α) (idx : IVec si w) (upd : u.Idx → α) (i : s.Idx) (y : α)
    (hex : ∃ j : u.Idx, d.resultIdx? j idx = some i) (hy : ∀ j : u.Idx, d.resultIdx? j idx = some i → upd j = y) :
    Host.scatter d (fun _ b => b) x idx upd i = y := by
  unfold Host.scatter
  refine foldl_hit _ (fun n => d.resultIdx? (u.rowMajor.symm n) idx) (fun n => upd (u.rowMajor.symm n)) ?_ ?_ _ _ _ _ ?_
    (fun n _ hn => hy _ hn)
  · intro r n i' hg
    dsimp only at hg ⊢
    rw [hg]; simp
  · intro r n i' hg
    dsimp only at hg ⊢
    cases hres : d.resultIdx? (u.rowMajor.symm n) idx with
    | none => rfl
    | some i0 =>
      have hne : i' ≠ i0 := fun e => hg (by rw [hres, e])
      simp [hne]
  · obtain ⟨j, hj⟩ := hex
    exact ⟨u.rowMajor j, List.mem_finRange _, by simpa using hj⟩

end Overwrite

/-! ## The window-write dimension numbers -/

/-- The dimension numbers of `zeros.at[r0:r0+p, c0:c0+q].set(U)`: an operand `[P, Q]`, ONE start index `(r0, c0)` (a
    vector of two integers, the index vector along its only axis), updates `[p, q]` whose two axes are window axes going to
    the operand's two axes in order. Their conditions `wf` are decided on a program's literal shapes. -/
abbrev winDims (P Q p q : ℕ) (wf : ScatterDims.WF ⟨2, ![P, Q]⟩ ⟨1, ![2]⟩ ⟨2, ![p, q]⟩ [0, 1] [] [0, 1] 0) :
    ScatterDims ⟨2, ![P, Q]⟩ ⟨1, ![2]⟩ ⟨2, ![p, q]⟩ :=
  { updateWindowDims := [0, 1], insertedWindowDims := [], scatterDimsToOperandDims := [0, 1], indexVectorDim := 0, wf := wf }

section Win
variable {P Q p q w : ℕ} (wf : ScatterDims.WF ⟨2, ![P, Q]⟩ ⟨1, ![2]⟩ ⟨2, ![p, q]⟩ [0, 1] [] [0, 1] 0)

/-- The window starts, on the operand's row axis, at the index vector's first entry read signed. -/
theorem start_zero (j : (⟨2, ![p, q]⟩ : Shape).Idx) (idx : IVec ⟨1, ![2]⟩ w) :
    (winDims P Q p q wf).start j idx 0 = (idx (ix1 0)).toInt := by
  unfold ScatterDims.start
  rw [dif_pos (show (0 : Fin 2) ∈ ([0, 1] : List (Fin 2)) by decide)]
  congr 2
  funext b; refine Fin.ext ?_
  match b with
  | ⟨0, _⟩ => rfl

/-- The window starts, on the operand's column axis, at the index vector's second entry read signed. -/
theorem start_one (j : (⟨2, ![p, q]⟩ : Shape).Idx) (idx : IVec ⟨1, ![2]⟩ w) :
    (winDims P Q p q wf).start j idx 1 = (idx (ix1 1)).toInt := by
  unfold ScatterDims.start
  rw [dif_pos (show (1 : Fin 2) ∈ ([0, 1] : List (Fin 2)) by decide)]
  congr 2
  funext b; refine Fin.ext ?_
  match b with
  | ⟨0, _⟩ => rfl

/-- The window coordinate on the operand's row axis is the update index's first coordinate. -/
theorem window_zero (j : (⟨2, ![p, q]⟩ : Shape).Idx) : (winDims P Q p q wf).window j 0 = (j 0).val := by
  unfold ScatterDims.window
  rw [dif_pos (show (0 : Fin 2) ∈ (winDims P Q p q wf).sKept from (by decide : (0 : Fin 2) ∈ ([0, 1] : List (Fin 2))))]
  rfl

/-- The window coordinate on the operand's column axis is the update index's second coordinate. -/
theorem window_one (j : (⟨2, ![p, q]⟩ : Shape).Idx) : (winDims P Q p q wf).window j 1 = (j 1).val := by
  unfold ScatterDims.window
  rw [dif_pos (show (1 : Fin 2) ∈ (winDims P Q p q wf).sKept from (by decide : (1 : Fin 2) ∈ ([0, 1] : List (Fin 2))))]
  rfl

end Win

/-! ## The window write read at an index -/

section Set
variable {α : Type} {P Q p q w : ℕ} (wf : ScatterDims.WF ⟨2, ![P, Q]⟩ ⟨1, ![2]⟩ ⟨2, ![p, q]⟩ [0, 1] [] [0, 1] 0)

/-- With the start index `(r0, c0)` and the window inside the operand, update index `(j₀, j₁)` lands at
    `(r0 + j₀, c0 + j₁)`: no update is dropped. -/
theorem resultIdx_eq (idx : IVec ⟨1, ![2]⟩ w) (r0 c0 : ℕ) (hr : (idx (ix1 0)).toInt = (r0 : ℤ))
    (hc : (idx (ix1 1)).toInt = (c0 : ℤ)) (hP : r0 + p ≤ P) (hQ : c0 + q ≤ Q) (j : (⟨2, ![p, q]⟩ : Shape).Idx) :
    (winDims P Q p q wf).resultIdx? j idx
      = some (ix2 ⟨r0 + (j 0).val, by have := idx2_lt0 j; omega⟩ ⟨c0 + (j 1).val, by have := idx2_lt1 j; omega⟩) := by
  have h0 := idx2_lt0 j
  have h1 := idx2_lt1 j
  have hall : ∀ a, 0 ≤ (winDims P Q p q wf).start j idx a + (winDims P Q p q wf).window j a ∧
      (winDims P Q p q wf).start j idx a + (winDims P Q p q wf).window j a < (⟨2, ![P, Q]⟩ : Shape).size a := by
    intro a
    match a with
    | ⟨0, _⟩ =>
      show 0 ≤ (winDims P Q p q wf).start j idx 0 + (winDims P Q p q wf).window j 0 ∧
        (winDims P Q p q wf).start j idx 0 + (winDims P Q p q wf).window j 0 < (P : ℤ)
      rw [start_zero, window_zero, hr]; constructor <;> omega
    | ⟨1, _⟩ =>
      show 0 ≤ (winDims P Q p q wf).start j idx 1 + (winDims P Q p q wf).window j 1 ∧
        (winDims P Q p q wf).start j idx 1 + (winDims P Q p q wf).window j 1 < (Q : ℤ)
      rw [start_one, window_one, hc]; constructor <;> omega
  unfold ScatterDims.resultIdx?
  rw [dif_pos hall]
  congr 1
  funext a; refine Fin.ext ?_
  match a with
  | ⟨0, _⟩ =>
    show ((winDims P Q p q wf).start j idx 0 + (winDims P Q p q wf).window j 0).toNat = r0 + (j 0).val
    rw [start_zero, window_zero, hr]; omega
  | ⟨1, _⟩ =>
    show ((winDims P Q p q wf).start j idx 1 + (winDims P Q p q wf).window j 1).toNat = c0 + (j 1).val
    rw [start_one, window_one, hc]; omega

end Set

section Apply
variable {α : Type} {P Q p q w : ℕ} (wf : ScatterDims.WF ⟨2, ![P, Q]⟩ ⟨1, ![2]⟩ ⟨2, ![p, q]⟩ [0, 1] [] [0, 1] 0)

/-- THE WINDOW WRITE READ AT `(a, b)`: `x.at[r0:r0+p, c0:c0+q].set(upd)` with the window inside the operand is `upd` at
    `(a − r0, b − c0)` inside the window and `x` outside it. (Every update index lands inside the operand, each at a
    different element, so a window element is written by exactly one update index and an element outside by none.) -/
theorem scatter_set_apply (x : (⟨2, ![P, Q]⟩ : Shape).Idx → α) (idx : IVec ⟨1, ![2]⟩ w)
    (upd : (⟨2, ![p, q]⟩ : Shape).Idx → α) (r0 c0 : ℕ) (hr : (idx (ix1 0)).toInt = (r0 : ℤ))
    (hc : (idx (ix1 1)).toInt = (c0 : ℤ)) (hP : r0 + p ≤ P) (hQ : c0 + q ≤ Q) (a : Fin P) (b : Fin Q) :
    Host.scatter (winDims P Q p q wf) (fun _ u => u) x idx upd (ix2 a b)
      = if h : (r0 ≤ a.val ∧ a.val < r0 + p) ∧ (c0 ≤ b.val ∧ b.val < c0 + q) then
          upd (ix2 ⟨a.val - r0, by omega⟩ ⟨b.val - c0, by omega⟩)
        else x (ix2 a b) := by
  -- where an update index lands, as equations between coordinates
  have hland : ∀ j : (⟨2, ![p, q]⟩ : Shape).Idx, (winDims P Q p q wf).resultIdx? j idx = some (ix2 a b) →
      r0 + (j 0).val = a.val ∧ c0 + (j 1).val = b.val := by
    intro j hj
    rw [resultIdx_eq wf idx r0 c0 hr hc hP hQ] at hj
    have he := Option.some.inj hj
    exact ⟨congrArg Fin.val (congrFun he 0), congrArg Fin.val (congrFun he 1)⟩
  by_cases h : (r0 ≤ a.val ∧ a.val < r0 + p) ∧ (c0 ≤ b.val ∧ b.val < c0 + q)
  · rw [dif_pos h]
    refine scatter_set_of_hit _ x idx upd _ _ ⟨ix2 ⟨a.val - r0, by omega⟩ ⟨b.val - c0, by omega⟩, ?_⟩ ?_
    · rw [resultIdx_eq wf idx r0 c0 hr hc hP hQ]
      congr 1
      funext d; refine Fin.ext ?_
      match d with
      | ⟨0, _⟩ => show r0 + (a.val - r0) = a.val; omega
      | ⟨1, _⟩ => show c0 + (b.val - c0) = b.val; omega
    · intro j hj
      obtain ⟨e0, e1⟩ := hland j hj
      congr 1
      rw [eq_ix2 j]
      funext d; refine Fin.ext ?_
      match d with
      | ⟨0, _⟩ => show (j 0).val = a.val - r0; omega
      | ⟨1, _⟩ => show (j 1).val = b.val - c0; omega
  · rw [dif_neg h]
    refine scatter_set_of_miss _ x idx upd _ ?_
    intro j hj
    obtain ⟨e0, e1⟩ := hland j hj
    have l0 := idx2_lt0 j
    have l1 := idx2_lt1 j
    exact h ⟨⟨by omega, by omega⟩, ⟨by omega, by omega⟩⟩

end Apply

/-! ## The index vector `(r, c)` built from two scalar constants -/

section IdxPair

/-- The start index as the program builds it — two scalar constants, each broadcast to a one-element vector, concatenated
    — reads the first constant at position 0 … -/
theorem idx_pair_apply_zero (r c : BitVec 32)
    (h1 : (⟨0, ![]⟩ : Shape).BroadcastsInDim ⟨1, ![1]⟩ (![] : Fin 0 → Fin 1))
    (hcat : Shape.Concatenates [⟨1, ![1]⟩, ⟨1, ![1]⟩] ⟨1, ![2]⟩ 0) :
    concatenate ⟨1, ![2]⟩ 0
      [⟨⟨1, ![1]⟩, broadcastInDim ⟨1, ![1]⟩ ![] h1 (constantI ⟨0, ![]⟩ 32 r)⟩,
       ⟨⟨1, ![1]⟩, broadcastInDim ⟨1, ![1]⟩ ![] h1 (constantI ⟨0, ![]⟩ 32 c)⟩] hcat (ix1 0) = r := by
  rw [concatenate_pair_apply_left (t := ⟨1, ![2]⟩) (s₁ := ⟨1, ![1]⟩) (s₂ := ⟨1, ![1]⟩) 0 _ _ hcat (ix1 (0 : Fin 2)) rfl (ix1 (0 : Fin 1))
    (fun b => by match b with | ⟨0, _⟩ => rfl)]
  rfl

/-- … and the second constant at position 1. -/
theorem idx_pair_apply_one (r c : BitVec 32)
    (h1 : (⟨0, ![]⟩ : Shape).BroadcastsInDim ⟨1, ![1]⟩ (![] : Fin 0 → Fin 1))
    (hcat : Shape.Concatenates [⟨1, ![1]⟩, ⟨1, ![1]⟩] ⟨1, ![2]⟩ 0) :
    concatenate ⟨1, ![2]⟩ 0
      [⟨⟨1, ![1]⟩, broadcastInDim ⟨1, ![1]⟩ ![] h1 (constantI ⟨0, ![]⟩ 32 r)⟩,
       ⟨⟨1, ![1]⟩, broadcastInDim ⟨1, ![1]⟩ ![] h1 (constantI ⟨0, ![]⟩ 32 c)⟩] hcat (ix1 1) = c := by
  rw [concatenate_pair_apply_right (t := ⟨1, ![2]⟩) (s₁ := ⟨1, ![1]⟩) (s₂ := ⟨1, ![1]⟩) 0 _ _ hcat (ix1 (1 : Fin 2)) rfl rfl (ix1 (0 : Fin 1))
    (fun b hb => by match b with | ⟨0, _⟩ => exact absurd rfl hb) rfl]
  rfl

end IdxPair

/-! ## Four equal blocks on the diagonal -/

section BlockDiag
variable {α : Type} {P Q K J w : ℕ} (wf : ScatterDims.WF ⟨2, ![P, Q]⟩ ⟨1, ![2]⟩ ⟨2, ![K, J]⟩ [0, 1] [] [0, 1] 0)

/-- Two rank-2 indices with equal coordinates are equal. -/
theorem ix2_mk_eq {n0 n1 x x' y y' : ℕ} (hx : x < n0) (hx' : x' < n0) (hy : y < n1) (hy' : y' < n1) (ex : x = x')
    (ey : y = y') : ix2 (⟨x, hx⟩ : Fin n0) (⟨y, hy⟩ : Fin n1) = ix2 ⟨x', hx'⟩ ⟨y', hy'⟩ := by
  subst ex; subst ey; rfl

/-- THE BLOCK-DIAGONAL MATRIX READ AT `(a, b)`: writing the block `U : [K, J]` into `Z : [4K, 4J]` at the four starts
    `(K·g, J·g)`, g = 0, 1, 2, 3, one after the other, gives at `(a, b)` the block's element `(a mod K, b mod J)` when
    `a` and `b` are in the same diagonal block (`a / K = b / J`), and `Z`'s element otherwise. (The four windows are
    disjoint, so at most one of the four writes reaches `(a, b)`: the one of block `g = a / K`, when `b / J = g` too.) -/
theorem blockdiag4_apply (hK : 0 < K) (hJ : 0 < J) (hP : P = 4 * K) (hQ : Q = 4 * J)
    (Z : (⟨2, ![P, Q]⟩ : Shape).Idx → α) (U : (⟨2, ![K, J]⟩ : Shape).Idx → α) (i0 i1 i2 i3 : IVec ⟨1, ![2]⟩ w)
    (h00 : (i0 (ix1 0)).toInt = ((0 : ℕ) : ℤ)) (h01 : (i0 (ix1 1)).toInt = ((0 : ℕ) : ℤ))
    (h10 : (i1 (ix1 0)).toInt = ((K : ℕ) : ℤ)) (h11 : (i1 (ix1 1)).toInt = ((J : ℕ) : ℤ))
    (h20 : (i2 (ix1 0)).toInt = ((2 * K : ℕ) : ℤ)) (h21 : (i2 (ix1 1)).toInt = ((2 * J : ℕ) : ℤ))
    (h30 : (i3 (ix1 0)).toInt = ((3 * K : ℕ) : ℤ)) (h31 : (i3 (ix1 1)).toInt = ((3 * J : ℕ) : ℤ))
    (a : Fin P) (b : Fin Q) :
    Host.scatter (winDims P Q K J wf) (fun _ u => u)
        (Host.scatter (winDims P Q K J wf) (fun _ u => u)
          (Host.scatter (winDims P Q K J wf) (fun _ u => u)
            (Host.scatter (winDims P Q K J wf) (fun _ u => u) Z i0 U) i1 U) i2 U) i3 U (ix2 a b)
      = if a.val / K = b.val / J then U (ix2 ⟨a.val % K, Nat.mod_lt _ hK⟩ ⟨b.val % J, Nat.mod_lt _ hJ⟩)
        else Z (ix2 a b) := by
  rw [scatter_set_apply wf _ i3 U (3 * K) (3 * J) h30 h31 (by omega) (by omega),
    scatter_set_apply wf _ i2 U (2 * K) (2 * J) h20 h21 (by omega) (by omega),
    scatter_set_apply wf _ i1 U K J h10 h11 (by omega) (by omega),
    scatter_set_apply wf _ i0 U 0 0 h00 h01 (by omega) (by omega)]
  have ha := a.isLt
  have hb := b.isLt
  have hdmA := Nat.div_add_mod a.val K
  have hdmB := Nat.div_add_mod b.val J
  have hmlA := Nat.mod_lt a.val hK
  have hmlB := Nat.mod_lt b.val hJ
  have hdlA : a.val / K < 4 := (Nat.div_lt_iff_lt_mul hK).2 (by omega)
  have hdlB : b.val / J < 4 := (Nat.div_lt_iff_lt_mul hJ).2 (by omega)
  -- name the two quotients and the two remainders: the rest is linear arithmetic in them
  obtain ⟨ga, hga⟩ : ∃ ga, a.val / K = ga := ⟨_, rfl⟩
  obtain ⟨gb, hgb⟩ : ∃ gb, b.val / J = gb := ⟨_, rfl⟩
  obtain ⟨ra, hra⟩ : ∃ ra, a.val % K = ra := ⟨_, rfl⟩
  obtain ⟨rb, hrb⟩ : ∃ rb, b.val % J = rb := ⟨_, rfl⟩
  rw [hga, hra] at hdmA
  rw [hgb, hrb] at hdmB
  rw [hra] at hmlA
  rw [hrb] at hmlB
  rw [hga] at hdlA
  rw [hgb] at hdlB
  rw [hga, hgb]
  interval_cases ga <;> interval_cases gb <;> split_ifs <;>
    first
      | rfl
      | (exfalso; omega)
      | exact congrArg U (ix2_mk_eq _ _ _ _ (by omega) (by omega))

end BlockDiag

end Cert.LibScatterBlock

end
-- ==== Proof.PackedWeight.lean ====
/-
  The packed weight the host prepares for one layer.

  The host folds the low-rank update into the weight, We = W + B·A with W : [J, K], B : [J, R], A : [R, K], transposes
  it to [K, J], writes that block four times on the diagonal of a zero [4K, 4J] matrix — at the starts (K·g, J·g),
  g = 0, 1, 2, 3 — and narrows the result to bf16, which changes no value at the ideal values. The result is the
  block-diagonal matrix of the layer: entry (a, d) is the folded weight's entry (d mod J, a mod K) when a and d lie in
  the same diagonal block, and 0 elsewhere.
-/
import proofs.«119764_j79731772883173_2_alg».proof.Proof.LibScatterBlock
import proofs.«119764_j79731772883173_2_alg».proof.Proof.LibPlainDot
import proofs.«119764_j79731772883173_2_alg».proof.Proof.SplitLayer
import proofs.«119764_j79731772883173_2_alg».proof.Proof.PackedLayer

noncomputable section

open scoped BigOperators

namespace Cert.PackedWeight

open Idealize.ShloMosaic Idealize.ShloMosaic.ValueIdx Cert.Net

/-- The start index `(r, c)` as the program builds it: two scalar constants, each broadcast to a one-element vector,
    concatenated. -/
abbrev ivec (h1 : (⟨0, ![]⟩ : Shape).BroadcastsInDim ⟨1, ![1]⟩ (![] : Fin 0 → Fin 1))
    (hcat : Shape.Concatenates [⟨1, ![1]⟩, ⟨1, ![1]⟩] ⟨1, ![2]⟩ 0) (r c : BitVec 32) : IVec ⟨1, ![2]⟩ 32 :=
  concatenate ⟨1, ![2]⟩ 0
    [⟨⟨1, ![1]⟩, broadcastInDim ⟨1, ![1]⟩ ![] h1 (constantI ⟨0, ![]⟩ 32 r)⟩,
     ⟨⟨1, ![1]⟩, broadcastInDim ⟨1, ![1]⟩ ![] h1 (constantI ⟨0, ![]⟩ 32 c)⟩] hcat

/-- THE PACKED WEIGHT: the transposed folded weight `(W + B·A)ᵀ` written at the four diagonal starts of a zero
    `[4K, 4J]` matrix and narrowed to bf16 is the block-diagonal matrix of the layer `(W, b, A, B)`. Inside diagonal block
    `g` the element `(a, d)` is the block's `(a mod K, d mod J)`, the transpose's read of the sum `W + B·A` at
    `(d mod J, a mod K)`, and the product `B·A` there is `∑ r, B (d mod J, r) · A (r, a mod K)`; outside the blocks the
    zero matrix's element remains. -/
theorem packed_weight {K J R P Q : ℕ} (hK : 0 < K) (hJ : 0 < J) (hP : P = 4 * K) (hQ : Q = 4 * J)
    (wf : ScatterDims.WF ⟨2, ![P, Q]⟩ ⟨1, ![2]⟩ ⟨2, ![K, J]⟩ [0, 1] [] [0, 1] 0)
    (hz : (⟨0, ![]⟩ : Shape).BroadcastsInDim ⟨2, ![P, Q]⟩ (![] : Fin 0 → Fin 2))
    (h1 : (⟨0, ![]⟩ : Shape).BroadcastsInDim ⟨1, ![1]⟩ (![] : Fin 0 → Fin 1))
    (hcat : Shape.Concatenates [⟨1, ![1]⟩, ⟨1, ![1]⟩] ⟨1, ![2]⟩ 0)
    (hT : (⟨2, ![J, K]⟩ : Shape).Transposes [1, 0] ⟨2, ![K, J]⟩) (hbits : FTy.bits .bf16 < FTy.bits .f32)
    (W : FVec Ideal ⟨2, ![J, K]⟩ .f32) (b : FVec Ideal ⟨1, ![J]⟩ .f32) (A : FVec Ideal ⟨2, ![R, K]⟩ .f32)
    (B : FVec Ideal ⟨2, ![J, R]⟩ .f32) (r0 c0 r1 c1 r2 c2 r3 c3 : BitVec 32)
    (h00 : r0.toInt = ((0 : ℕ) : ℤ)) (h01 : c0.toInt = ((0 : ℕ) : ℤ))
    (h10 : r1.toInt = ((K : ℕ) : ℤ)) (h11 : c1.toInt = ((J : ℕ) : ℤ))
    (h20 : r2.toInt = ((2 * K : ℕ) : ℤ)) (h21 : c2.toInt = ((2 * J : ℕ) : ℤ))
    (h30 : r3.toInt = ((3 * K : ℕ) : ℤ)) (h31 : c3.toInt = ((3 * J : ℕ) : ℤ)) :
    PackedLayer.BlockDiag hK hJ
      (truncf .bf16
        (Host.scatter (LibScatterBlock.winDims P Q K J wf) (fun _ u => u)
          (Host.scatter (LibScatterBlock.winDims P Q K J wf) (fun _ u => u)
            (Host.scatter (LibScatterBlock.winDims P Q K J wf) (fun _ u => u)
              (Host.scatter (LibScatterBlock.winDims P Q K J wf) (fun _ u => u)
                (broadcastInDim ⟨2, ![P, Q]⟩ ![] hz (constant (F := Ideal) ⟨0, ![]⟩ .f32 0x00000000#32))
                (ivec h1 hcat r0 c0)
                (transpose ⟨2, ![K, J]⟩ [1, 0] (addf W (Host.dotGeneral (DotDims.plain J R K) none B A)) hT))
              (ivec h1 hcat r1 c1)
              (transpose ⟨2, ![K, J]⟩ [1, 0] (addf W (Host.dotGeneral (DotDims.plain J R K) none B A)) hT))
            (ivec h1 hcat r2 c2)
            (transpose ⟨2, ![K, J]⟩ [1, 0] (addf W (Host.dotGeneral (DotDims.plain J R K) none B A)) hT))
          (ivec h1 hcat r3 c3)
          (transpose ⟨2, ![K, J]⟩ [1, 0] (addf W (Host.dotGeneral (DotDims.plain J R K) none B A)) hT))
        hbits)
      (SplitLayer.layerOf W b A B) := by
  intro a d
  rw [truncf_apply]
  rw [LibScatterBlock.blockdiag4_apply wf hK hJ hP hQ _ _ (ivec h1 hcat r0 c0) (ivec h1 hcat r1 c1) (ivec h1 hcat r2 c2)
    (ivec h1 hcat r3 c3)
    ((LibScatterBlock.idx_pair_apply_zero r0 c0 h1 hcat).symm ▸ h00) ((LibScatterBlock.idx_pair_apply_one r0 c0 h1 hcat).symm ▸ h01)
    ((LibScatterBlock.idx_pair_apply_zero r1 c1 h1 hcat).symm ▸ h10) ((LibScatterBlock.idx_pair_apply_one r1 c1 h1 hcat).symm ▸ h11)
    ((LibScatterBlock.idx_pair_apply_zero r2 c2 h1 hcat).symm ▸ h20) ((LibScatterBlock.idx_pair_apply_one r2 c2 h1 hcat).symm ▸ h21)
    ((LibScatterBlock.idx_pair_apply_zero r3 c3 h1 hcat).symm ▸ h30) ((LibScatterBlock.idx_pair_apply_one r3 c3 h1 hcat).symm ▸ h31)
    a d]
  split_ifs with h
  · rw [SplitLayer.transpose_ix2 _ hT, addf_apply]
    simp only [Host.dotGeneral]
    rw [LibPlainDot.dotGeneral_apply]
    rfl
  · exact Ideal.ofBits_zero_f32

end Cert.PackedWeight

end
-- ==== Proof.KHost.lean ====
/-
  The arrays the region finds, read off the host operations before it.

  Before the region the host program reshapes the [1048576, 2] input to [262144, 8] (four logical rows side by side in
  one packed row: a row-major reshape keeps positions), tiles each layer's bias four times along one row, and builds each
  layer's packed weight: the transposed folded weight written four times on the diagonal of a zero matrix. Reading each of the thirteen buffers after the host operations gives the term the operations
  compute from the launch memory; the layout lemmas then give the entries: packed row P, group g, coordinate k of the
  input is entry (4·P + g, k) of the argument; position d of a tiled bias is the bias at d mod J; each packed weight is the layer's block-diagonal matrix.
-/
import proofs.«119764_j79731772883173_2_alg».proof.Proof.KFinal
import proofs.«119764_j79731772883173_2_alg».proof.Proof.LibPackLayout
import proofs.«119764_j79731772883173_2_alg».proof.Proof.PackedWeight
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Cert.Net Cert.PackedLayer Cert.SplitLayer

variable (m : (ℓ : Loc nD τ sig) → Buf (Elt Ideal) ℓ) (c : Dev nD)

/-! ## The packed input -/

set_option maxHeartbeats 8000000 in
/-- The packed input buffer holds the [1048576, 2] argument reshaped, row-major, to [262144, 8]. -/
theorem v150_eq : (V m c main_v150 : S262144x8.Idx → EReal)
    = shapeCast S262144x8 (m ((c : Thread nD τ).loc main_arg0)) Gen.shapeCasts_S1048576x2_S262144x8 := by
  show StableHlo.after hostOps0 (fun b => m (c, b)) (Proc.devRef .tc main_v150) = _
  dsimp only [hostOps0]
  after_results_simp
  rfl

/-- Packed row P, group g, coordinate k of the packed input is entry (4·P + g, k) of the argument: both sit at
    row-major position 8·P + 2·g + k. -/
theorem entry_x (P : Fin 262144) (g : Fin 4) (k : Fin 2) :
    (V m c main_v150 : S262144x8.Idx → EReal) (ix2 P (pos Body.e8 g k))
      = Final.rowOf (m ((c : Thread nD τ).loc main_arg0)) (4 * P.val + g.val) k := by
  have hn : 4 * P.val + g.val < 1048576 := by have := P.isLt; have := g.isLt; omega
  rw [v150_eq]
  refine (LibPackLayout.pack_rows_apply (by norm_num) (by norm_num) _ _ P g k).trans ?_
  simp only [Final.rowOf, dif_pos hn]

/-! ## The tiled biases -/

set_option maxHeartbeats 8000000 in
/-- The tiled-bias buffer of layer 1 holds the bias argument viewed as [1, 64], then [1, 1, 1, 64], broadcast to
    [1, 1, 4, 64] and reshaped to one row of 256 entries. -/
theorem v129_eq : (V m c main_v129 : S1x256.Idx → EReal)
    = shapeCast S1x256 (broadcastInDim S1x1x4x64 ![0, 1, 2, 3] Gen.bcast_S1x1x1x64_S1x1x4x64_0_1_2_3
        (shapeCast S1x1x1x64 (shapeCast S1x64 (m ((c : Thread nD τ).loc main_arg2)) Gen.shapeCasts_S64_S1x64)
          Gen.shapeCasts_S1x64_S1x1x1x64)) Gen.shapeCasts_S1x1x4x64_S1x256 := by
  show StableHlo.after hostOps0 (fun b => m (c, b)) (Proc.devRef .tc main_v129) = _
  dsimp only [hostOps0]
  after_results_simp
  rfl

/-- Position d of layer 1's tiled bias is the bias at d mod 64. -/
theorem entry_b1 : Tiled (J := 64) (by norm_num) (V m c main_v129 : S1x256.Idx → EReal) (Final.L1 m c) := by
  intro d
  rw [v129_eq]
  exact LibPackLayout.tile_bias_apply (by norm_num) _ _ _ _ _ (by norm_num) d

set_option maxHeartbeats 8000000 in
/-- The tiled-bias buffer of layer 2 holds the bias argument viewed as [1, 64], then [1, 1, 1, 64], broadcast to
    [1, 1, 4, 64] and reshaped to one row of 256 entries. -/
theorem v133_eq : (V m c main_v133 : S1x256.Idx → EReal)
    = shapeCast S1x256 (broadcastInDim S1x1x4x64 ![0, 1, 2, 3] Gen.bcast_S1x1x1x64_S1x1x4x64_0_1_2_3
        (shapeCast S1x1x1x64 (shapeCast S1x64 (m ((c : Thread nD τ).loc main_arg4)) Gen.shapeCasts_S64_S1x64)
          Gen.shapeCasts_S1x64_S1x1x1x64)) Gen.shapeCasts_S1x1x4x64_S1x256 := by
  show StableHlo.after hostOps0 (fun b => m (c, b)) (Proc.devRef .tc main_v133) = _
  dsimp only [hostOps0]
  after_results_simp
  rfl

/-- Position d of layer 2's tiled bias is the bias at d mod 64. -/
theorem entry_b2 : Tiled (J := 64) (by norm_num) (V m c main_v133 : S1x256.Idx → EReal) (Final.L2 m c) := by
  intro d
  rw [v133_eq]
  exact LibPackLayout.tile_bias_apply (by norm_num) _ _ _ _ _ (by norm_num) d

set_option maxHeartbeats 8000000 in
/-- The tiled-bias buffer of layer 3 holds the bias argument viewed as [1, 64], then [1, 1, 1, 64], broadcast to
    [1, 1, 4, 64] and reshaped to one row of 256 entries. -/
theorem v137_eq : (V m c main_v137 : S1x256.Idx → EReal)
    = shapeCast S1x256 (broadcastInDim S1x1x4x64 ![0, 1, 2, 3] Gen.bcast_S1x1x1x64_S1x1x4x64_0_1_2_3
        (shapeCast S1x1x1x64 (shapeCast S1x64 (m ((c : Thread nD τ).loc main_arg6)) Gen.shapeCasts_S64_S1x64)
          Gen.shapeCasts_S1x64_S1x1x1x64)) Gen.shapeCasts_S1x1x4x64_S1x256 := by
  show StableHlo.after hostOps0 (fun b => m (c, b)) (Proc.devRef .tc main_v137) = _
  dsimp only [hostOps0]
  after_results_simp
  rfl

/-- Position d of layer 3's tiled bias is the bias at d mod 64. -/
theorem entry_b3 : Tiled (J := 64) (by norm_num) (V m c main_v137 : S1x256.Idx → EReal) (Final.L3 m c) := by
  intro d
  rw [v137_eq]
  exact LibPackLayout.tile_bias_apply (by norm_num) _ _ _ _ _ (by norm_num) d

set_option maxHeartbeats 8000000 in
/-- The tiled-bias buffer of layer 4 holds the bias argument viewed as [1, 64], then [1, 1, 1, 64], broadcast to
    [1, 1, 4, 64] and reshaped to one row of 256 entries. -/
theorem v141_eq : (V m c main_v141 : S1x256.Idx → EReal)
    = shapeCast S1x256 (broadcastInDim S1x1x4x64 ![0, 1, 2, 3] Gen.bcast_S1x1x1x64_S1x1x4x64_0_1_2_3
        (shapeCast S1x1x1x64 (shapeCast S1x64 (m ((c : Thread nD τ).loc main_arg8)) Gen.shapeCasts_S64_S1x64)
          Gen.shapeCasts_S1x64_S1x1x1x64)) Gen.shapeCasts_S1x1x4x64_S1x256 := by
  show StableHlo.after hostOps0 (fun b => m (c, b)) (Proc.devRef .tc main_v141) = _
  dsimp only [hostOps0]
  after_results_simp
  rfl

/-- Position d of layer 4's tiled bias is the bias at d mod 64. -/
theorem entry_b4 : Tiled (J := 64) (by norm_num) (V m c main_v141 : S1x256.Idx → EReal) (Final.L4 m c) := by
  intro d
  rw [v141_eq]
  exact LibPackLayout.tile_bias_apply (by norm_num) _ _ _ _ _ (by norm_num) d

set_option maxHeartbeats 8000000 in
/-- The tiled-bias buffer of layer 5 holds the bias argument viewed as [1, 64], then [1, 1, 1, 64], broadcast to
    [1, 1, 4, 64] and reshaped to one row of 256 entries. -/
theorem v145_eq : (V m c main_v145 : S1x256.Idx → EReal)
    = shapeCast S1x256 (broadcastInDim S1x1x4x64 ![0, 1, 2, 3] Gen.bcast_S1x1x1x64_S1x1x4x64_0_1_2_3
        (shapeCast S1x1x1x64 (shapeCast S1x64 (m ((c : Thread nD τ).loc main_arg10)) Gen.shapeCasts_S64_S1x64)
          Gen.shapeCasts_S1x64_S1x1x1x64)) Gen.shapeCasts_S1x1x4x64_S1x256 := by
  show StableHlo.after hostOps0 (fun b => m (c, b)) (Proc.devRef .tc main_v145) = _
  dsimp only [hostOps0]
  after_results_simp
  rfl

/-- Position d of layer 5's tiled bias is the bias at d mod 64. -/
theorem entry_b5 : Tiled (J := 64) (by norm_num) (V m c main_v145 : S1x256.Idx → EReal) (Final.L5 m c) := by
  intro d
  rw [v145_eq]
  exact LibPackLayout.tile_bias_apply (by norm_num) _ _ _ _ _ (by norm_num) d

set_option maxHeartbeats 8000000 in
/-- The tiled-bias buffer of layer 6 holds the bias argument viewed as [1, 3], then [1, 1, 1, 3], broadcast to
    [1, 1, 4, 3] and reshaped to one row of 12 entries. -/
theorem v149_eq : (V m c main_v149 : S1x12.Idx → EReal)
    = shapeCast S1x12 (broadcastInDim S1x1x4x3 ![0, 1, 2, 3] Gen.bcast_S1x1x1x3_S1x1x4x3_0_1_2_3
        (shapeCast S1x1x1x3 (shapeCast S1x3 (m ((c : Thread nD τ).loc main_arg12)) Gen.shapeCasts_S3_S1x3)
          Gen.shapeCasts_S1x3_S1x1x1x3)) Gen.shapeCasts_S1x1x4x3_S1x12 := by
  show StableHlo.after hostOps0 (fun b => m (c, b)) (Proc.devRef .tc main_v149) = _
  dsimp only [hostOps0]
  after_results_simp
  rfl

/-- Position d of layer 6's tiled bias is the bias at d mod 3. -/
theorem entry_b6 : Tiled (J := 3) (by norm_num) (V m c main_v149 : S1x12.Idx → EReal) (Final.L6 m c) := by
  intro d
  rw [v149_eq]
  exact LibPackLayout.tile_bias_apply (by norm_num) _ _ _ _ _ (by norm_num) d

/-! ## The packed weights -/

/-- Two one-element index vectors concatenated into a start index `(r, c)`: the same array as the printed
    concatenation, with the two operands as plain arguments. -/
def cat2 (a b : S1.Idx → BitVec 32) : S2.Idx → BitVec 32 :=
  concatenate S2 0 [⟨S1, a⟩, ⟨S1, b⟩] Gen.concatenates_S1_S1_S2_d0

/-- The printed concatenation of two one-element vectors is `cat2` of them. -/
theorem cat2_def (a b : S1.Idx → BitVec 32) :
    concatenate S2 0 [⟨S1, a⟩, ⟨S1, b⟩] Gen.concatenates_S1_S1_S2_d0 = cat2 a b := rfl

open Idealize.ShloMosaic.StableHlo in
/-- The buffers' contents after the host operations, as one rewriting pass; a concatenation's two operands are first
    moved out of the list that holds them, so that their own contents are rewritten too. -/
macro "after_results_cat" : tactic =>
  `(tactic| (simp (disch := decide) only [cat2_def, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- A block-diagonal matrix stays one when the array is replaced by an equal one. -/
theorem blockDiag_of_eq {K J R C D : ℕ} {hK : 0 < K} {hJ : 0 < J} {X Y : (⟨2, ![C, D]⟩ : Shape).Idx → EReal} {L : Layer K J R}
    (h : Y = X) (k : BlockDiag hK hJ X L) : BlockDiag hK hJ Y L := h ▸ k

set_option maxHeartbeats 8000000 in
/-- Layer 1's packed-weight buffer is the block-diagonal matrix of the layer: after the host operations it holds the
    transposed folded weight written at the starts ((0, 0), (2, 64), (4, 128), (6, 192)) of a zero [8, 256] matrix,
    narrowed to bf16. -/
theorem entry_w1 : BlockDiag (K := 2) (J := 64) (by norm_num) (by norm_num) (V m c main_v30 : S8x256.Idx → EReal) (Final.L1 m c) := by
  refine blockDiag_of_eq ?_ (PackedWeight.packed_weight (K := 2) (J := 64) (R := 8) (P := 8) (Q := 256) (by norm_num) (by norm_num) rfl rfl
    Gen.scatter_S8x256_S2_S2x64_01_n_01_0_wf Gen.bcast_S_S8x256 Gen.bcast_S_S1 Gen.concatenates_S1_S1_S2_d0 Gen.transposes_S64x2_S2x64_1_0 Gen.bitsLt_bf16_f32
    (m ((c : Thread nD τ).loc main_arg1)) (m ((c : Thread nD τ).loc main_arg2)) (m ((c : Thread nD τ).loc main_arg13)) (m ((c : Thread nD τ).loc main_arg14))
    0#32 0#32 2#32 64#32 4#32 128#32 6#32 192#32 rfl rfl rfl rfl rfl rfl rfl rfl)
  show StableHlo.after hostOps0 (fun b => m (c, b)) (Proc.devRef .tc main_v30) = _
  dsimp only [hostOps0]
  after_results_cat
  rfl

set_option maxHeartbeats 8000000 in
/-- Layer 2's packed-weight buffer is the block-diagonal matrix of the layer: after the host operations it holds the
    transposed folded weight written at the starts ((0, 0), (64, 64), (128, 128), (192, 192)) of a zero [256, 256] matrix,
    narrowed to bf16. -/
theorem entry_w2 : BlockDiag (K := 64) (J := 64) (by norm_num) (by norm_num) (V m c main_v49 : S256x256.Idx → EReal) (Final.L2 m c) := by
  refine blockDiag_of_eq ?_ (PackedWeight.packed_weight (K := 64) (J := 64) (R := 8) (P := 256) (Q := 256) (by norm_num) (by norm_num) rfl rfl
    Gen.scatter_S256x256_S2_S64x64_01_n_01_0_wf Gen.bcast_S_S256x256 Gen.bcast_S_S1 Gen.concatenates_S1_S1_S2_d0 Gen.transposes_S64x64_S64x64_1_0 Gen.bitsLt_bf16_f32
    (m ((c : Thread nD τ).loc main_arg3)) (m ((c : Thread nD τ).loc main_arg4)) (m ((c : Thread nD τ).loc main_arg15)) (m ((c : Thread nD τ).loc main_arg16))
    0#32 0#32 64#32 64#32 128#32 128#32 192#32 192#32 rfl rfl rfl rfl rfl rfl rfl rfl)
  show StableHlo.after hostOps0 (fun b => m (c, b)) (Proc.devRef .tc main_v49) = _
  dsimp only [hostOps0]
  after_results_cat
  rfl

set_option maxHeartbeats 8000000 in
/-- Layer 3's packed-weight buffer is the block-diagonal matrix of the layer: after the host operations it holds the
    transposed folded weight written at the starts ((0, 0), (64, 64), (128, 128), (192, 192)) of a zero [256, 256] matrix,
    narrowed to bf16. -/
theorem entry_w3 : BlockDiag (K := 64) (J := 64) (by norm_num) (by norm_num) (V m c main_v68 : S256x256.Idx → EReal) (Final.L3 m c) := by
  refine blockDiag_of_eq ?_ (PackedWeight.packed_weight (K := 64) (J := 64) (R := 8) (P := 256) (Q := 256) (by norm_num) (by norm_num) rfl rfl
    Gen.scatter_S256x256_S2_S64x64_01_n_01_0_wf Gen.bcast_S_S256x256 Gen.bcast_S_S1 Gen.concatenates_S1_S1_S2_d0 Gen.transposes_S64x64_S64x64_1_0 Gen.bitsLt_bf16_f32
    (m ((c : Thread nD τ).loc main_arg5)) (m ((c : Thread nD τ).loc main_arg6)) (m ((c : Thread nD τ).loc main_arg17)) (m ((c : Thread nD τ).loc main_arg18))
    0#32 0#32 64#32 64#32 128#32 128#32 192#32 192#32 rfl rfl rfl rfl rfl rfl rfl rfl)
  show StableHlo.after hostOps0 (fun b => m (c, b)) (Proc.devRef .tc main_v68) = _
  dsimp only [hostOps0]
  after_results_cat
  rfl

set_option maxHeartbeats 8000000 in
/-- Layer 4's packed-weight buffer is the block-diagonal matrix of the layer: after the host operations it holds the
    transposed folded weight written at the starts ((0, 0), (64, 64), (128, 128), (192, 192)) of a zero [256, 256] matrix,
    narrowed to bf16. -/
theorem entry_w4 : BlockDiag (K := 64) (J := 64) (by norm_num) (by norm_num) (V m c main_v87 : S256x256.Idx → EReal) (Final.L4 m c) := by
  refine blockDiag_of_eq ?_ (PackedWeight.packed_weight (K := 64) (J := 64) (R := 8) (P := 256) (Q := 256) (by norm_num) (by norm_num) rfl rfl
    Gen.scatter_S256x256_S2_S64x64_01_n_01_0_wf Gen.bcast_S_S256x256 Gen.bcast_S_S1 Gen.concatenates_S1_S1_S2_d0 Gen.transposes_S64x64_S64x64_1_0 Gen.bitsLt_bf16_f32
    (m ((c : Thread nD τ).loc main_arg7)) (m ((c : Thread nD τ).loc main_arg8)) (m ((c : Thread nD τ).loc main_arg19)) (m ((c : Thread nD τ).loc main_arg20))
    0#32 0#32 64#32 64#32 128#32 128#32 192#32 192#32 rfl rfl rfl rfl rfl rfl rfl rfl)
  show StableHlo.after hostOps0 (fun b => m (c, b)) (Proc.devRef .tc main_v87) = _
  dsimp only [hostOps0]
  after_results_cat
  rfl

set_option maxHeartbeats 8000000 in
/-- Layer 5's packed-weight buffer is the block-diagonal matrix of the layer: after the host operations it holds the
    transposed folded weight written at the starts ((0, 0), (64, 64), (128, 128), (192, 192)) of a zero [256, 256] matrix,
    narrowed to bf16. -/
theorem entry_w5 : BlockDiag (K := 64) (J := 64) (by norm_num) (by norm_num) (V m c main_v106 : S256x256.Idx → EReal) (Final.L5 m c) := by
  refine blockDiag_of_eq ?_ (PackedWeight.packed_weight (K := 64) (J := 64) (R := 8) (P := 256) (Q := 256) (by norm_num) (by norm_num) rfl rfl
    Gen.scatter_S256x256_S2_S64x64_01_n_01_0_wf Gen.bcast_S_S256x256 Gen.bcast_S_S1 Gen.concatenates_S1_S1_S2_d0 Gen.transposes_S64x64_S64x64_1_0 Gen.bitsLt_bf16_f32
    (m ((c : Thread nD τ).loc main_arg9)) (m ((c : Thread nD τ).loc main_arg10)) (m ((c : Thread nD τ).loc main_arg21)) (m ((c : Thread nD τ).loc main_arg22))
    0#32 0#32 64#32 64#32 128#32 128#32 192#32 192#32 rfl rfl rfl rfl rfl rfl rfl rfl)
  show StableHlo.after hostOps0 (fun b => m (c, b)) (Proc.devRef .tc main_v106) = _
  dsimp only [hostOps0]
  after_results_cat
  rfl

set_option maxHeartbeats 8000000 in
/-- Layer 6's packed-weight buffer is the block-diagonal matrix of the layer: after the host operations it holds the
    transposed folded weight written at the starts ((0, 0), (64, 3), (128, 6), (192, 9)) of a zero [256, 12] matrix,
    narrowed to bf16. -/
theorem entry_w6 : BlockDiag (K := 64) (J := 3) (by norm_num) (by norm_num) (V m c main_v125 : S256x12.Idx → EReal) (Final.L6 m c) := by
  refine blockDiag_of_eq ?_ (PackedWeight.packed_weight (K := 64) (J := 3) (R := 8) (P := 256) (Q := 12) (by norm_num) (by norm_num) rfl rfl
    Gen.scatter_S256x12_S2_S64x3_01_n_01_0_wf Gen.bcast_S_S256x12 Gen.bcast_S_S1 Gen.concatenates_S1_S1_S2_d0 Gen.transposes_S3x64_S64x3_1_0 Gen.bitsLt_bf16_f32
    (m ((c : Thread nD τ).loc main_arg11)) (m ((c : Thread nD τ).loc main_arg12)) (m ((c : Thread nD τ).loc main_arg23)) (m ((c : Thread nD τ).loc main_arg24))
    0#32 0#32 64#32 3#32 128#32 6#32 192#32 9#32 rfl rfl rfl rfl rfl rfl rfl rfl)
  show StableHlo.after hostOps0 (fun b => m (c, b)) (Proc.devRef .tc main_v125) = _
  dsimp only [hostOps0]
  after_results_cat
  rfl

/-! ## The thirteen arrays together -/

/-- What the region finds in its thirteen input arrays: the packed input, and per layer the block-diagonal weight and
    the tiled bias. -/
theorem entry : Final.Entry m c where
  x := entry_x m c
  w1 := entry_w1 m c
  b1 := entry_b1 m c
  w2 := entry_w2 m c
  b2 := entry_b2 m c
  w3 := entry_w3 m c
  b3 := entry_b3 m c
  w4 := entry_w4 m c
  b4 := entry_b4 m c
  w5 := entry_w5 m c
  b5 := entry_b5 m c
  w6 := entry_w6 m c
  b6 := entry_b6 m c

end Cert.KernelIdeal.Host

end
-- ==== Proof.RefValue.lean ====
/-
  The reference's [N, 3] output array, row by row.

  The reference program is six layers, each  h·Wᵀ + b + (h·Aᵀ)·Bᵀ  on the whole activation array, with tanh after the
  first five.  Every operation acts on rows independently, so entry (n, c) of the final array is the reference network
  (the layers in their reference form) applied to row n of the input, at coordinate c.
-/
import proofs.«119764_j79731772883173_2_alg».proof.Proof.Gen.ReferenceIdeal.Read
import proofs.«119764_j79731772883173_2_alg».proof.Proof.SplitLayer

set_option maxRecDepth 8192

noncomputable section

namespace Cert.ReferenceIdeal.RefValue

open Cert.ReferenceIdeal Cert.ReferenceIdeal.Read Idealize.ShloMosaic Idealize.ShloMosaic.ValueIdx Cert.Net Cert.SplitLayer

variable [Facts]
variable (x0 : FVec Ideal S1048576x2 .f32) (x1 : FVec Ideal S64x2 .f32) (x2 : FVec Ideal S64 .f32)
  (x3 : FVec Ideal S64x64 .f32) (x4 : FVec Ideal S64 .f32) (x5 : FVec Ideal S64x64 .f32) (x6 : FVec Ideal S64 .f32)
  (x7 : FVec Ideal S64x64 .f32) (x8 : FVec Ideal S64 .f32) (x9 : FVec Ideal S64x64 .f32) (x10 : FVec Ideal S64 .f32)
  (x11 : FVec Ideal S3x64 .f32) (x12 : FVec Ideal S3 .f32) (x13 : FVec Ideal S8x2 .f32) (x14 : FVec Ideal S64x8 .f32)
  (x15 : FVec Ideal S8x64 .f32) (x16 : FVec Ideal S64x8 .f32) (x17 : FVec Ideal S8x64 .f32) (x18 : FVec Ideal S64x8 .f32)
  (x19 : FVec Ideal S8x64 .f32) (x20 : FVec Ideal S64x8 .f32) (x21 : FVec Ideal S8x64 .f32) (x22 : FVec Ideal S64x8 .f32)
  (x23 : FVec Ideal S8x64 .f32) (x24 : FVec Ideal S3x8 .f32)

open Facts₀ Facts in
/-- After the first layer and its tanh: row n of the input through the first layer. -/
theorem h1_apply (n : Fin 1048576) (j : Fin 64) :
    val_main_v10 (F := Ideal) x0 x1 x2 x13 x14 (ix2 n j)
      = act ((layerOf x1 x2 x13 x14).split (fun k => x0 (ix2 n k))) j := by
  unfold val_main_v10 val_main_v9 val_main_v4 val_main_v8 val_main_v1 val_main_v3 val_main_v0 val_main_v2 val_main_v6
    val_main_v5 val_main_v7
  rw [hostTanh_apply]
  exact congrArg Ideal.tanh (split_apply transposes_S64x2_S2x64_1_0 transposes_S8x2_S2x8_1_0 transposes_S64x8_S8x64_1_0
    bcast_S64_S1x64_1 bcast_S1x64_S1048576x64_0_1 x0 x1 x2 x13 x14 n j)

open Facts₀ Facts in
/-- After the second layer and its tanh: row n of the first layer's output through the second layer. -/
theorem h2_apply (n : Fin 1048576) (j : Fin 64) :
    val_main_v21 (F := Ideal) x0 x1 x2 x3 x4 x13 x14 x15 x16 (ix2 n j)
      = act ((layerOf x3 x4 x15 x16).split (fun k => val_main_v10 (F := Ideal) x0 x1 x2 x13 x14 (ix2 n k))) j := by
  unfold val_main_v21 val_main_v20 val_main_v15 val_main_v19 val_main_v12 val_main_v14 val_main_v11 val_main_v13
    val_main_v17 val_main_v16 val_main_v18
  rw [hostTanh_apply]
  exact congrArg Ideal.tanh (split_apply transposes_S64x64_S64x64_1_0 transposes_S8x64_S64x8_1_0 transposes_S64x8_S8x64_1_0
    bcast_S64_S1x64_1 bcast_S1x64_S1048576x64_0_1 (val_main_v10 (F := Ideal) x0 x1 x2 x13 x14) x3 x4 x15 x16 n j)

open Facts₀ Facts in
/-- After the third layer and its tanh. -/
theorem h3_apply (n : Fin 1048576) (j : Fin 64) :
    val_main_v32 (F := Ideal) x0 x1 x2 x3 x4 x5 x6 x13 x14 x15 x16 x17 x18 (ix2 n j)
      = act ((layerOf x5 x6 x17 x18).split
          (fun k => val_main_v21 (F := Ideal) x0 x1 x2 x3 x4 x13 x14 x15 x16 (ix2 n k))) j := by
  unfold val_main_v32 val_main_v31 val_main_v26 val_main_v30 val_main_v23 val_main_v25 val_main_v22 val_main_v24
    val_main_v28 val_main_v27 val_main_v29
  rw [hostTanh_apply]
  exact congrArg Ideal.tanh (split_apply transposes_S64x64_S64x64_1_0 transposes_S8x64_S64x8_1_0 transposes_S64x8_S8x64_1_0
    bcast_S64_S1x64_1 bcast_S1x64_S1048576x64_0_1 (val_main_v21 (F := Ideal) x0 x1 x2 x3 x4 x13 x14 x15 x16) x5 x6 x17 x18 n j)

open Facts₀ Facts in
/-- After the fourth layer and its tanh. -/
theorem h4_apply (n : Fin 1048576) (j : Fin 64) :
    val_main_v43 (F := Ideal) x0 x1 x2 x3 x4 x5 x6 x7 x8 x13 x14 x15 x16 x17 x18 x19 x20 (ix2 n j)
      = act ((layerOf x7 x8 x19 x20).split
          (fun k => val_main_v32 (F := Ideal) x0 x1 x2 x3 x4 x5 x6 x13 x14 x15 x16 x17 x18 (ix2 n k))) j := by
  unfold val_main_v43 val_main_v42 val_main_v37 val_main_v41 val_main_v34 val_main_v36 val_main_v33 val_main_v35
    val_main_v39 val_main_v38 val_main_v40
  rw [hostTanh_apply]
  exact congrArg Ideal.tanh (split_apply transposes_S64x64_S64x64_1_0 transposes_S8x64_S64x8_1_0 transposes_S64x8_S8x64_1_0
    bcast_S64_S1x64_1 bcast_S1x64_S1048576x64_0_1
    (val_main_v32 (F := Ideal) x0 x1 x2 x3 x4 x5 x6 x13 x14 x15 x16 x17 x18) x7 x8 x19 x20 n j)

open Facts₀ Facts in
/-- After the fifth layer and its tanh. -/
theorem h5_apply (n : Fin 1048576) (j : Fin 64) :
    val_main_v54 (F := Ideal) x0 x1 x2 x3 x4 x5 x6 x7 x8 x9 x10 x13 x14 x15 x16 x17 x18 x19 x20 x21 x22 (ix2 n j)
      = act ((layerOf x9 x10 x21 x22).split
          (fun k => val_main_v43 (F := Ideal) x0 x1 x2 x3 x4 x5 x6 x7 x8 x13 x14 x15 x16 x17 x18 x19 x20 (ix2 n k))) j := by
  unfold val_main_v54 val_main_v53 val_main_v48 val_main_v52 val_main_v45 val_main_v47 val_main_v44 val_main_v46
    val_main_v50 val_main_v49 val_main_v51
  rw [hostTanh_apply]
  exact congrArg Ideal.tanh (split_apply transposes_S64x64_S64x64_1_0 transposes_S8x64_S64x8_1_0 transposes_S64x8_S8x64_1_0
    bcast_S64_S1x64_1 bcast_S1x64_S1048576x64_0_1
    (val_main_v43 (F := Ideal) x0 x1 x2 x3 x4 x5 x6 x7 x8 x13 x14 x15 x16 x17 x18 x19 x20) x9 x10 x21 x22 n j)

open Facts₀ Facts in
/-- The sixth layer (no tanh): the reference's [N, 3] array. -/
theorem h6_apply (n : Fin 1048576) (j : Fin 3) :
    val_main_v64 (F := Ideal) x0 x1 x2 x3 x4 x5 x6 x7 x8 x9 x10 x11 x12 x13 x14 x15 x16 x17 x18 x19 x20 x21 x22 x23 x24 (ix2 n j)
      = (layerOf x11 x12 x23 x24).split (fun k => val_main_v54 (F := Ideal) x0 x1 x2 x3 x4 x5 x6 x7 x8 x9 x10 x13 x14 x15 x16
          x17 x18 x19 x20 x21 x22 (ix2 n k)) j := by
  unfold val_main_v64 val_main_v59 val_main_v63 val_main_v56 val_main_v58 val_main_v55 val_main_v57
    val_main_v61 val_main_v60 val_main_v62
  exact split_apply transposes_S3x64_S64x3_1_0 transposes_S8x64_S64x8_1_0 transposes_S3x8_S8x3_1_0
    bcast_S3_S1x3_1 bcast_S1x3_S1048576x3_0_1
    (val_main_v54 (F := Ideal) x0 x1 x2 x3 x4 x5 x6 x7 x8 x9 x10 x13 x14 x15 x16 x17 x18 x19 x20 x21 x22) x11 x12 x23 x24 n j

/-- Entry (n, c) of the reference's [N, 3] array is the reference network on row n of the input, at c. -/
theorem out_apply (n : Fin 1048576) (j : Fin 3) :
    val_main_v64 (F := Ideal) x0 x1 x2 x3 x4 x5 x6 x7 x8 x9 x10 x11 x12 x13 x14 x15 x16 x17 x18 x19 x20 x21 x22 x23 x24 (ix2 n j)
      = netSplit (layerOf x1 x2 x13 x14) (layerOf x3 x4 x15 x16) (layerOf x5 x6 x17 x18) (layerOf x7 x8 x19 x20)
          (layerOf x9 x10 x21 x22) (layerOf x11 x12 x23 x24) (fun k => x0 (ix2 n k)) j := by
  rw [h6_apply]
  simp only [h5_apply, h4_apply, h3_apply, h2_apply, h1_apply]
  rfl

end Cert.ReferenceIdeal.RefValue

end
-- ==== Proof.RefOut.lean ====
/-
  The reference's [N, 3] array is the common array.
-/
import proofs.«119764_j79731772883173_2_alg».proof.Proof.RefValue
import proofs.«119764_j79731772883173_2_alg».proof.Proof.KOut

set_option maxRecDepth 8192

noncomputable section

namespace Cert.ReferenceIdeal.RefOut

open Cert.ReferenceIdeal Cert.ReferenceIdeal.Read Idealize.ShloMosaic Idealize.ShloMosaic.ValueIdx Cert.Net Cert.SplitLayer
open Cert.KernelIdeal.Final (rowOf)
open Cert.KernelIdeal.Out (outArr)

variable [Facts]
variable (x0 : FVec Ideal S1048576x2 .f32) (x1 : FVec Ideal S64x2 .f32) (x2 : FVec Ideal S64 .f32)
  (x3 : FVec Ideal S64x64 .f32) (x4 : FVec Ideal S64 .f32) (x5 : FVec Ideal S64x64 .f32) (x6 : FVec Ideal S64 .f32)
  (x7 : FVec Ideal S64x64 .f32) (x8 : FVec Ideal S64 .f32) (x9 : FVec Ideal S64x64 .f32) (x10 : FVec Ideal S64 .f32)
  (x11 : FVec Ideal S3x64 .f32) (x12 : FVec Ideal S3 .f32) (x13 : FVec Ideal S8x2 .f32) (x14 : FVec Ideal S64x8 .f32)
  (x15 : FVec Ideal S8x64 .f32) (x16 : FVec Ideal S64x8 .f32) (x17 : FVec Ideal S8x64 .f32) (x18 : FVec Ideal S64x8 .f32)
  (x19 : FVec Ideal S8x64 .f32) (x20 : FVec Ideal S64x8 .f32) (x21 : FVec Ideal S8x64 .f32) (x22 : FVec Ideal S64x8 .f32)
  (x23 : FVec Ideal S8x64 .f32) (x24 : FVec Ideal S3x8 .f32)

/-- Row n of the input, as the network's argument. -/
theorem row_eq (n : Fin 1048576) : (fun k => x0 (ix2 n k)) = rowOf x0 n.val := by
  funext k
  unfold rowOf
  rw [dif_pos n.isLt]

/-- The reference's [N, 3] array is the reference network on every row of the input. -/
theorem out_eq :
    val_main_v64 (F := Ideal) x0 x1 x2 x3 x4 x5 x6 x7 x8 x9 x10 x11 x12 x13 x14 x15 x16 x17 x18 x19 x20 x21 x22 x23 x24
      = outArr x0 (layerOf x1 x2 x13 x14) (layerOf x3 x4 x15 x16) (layerOf x5 x6 x17 x18) (layerOf x7 x8 x19 x20)
          (layerOf x9 x10 x21 x22) (layerOf x11 x12 x23 x24) := by
  funext i
  obtain ⟨n, j, rfl⟩ : ∃ (n : Fin 1048576) (j : Fin 3), i = ix2 n j := ⟨i 0, i 1, eq_ix2 i⟩
  rw [Cert.ReferenceIdeal.RefValue.out_apply, row_eq]
  rfl

end Cert.ReferenceIdeal.RefOut

end
-- ==== Proof.lean ====
/-
  A six-layer perceptron with low-rank updates, computed two ways.

  The reference applies, to every row v of the input, six layers  v·Wᵀ + b + (v·Aᵀ)·Bᵀ  with tanh after the first five, and
  returns the three columns of the result.  The kernel program first folds each update into its weight, W' = W + B·A,
  then packs four logical rows into one physical row (a row-major reshape), so that one pass over a block-diagonal copy
  of W'ᵀ and a four-fold repeated bias serves four rows at once; it unpacks at the end and returns the three columns.

  Packing is exact on the extended reals: the off-diagonal zeros contribute x·0 = 0, and each group of a packed row is a
  logical row.  Folding is exact where every number is real — it is distributivity and an exchange of two finite sums —
  and under the precondition every input and parameter is real, while tanh and the layers keep rows real.  So both
  programs end with the same [N, 3] array, row n being the reference network on row n of the input; the three results
  are its columns.  The frames are the generated ones (the reference's is its run with the results dropped), and the
  idealization ledger is empty.
-/
import proofs.«119764_j79731772883173_2_alg».proof.Defs
import proofs.«119764_j79731772883173_2_alg».proof.Proof.Gen.Kernel
import proofs.«119764_j79731772883173_2_alg».proof.Proof.Gen.Kernel.Skeleton
import proofs.«119764_j79731772883173_2_alg».proof.Proof.Gen.Kernel.Launch
import proofs.«119764_j79731772883173_2_alg».proof.Proof.Gen.Kernel.Points
import proofs.«119764_j79731772883173_2_alg».proof.Proof.Gen.Kernel.Frame
import proofs.«119764_j79731772883173_2_alg».proof.Proof.Gen.KernelIdeal
import proofs.«119764_j79731772883173_2_alg».proof.Proof.Gen.KernelIdeal.Skeleton
import proofs.«119764_j79731772883173_2_alg».proof.Proof.Gen.KernelIdeal.Launch
import proofs.«119764_j79731772883173_2_alg».proof.Proof.Gen.KernelIdeal.Points
import proofs.«119764_j79731772883173_2_alg».proof.Proof.Gen.KernelIdeal.Frame
import proofs.«119764_j79731772883173_2_alg».proof.Proof.Gen.ReferenceIdeal
import proofs.«119764_j79731772883173_2_alg».proof.Proof.Gen.Pre_finite_inputs
import proofs.«119764_j79731772883173_2_alg».proof.Proof.Gen.ReferenceIdeal.Run
import proofs.«119764_j79731772883173_2_alg».proof.Proof.Gen.ReferenceIdeal.Read
import proofs.«119764_j79731772883173_2_alg».proof.Proof.KRun
import proofs.«119764_j79731772883173_2_alg».proof.Proof.KHost
import proofs.«119764_j79731772883173_2_alg».proof.Proof.RefOut
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- The two idealized programs end with the same three columns of the same [N, 3] array. -/
theorem algebraic : Cert.algebraic_KernelIdeal_ReferenceIdeal := by
  intro m ρ m' ρ' hpre hagree
  refine ⟨fun c => Cert.KernelIdeal.Run.col m c 0 Cert.KernelIdeal.Gen.slices_S1048576x3_S1048576x1_0_0,
    fun c => Cert.KernelIdeal.Run.col m c 1 Cert.KernelIdeal.Gen.slices_S1048576x3_S1048576x1_0_1,
    fun c => Cert.KernelIdeal.Run.col m c 2 Cert.KernelIdeal.Gen.slices_S1048576x3_S1048576x1_0_2,
    Cert.KernelIdeal.Run.run m ρ hpre (Cert.KernelIdeal.Host.entry m), ?_⟩
  refine (θ_run Cert.ReferenceIdeal.defs _ _).mono (fun r h c => ?_) (Cert.ReferenceIdeal.Value.run (F := Ideal) m' ρ')
  obtain ⟨h65, h66, h67, hargs⟩ := h c
  obtain ⟨a0, a1, a2, a3, a4, a5, a6, a7, a8, a9, a10, a11, a12, a13, a14, a15, a16, a17, a18, a19, a20, a21, a22, a23, a24⟩ := hagree c
  refine ⟨h65.trans ?_, h66.trans ?_, h67.trans ?_, hargs⟩
  · rw [Cert.ReferenceIdeal.Read.val_main_v65_eq]
    unfold Cert.ReferenceIdeal.Read.val_main_v65
    rw [Cert.ReferenceIdeal.RefOut.out_eq, a0, a1, a2, a3, a4, a5, a6, a7, a8, a9, a10, a11, a12, a13, a14, a15, a16, a17, a18, a19, a20, a21, a22, a23, a24]
    rfl
  · rw [Cert.ReferenceIdeal.Read.val_main_v66_eq]
    unfold Cert.ReferenceIdeal.Read.val_main_v66
    rw [Cert.ReferenceIdeal.RefOut.out_eq, a0, a1, a2, a3, a4, a5, a6, a7, a8, a9, a10, a11, a12, a13, a14, a15, a16, a17, a18, a19, a20, a21, a22, a23, a24]
    rfl
  · rw [Cert.ReferenceIdeal.Read.val_main_v67_eq]
    unfold Cert.ReferenceIdeal.Read.val_main_v67
    rw [Cert.ReferenceIdeal.RefOut.out_eq, a0, a1, a2, a3, a4, a5, a6, a7, a8, a9, a10, a11, a12, a13, a14, a15, a16, a17, a18, a19, a20, a21, a22, a23, a24]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
